-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  main_v3
-- ==== Kernel.lean ====
abbrev S2048x4096 : Shape := ⟨2, ![2048, 4096]⟩
abbrev S1x4096 : Shape := ⟨2, ![1, 4096]⟩
abbrev S2048x512 : Shape := ⟨2, ![2048, 512]⟩
abbrev S1x512 : Shape := ⟨2, ![1, 512]⟩
abbrev S512 : Shape := ⟨1, ![512]⟩
abbrev S4096 : Shape := ⟨1, ![4096]⟩
abbrev S_ : Shape := ⟨0, ![]⟩
abbrev S6144x4096 : Shape := ⟨2, ![6144, 4096]⟩
abbrev S512x512 : Shape := ⟨2, ![512, 512]⟩

abbrev nBuf : Space → Nat
  | .hbm => 13
  | .vmem => 22
  | .smem => 0
  | _ => 0

abbrev bufTy : (tb : Table) → Fin (tcTables nBuf tb) → BufTy
  | .hbm, ⟨0, _⟩ => ⟨S2048x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096, .f32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S1x4096, .i32⟩
  | .hbm, ⟨12, _⟩ => ⟨S6144x4096, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .i32⟩
  | .local _ .vmem, ⟨19, _⟩ => ⟨S1x512, .i32⟩
  | .local _ .vmem, ⟨20, _⟩ => ⟨S512x512, .f32⟩
  | .local _ .vmem, ⟨21, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 12], ![false, false]⟩

def k1_cond1 (i : grid1.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k1_cond2 (i : grid1.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_1 : BitVec 32 := 0#32
  let v5 : BitVec 1 := Scalar.cmpi .ne v4 c0_i32_1
  v5

def k1_cond3 (i : grid1.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc1_transform_0 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S2048x512_S2048x512_0_0 : ∀ a, (![0, 0] : Fin 2 → Nat) a + S2048x512.size a ≤ S2048x512.size a
  h_S2048x512 : 0 < S2048x512.numel
  slices_S2048x512_o0_0_S1x512 : S2048x512.Slices ![0, 0] S1x512
  iota_S2048x512_d0_w32 : S2048x512.Iotas .tc 32 [0]
  reduces_S2048x512_S512 : S2048x512.Reduces [0] S512
  shapeCasts_S512_S1x512 : S512.ShapeCasts S1x512
  natLt_1_32 : 1 < 32
  inb_S1x512_S1x512_0_0 : ∀ a, (![0, 0] : Fin 2 → Nat) a + S1x512.size a ≤ S1x512.size a
  h_S1x512 : 0 < S1x512.numel
  shapeCasts_S1x4096_S4096 : S1x4096.ShapeCasts S4096
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S1x512_S1x512 : S1x512.ShapeCasts S1x512
  broadcasts_S1x512_S512x512 : S1x512.Broadcasts S512x512
  inb_S512x512_S1x512_0_0 : ∀ a, (![0, 0] : Fin 2 → Nat) a + S1x512.size a ≤ S512x512.size a
  iota_S512x512_d0_w32 : S512x512.Iotas .tc 32 [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x4096.size a
  hwx0_0 : ∀ i : grid0.Coords, EltTy.bits .f32 = 32 ∨ (Rect.block (s := S2048x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x4096.size a
  hwx1_0 : ∀ i : grid1.Coords, EltTy.bits .f32 = 32 ∨ (Rect.block (s := S2048x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x4096.size a
  hwx1_1 : ∀ i : grid1.Coords, EltTy.bits .f32 = 32 ∨ (Rect.block (s := S1x4096) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .i32 = 32 ∨ (Rect.block (s := S1x4096) S1x512.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S6144x4096.size a
  hwx1_5 : ∀ i : grid1.Coords, EltTy.bits .f32 = 32 ∨ (Rect.block (s := S6144x4096) S512x512.size (cc1_transform_5 i) (hinb1_5 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_3) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) && !(k1_cond3 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S2047x4096 : Shape := ⟨2, ![2047, 4096]⟩
abbrev S_ : Shape := ⟨0, ![]⟩
abbrev S4096 : Shape := ⟨1, ![4096]⟩
abbrev S1x4096 : Shape := ⟨2, ![1, 4096]⟩
abbrev S6144x4096 : Shape := ⟨2, ![6144, 4096]⟩
abbrev S1 : Shape := ⟨1, ![1]⟩
abbrev S4096x1 : Shape := ⟨2, ![4096, 1]⟩
abbrev S4096x2 : Shape := ⟨2, ![4096, 2]⟩

abbrev nBuf : Space → Nat
  | .hbm => 99
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2047x4096, .f32⟩
  | .hbm, ⟨2, _⟩ => ⟨S2047x4096, .f32⟩
  | .hbm, ⟨3, _⟩ => ⟨S_, .f32⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .i1⟩
  | .hbm, ⟨15, _⟩ => ⟨S_, .f32⟩
  | .hbm, ⟨16, _⟩ => ⟨S4096, .f32⟩
  | .hbm, ⟨17, _⟩ => ⟨S4096, .i1⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .i1⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S1x4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S1x4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S2047x4096, .f32⟩
  | .hbm, ⟨55, _⟩ => ⟨S4096, .f32⟩
  | .hbm, ⟨56, _⟩ => ⟨S4096, .f32⟩
  | .hbm, ⟨57, _⟩ => ⟨S1x4096, .f32⟩
  | .hbm, ⟨58, _⟩ => ⟨S2047x4096, .f32⟩
  | .hbm, ⟨59, _⟩ => ⟨S2047x4096, .f32⟩
  | .hbm, ⟨60, _⟩ => ⟨S4096, .i32⟩
  | .hbm, ⟨61, _⟩ => ⟨S_, .i32⟩
  | .hbm, ⟨62, _⟩ => ⟨S_, .i32⟩
  | .hbm, ⟨63, _⟩ => ⟨S4096, .i32⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S_, .f32⟩
  | .hbm, ⟨70, _⟩ => ⟨S6144x4096, .f32⟩
  | .hbm, ⟨71, _⟩ => ⟨S_, .i32⟩
  | .hbm, ⟨72, _⟩ => ⟨S1, .i32⟩
  | .hbm, ⟨73, _⟩ => ⟨S6144x4096, .f32⟩
  | .hbm, ⟨74, _⟩ => ⟨S_, .i32⟩
  | .hbm, ⟨75, _⟩ => ⟨S1, .i32⟩
  | .hbm, ⟨76, _⟩ => ⟨S6144x4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x1, .i32⟩
  | .hbm, ⟨97, _⟩ => ⟨S4096x2, .i32⟩
  | .hbm, ⟨98, _⟩ => ⟨S6144x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call2_call0_c : Ref sig .tc := ⟨.hbm, 61, rfl⟩
abbrev main_call2_call0_v0 : Ref sig .tc := ⟨.hbm, 62, rfl⟩
abbrev main_v48 : Ref sig .tc := ⟨.hbm, 63, rfl⟩
abbrev main_c : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_c_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_v66 : Ref sig .tc := ⟨.hbm, 89, rfl⟩
abbrev main_v67 : Ref sig .tc := ⟨.hbm, 90, rfl⟩
abbrev main_c_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]

class Facts₀ : Prop where
  slices_S2048x4096_S2047x4096_1_0 : S2048x4096.Slices ![1, 0] S2047x4096
  reducesTo_S2047x4096_S4096_d0 : S2047x4096.ReducesTo [0] S4096
  h_S_ : 0 < S_.numel
  slices_S2048x4096_S1x4096_0_0 : S2048x4096.Slices ![0, 0] S1x4096
  shapeCasts_S1x4096_S4096 : S1x4096.ShapeCasts S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S2047x4096_0_1 : S1x4096.BroadcastsInDim S2047x4096 (![0, 1] : Fin 2 → Fin S2047x4096.rank)
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  bcast_S_S6144x4096 : S_.BroadcastsInDim S6144x4096 (![] : Fin 0 → Fin S6144x4096.rank)
  bcast_S_S1 : S_.BroadcastsInDim S1 (![] : Fin 0 → Fin S1.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  scatter_S6144x4096_S1_S4096_0_0_0_0_wf : ScatterDims.WF S6144x4096 S1 S4096 [0] [0] [0] 0
  scatter_S6144x4096_S1_S2047x4096_01_n_0_0_wf : ScatterDims.WF S6144x4096 S1 S2047x4096 [0, 1] [] [0] 0
  scatter_S6144x4096_S4096x2_S4096_n_01_01_1_wf : ScatterDims.WF S6144x4096 S4096x2 S4096 [] [0, 1] [0, 1] 1

variable [Facts₀]

def scatter_S6144x4096_S1_S4096_0_0_0_0 : ScatterDims S6144x4096 S1 S4096 where
  updateWindowDims := [0]
  insertedWindowDims := [0]
  scatterDimsToOperandDims := [0]
  indexVectorDim := 0
  wf := scatter_S6144x4096_S1_S4096_0_0_0_0_wf
def scatter_S6144x4096_S1_S2047x4096_01_n_0_0 : ScatterDims S6144x4096 S1 S2047x4096 where
  updateWindowDims := [0, 1]
  insertedWindowDims := []
  scatterDimsToOperandDims := [0]
  indexVectorDim := 0
  wf := scatter_S6144x4096_S1_S2047x4096_01_n_0_0_wf
def scatter_S6144x4096_S4096x2_S4096_n_01_01_1 : ScatterDims S6144x4096 S4096x2 S4096 where
  updateWindowDims := []
  insertedWindowDims := [0, 1]
  scatterDimsToOperandDims := [0, 1]
  indexVectorDim := 1
  wf := scatter_S6144x4096_S4096x2_S4096_n_01_01_1_wf

class Facts : Prop extends Facts₀ where

variable [Facts]
-- ==== Proof.BReg0.lean ====
/-
  Region 0 of the kernel program (the column pass), at the contents `V` the region is entered with.

  The grid has 8 points; point j stages the column strip x[:, 512 j : 512 j + 512] (window 0, a [2048, 512] block) and
  writes back four [1, 512] rows of per-column results: window 1 the scale, window 2 the centre, window 3 the crossing
  flag, window 4 the new error term. The body reads the strip once and stores each result row whole, so after the body
  each output buffer holds one pure function of the strip; nothing is carried from point to point.
-/
import proofs.«135706_j46454366273944_2_alg».proof.Proof.Gen.Kernel.Launch
import proofs.«135706_j46454366273944_2_alg».proof.Proof.Gen.Kernel.Skeleton
import proofs.«135706_j46454366273944_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input strip's staging buffer holds the strip at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole strip, a whole result row -/

abbrev rX : Rect S2048x512 := Rect.unit (s := S2048x512) ![0, 0] S2048x512.size inb_S2048x512_S2048x512_0_0
abbrev rV0 : Rect S1x512 := Rect.unit (s := S1x512) ![0, 0] S1x512.size inb_S1x512_S1x512_0_0

/-! ## What the body leaves in each result row's buffer: its one store, of a pure function of the strip -/

/-- the scale row: lam · cross + pos -/
def out0_1 (x0 : Vec F S2048x512 .f32) : Vec F S1x512 .f32 :=
  View.canon [⟨rV0, k0_pay1 (k0_pay8 (View.ld x0 rX)) (k0_pay12 (View.ld x0 rX))⟩]
/-- the centre row -/
def out0_2 (x0 : Vec F S2048x512 .f32) : Vec F S1x512 .f32 :=
  View.canon [⟨rV0, k0_pay11 (View.ld x0 rX)⟩]
/-- the crossing flag row -/
def out0_3 (x0 : Vec F S2048x512 .f32) : Vec F S1x512 .f32 :=
  View.canon [⟨rV0, k0_pay7 (View.ld x0 rX)⟩]
/-- the new error term row: (delta / 2) · cross -/
def out0_4 (x0 : Vec F S2048x512 .f32) : Vec F S1x512 .f32 :=
  View.canon [⟨rV0, k0_pay2 (k0_pay7 (View.ld x0 rX)) (k0_pay10 (View.ld x0 rX))⟩]

/-- One store of a whole row covers the row. -/
theorem cover0_row (p0 : Vec F S1x512 .f32) (y : S1x512.Idx) :
    ∃ pc ∈ ([⟨rV0, p0⟩] : List (View.Piece (Elt F) S1x512 .f32)), y ∈ pc.1.set :=
  View.cover_of_tiled [⟨rV0, p0⟩] S1x512.size (by rfl) y

/-! ## The body's triple -/

set_option maxHeartbeats 4000000 in
/-- The body on whole staging memrefs, the strip's at contents `x0` and the result rows' at anything, runs to the
    continuation holding the strip as it was and each result row at its function of the strip. -/
theorem sound_kernel0 (c : Dev nD) (E : Set ℕ) (i : grid0.Coords)
    (arg1 : Memref sig .tc .vmem S2048x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole)
    (x0 : Vec F S2048x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out0_1 x0) ∗ owns (c : Thread nD τ) arg3 fullShare (out0_2 x0)
            ∗ owns (c : Thread nD τ) arg4 fullShare (out0_3 x0) ∗ owns (c : Thread nD τ) arg5 fullShare (out0_4 x0)) -∗ K ⟨⟩))
      ⊢ wp frame (wpE (defs₀ (F := F)) Variants.none c none) E (cc0__pass1_kernel i arg1 harg1 arg2 harg2 arg3 harg3 arg4 harg4 arg5 harg5) K := by
  simp only [cc0__pass1_kernel_eq_skeleton]; unfold cc0__pass1_kernel_skel
  simp only [k0_part1_eq_skeleton]; unfold k0_part1_skel
  unfold owns
  iintro ⟨⟨%f1, %hf1, H1⟩, ⟨%d2, %f2, -, H2⟩, ⟨%d3, %f3, -, H3⟩, ⟨%d4, %f4, -, H4⟩, ⟨%d5, %f5, -, H5⟩, Hk⟩
  subst hf1
  sl_exec
  sl_step
  iapply Hk
  isplitl [H1]
  · iexists f1; isplitr; · ipureintro; rfl
    iexact H1
  isplitl [H2]
  · iexists _; isplitr
    swap; · iexact H2
    ipureintro
    try dsimp only
    exact View.read_writes_eq_canon _ _ _ (cover0_row _)
  isplitl [H3]
  · iexists _; isplitr
    swap; · iexact H3
    ipureintro
    try dsimp only
    exact View.read_writes_eq_canon _ _ _ (cover0_row _)
  isplitl [H4]
  · iexists _; isplitr
    swap; · iexact H4
    ipureintro
    try dsimp only
    exact View.read_writes_eq_canon _ _ _ (cover0_row _)
  iexists _; isplitr
  swap; · iexact H5
  ipureintro
  try dsimp only
  exact View.read_writes_eq_canon _ _ _ (cover0_row _)

/-! ## The pipeline's proof data -/

/-- The proof data of pipeline 0 on core `c`: the arrays as the region finds them; after the body at point `t` the
    strip's buffer at the strip and each result row's at its function of the strip; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BReg1.lean ====
/- Region 1 (the second pallas_call, grid [8, 12], six windows: five inputs and one output) at a
   parameter `V`, the TensorCore's buffer contents when the region is entered: each window's block at a grid
   point, what the body leaves in the output window's staging buffer (three cases on the second grid coordinate),
   the body's triple in each case, the pipeline's proof data and the body obligation. -/
import proofs.«135706_j46454366273944_2_alg».proof.Proof.Gen.Kernel.Launch
import proofs.«135706_j46454366273944_2_alg».proof.Proof.Gen.Kernel.Skeleton
import proofs.«135706_j46454366273944_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- the whole [512, 512] output buffer -/
abbrev rW : Rect S512x512 := Rect.unit (s := S512x512) ![0, 0] S512x512.size inb_S512x512_S512x512_0_0
/-- row 0 of the [512, 512] output buffer -/
abbrev rRow0 : Rect S512x512 := Rect.unit (s := S512x512) ![0, 0] S1x512.size inb_S512x512_S1x512_0_0
/-- a whole [1, 512] buffer -/
abbrev rV : Rect S1x512 := Rect.unit (s := S1x512) ![0, 0] S1x512.size inb_S1x512_S1x512_0_0

/-! ## What the body leaves in the output window's buffer -/

/-- What the body leaves in window 5's buffer at a point with coordinates `i`, from the input blocks: the stores as
    pieces, LAST FIRST. Where the second coordinate is at least 4 only the third store happens; where it is 0 the
    first store (the whole buffer) is followed by the second (row 0); at 1, 2, 3 only the first happens. -/
def out1_5 (i : grid1.Coords) (x0 : Vec F S512x512 .f32) (x1 x2 x3 : Vec F S1x512 .f32) (x4 : Vec F S1x512 .i32) : Vec F S512x512 .f32 :=
  if k1_cond3 i = 1#1 then View.canon [⟨rW, k1_pay3 i (View.ld x4 rV) (View.ld x3 rV)⟩]
  else if k1_cond2 i = 1#1 then View.canon [⟨rRow0, k1_pay2 (View.ld x2 rV)⟩, ⟨rW, k1_pay1 (View.ld x0 rW) (View.ld x1 rV)⟩]
  else View.canon [⟨rW, k1_pay1 (View.ld x0 rW) (View.ld x1 rV)⟩]

/-! ## The pipeline's proof data -/

/-- The proof data of the second pipeline on core `c`: the arrays as the region finds them (`V`); after the body at
    point `t` each input's buffer at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (grid1.coords t) (iblk1 V c 0 t) (iblk1 V c 1 t) (iblk1 V c 2 t) (iblk1 V c 3 t) (iblk1 V c 4 t) := by dsimp only [dat1]

/-! ## The body's three conditions, from the second grid coordinate -/

/-- The first condition's scalar chain, decided over the twelve values of the second coordinate: it holds below 4. -/
theorem cond1_fin : ∀ j : Fin 12, (Scalar.cmpi .ne (Scalar.extui (Scalar.cmpi .slt (BitVec.ofNat 32 j.val) 4#32)) 0#32 = 1#1) ↔ j.val < 4 := by decide
/-- The second holds at 0 only. -/
theorem cond2_fin : ∀ j : Fin 12, (Scalar.cmpi .ne (Scalar.extui (Scalar.cmpi .eq (BitVec.ofNat 32 j.val) 0#32)) 0#32 = 1#1) ↔ j.val = 0 := by decide
/-- The third holds from 4 on. -/
theorem cond3_fin : ∀ j : Fin 12, (Scalar.cmpi .ne (Scalar.extui (Scalar.cmpi .sge (BitVec.ofNat 32 j.val) 4#32)) 0#32 = 1#1) ↔ 4 ≤ j.val := by decide

theorem cond1_iff (i : grid1.Coords) : k1_cond1 i = 1#1 ↔ (i 1).val < 4 := cond1_fin (i 1)
theorem cond2_iff (i : grid1.Coords) : k1_cond2 i = 1#1 ↔ (i 1).val = 0 := cond2_fin (i 1)
theorem cond3_iff (i : grid1.Coords) : k1_cond3 i = 1#1 ↔ 4 ≤ (i 1).val := cond3_fin (i 1)

/-- Input window 0's current staging buffer holds its block at every point, fetched there or not, for any proof
    data whose array is `V`'s and whose body leaves the block in place: where the window is not fetched its block
    index has not moved, so the buffer still holds this point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not, for any proof
    data whose array is `V`'s and whose body leaves the block in place: where the window is not fetched its block
    index has not moved, so the buffer still holds this point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not, for any proof
    data whose array is `V`'s and whose body leaves the block in place: where the window is not fetched its block
    index has not moved, so the buffer still holds this point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not, for any proof
    data whose array is `V`'s and whose body leaves the block in place: where the window is not fetched its block
    index has not moved, so the buffer still holds this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not, for any proof
    data whose array is `V`'s and whose body leaves the block in place: where the window is not fetched its block
    index has not moved, so the buffer still holds this point's block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-! ## The body's triple, case by case

The kernel body on whole staging memrefs, the inputs' at read contents `x0 … x4` and the output's at anything, runs to
the continuation holding the inputs' as they were and the output's at the canonical contents of the case's stores.
Each `scf.if` is decided by the case's hypotheses. -/

/-- The single whole-buffer piece covers the buffer (it tiles it). -/
theorem cover_W (p0 : Vec F S512x512 .f32) (y : S512x512.Idx) :
    ∃ pc ∈ ([⟨rW, p0⟩] : List (View.Piece (Elt F) S512x512 .f32)), y ∈ pc.1.set :=
  View.cover_of_tiled [⟨rW, p0⟩] S512x512.size (by rfl) y

/-- A row-0 piece over the whole-buffer piece: covered because the whole-buffer piece alone covers. -/
theorem cover_RowW (p1 : Vec F S1x512 .f32) (p0 : Vec F S512x512 .f32) (y : S512x512.Idx) :
    ∃ pc ∈ ([⟨rRow0, p1⟩, ⟨rW, p0⟩] : List (View.Piece (Elt F) S512x512 .f32)), y ∈ pc.1.set := by
  obtain ⟨pc, hm, hy⟩ := cover_W p0 y
  exact ⟨pc, List.mem_cons_of_mem _ hm, hy⟩

set_option maxHeartbeats 1000000 in
/-- Case A (second coordinate 0): the first store (the whole buffer), then the second (row 0). -/
theorem sound_kernel1_A (c : Dev nD) (E : Set ℕ) (i : grid1.Coords) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x512 .f32) (harg7 : arg7.IsWhole)
    (h1 : k1_cond1 i = 1#1) (h2 : k1_cond2 i = 1#1) (h3 : ¬ k1_cond3 i = 1#1)
    (x0 : Vec F S512x512 .f32) (x1 x2 x3 : Vec F S1x512 .f32) (x4 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon [⟨rRow0, k1_pay2 (View.ld x2 rV)⟩, ⟨rW, k1_pay1 (View.ld x0 rW) (View.ld x1 rV)⟩])) -∗ K ⟨⟩))
      ⊢ wp frame (wpE (defs₀ (F := F)) Variants.none c none) E (cc1__pass2_kernel i arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_RowW _ _)

set_option maxHeartbeats 1000000 in
/-- Case B (second coordinate 1, 2 or 3): only the first store happens. -/
theorem sound_kernel1_B (c : Dev nD) (E : Set ℕ) (i : grid1.Coords) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x512 .f32) (harg7 : arg7.IsWhole)
    (h1 : k1_cond1 i = 1#1) (h2 : ¬ k1_cond2 i = 1#1) (h3 : ¬ k1_cond3 i = 1#1)
    (x0 : Vec F S512x512 .f32) (x1 x2 x3 : Vec F S1x512 .f32) (x4 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon [⟨rW, k1_pay1 (View.ld x0 rW) (View.ld x1 rV)⟩])) -∗ K ⟨⟩))
      ⊢ wp frame (wpE (defs₀ (F := F)) Variants.none c none) E (cc1__pass2_kernel i arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_W _)

set_option maxHeartbeats 1000000 in
/-- Case C (second coordinate at least 4): only the third store happens. -/
theorem sound_kernel1_C (c : Dev nD) (E : Set ℕ) (i : grid1.Coords) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x512 .f32) (harg7 : arg7.IsWhole)
    (h1 : ¬ k1_cond1 i = 1#1) (h2 : ¬ k1_cond2 i = 1#1) (h3 : k1_cond3 i = 1#1)
    (x0 : Vec F S512x512 .f32) (x1 x2 x3 : Vec F S1x512 .f32) (x4 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon [⟨rW, k1_pay3 i (View.ld x4 rV) (View.ld x3 rV)⟩])) -∗ K ⟨⟩))
      ⊢ wp frame (wpE (defs₀ (F := F)) Variants.none c none) E (cc1__pass2_kernel i arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_W _)

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks (`before1_k`); the point's second coordinate is 0,
    in 1..3, or at least 4, which decides the three conditions, and the case's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h3 : k1_cond3 (grid1.coords t) = 1#1
  · -- the second coordinate is at least 4
    have h1 : ¬ k1_cond1 (grid1.coords t) = 1#1 := by
      rw [cond1_iff]; have := (cond3_iff _).mp h3; omega
    have h2 : ¬ k1_cond2 (grid1.coords t) = 1#1 := by
      rw [cond2_iff]; have := (cond3_iff _).mp h3; omega
    rw [out1_5, if_pos h3]
    iintro ⟨HΦ, Ho, ⟨%d0, H0⟩, ⟨%d1, H1⟩, ⟨%d2, H2⟩, ⟨%d3, H3⟩, ⟨%d4, H4⟩, ⟨%d5, H5⟩⟩
    iapply (sound_kernel1_C c Set.univ (grid1.coords t) _ _ _ _ _ _ _ _ _ _ _ _ h1 h2 h3
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h1 : k1_cond1 (grid1.coords t) = 1#1 := by
      rw [cond1_iff]; have := (cond3_iff _).not.mp h3; omega
    by_cases h2 : k1_cond2 (grid1.coords t) = 1#1
    · -- the second coordinate is 0
      rw [out1_5, if_neg h3, if_pos h2]
      iintro ⟨HΦ, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ h1 h2 h3
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · -- the second coordinate is 1, 2 or 3
      rw [out1_5, if_neg h3, if_neg h2]
      iintro ⟨HΦ, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ h1 h2 h3
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. The output window is declared idle only where none of the three
    conditions holds and it is written back at every point, so whichever way its idle flag falls the obligation
    asks for its buffer at what the body leaves. -/
theorem body_obligation1 (c : Dev nD) : BodyObligation (dat1 (F := F) V c) (defs₀ (F := F)) Variants.none () Set.univ := fun t => by
  rw [bigSep_W1, bigSep_W1]
  have hfl : (cfg1.win 5).flush t = true := flush1_5 t
  simp only [hfl]
  generalize idle1 5 (grid1.coords t) = b
  cases b <;> exact sound_body1 V c t

end Cert.Kernel.Hand

end
-- ==== Proof.BRun.lean ====
/-
  The run of the kernel program: region 0, three stretches of host operations, region 1.

  The buffer contents at each boundary are a fold from the launch memory: a region's arrays at what its write-backs
  leave, every other buffer as the region found it; a host stretch by its operations. Every weakly fair execution of
  @main terminates with every unscoped buffer at the last boundary's contents; in particular the argument is as
  launched and the result array is what region 1's write-backs leave.
-/
import proofs.«135706_j46454366273944_2_alg».proof.Proof.BReg0
import proofs.«135706_j46454366273944_2_alg».proof.Proof.BReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0 is entered with them. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: the four result rows at what the write-backs leave, everything else as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the flag row is flattened and converted to integers, -/
abbrev W2 : Dev nD → Valuation τ sig (Elt F) := fun c => StableHlo.after hostOps1 (W1 m ρ c)
/-- after the running sum, -/
abbrev W3 : Dev nD → Valuation τ sig (Elt F) := fun c => StableHlo.after hostOps1_1 (W2 m ρ c)
/-- after the rank (running sum less the own flag) is laid out as a row: region 1's entry. -/
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- At region 1's exit: the result array at what the write-backs leave, everything else as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- A host stretch does not write a buffer none of its operations writes. -/
theorem after_keeps (ops : List (HloOp τ sig (Elt F))) (W : Valuation τ sig (Elt F)) (b : Ref sig .tc)
    (h : ∀ op ∈ ops, Proc.devRef .tc b ∉ op.writes) : StableHlo.after ops W (Proc.devRef .tc b) = W (Proc.devRef .tc b) :=
  StableHlo.after_of_forall_not_mem (b := Proc.devRef .tc b) _ _ h

/-! ### The argument ends as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat1 (V4 m ρ) c).arrAt_in 0 rfl _).trans (A_eq1 (V4 m ρ) c 0))
    _ = W3 m ρ c (Proc.devRef .tc main_arg0) := StableHlo.after_of_forall_not_mem (b := Proc.devRef .tc main_arg0) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1_1, List.Forall, StableHlo.TRef.nullary, StableHlo.TRef.unary, StableHlo.TRef.binary, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The result array at the end is what region 1's write-backs leave. -/
theorem W5_main_v6 (c : Dev nD) : W5 m ρ c (Proc.devRef .tc main_v6) = (dat1 (V4 m ρ) c).arrAt 5 cfg1.N :=
  W5_arr m ρ c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]

theorem main_run (c : Dev nD) : main (F := F) c = Pipeline.Seg.run (segs m ρ) := by
  rw [main_chain c, Pipeline.Seg.run_eq_chain]; rfl

set_option backward.isDefEq.respectTransparency.types false in
/-- THE RUN: from any memory with zero counters every weakly fair execution of @main terminates, nothing faulting,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

/-- The run with the result named: the result array ends at what region 1's write-backs leave, the argument as launched. -/
theorem run_value : θ_run defs (onTc (τ := τ) (main (F := F))) ⟨m, fun _ => 0, ρ⟩ (fun r => ∀ c : Dev nD,
      r.2.mem ((c.tc : Thread nD τ).loc main_v6) = (dat1 (V4 m ρ) c).arrAt 5 cfg1.N
      ∧ r.2.mem ((c.tc : Thread nD τ).loc main_arg0) = m ((c.tc : Thread nD τ).loc main_arg0)) :=
  (θ_run defs _ _).mono (fun _ h c => ⟨(h c _ (mem_uc main_v6 (by decide))).trans (W5_main_v6 m ρ c),
    (h c _ (mem_uc main_arg0 (by decide))).trans (W5_main_arg0 m ρ c)⟩) (run_all m ρ)

end Cert.Kernel.Hand

end
-- ==== Proof.KReg0.lean ====
/-
  Region 0 of the kernel program (the column pass), at the contents `V` the region is entered with.

  The grid has 8 points; point j stages the column strip x[:, 512 j : 512 j + 512] (window 0, a [2048, 512] block) and
  writes back four [1, 512] rows of per-column results: window 1 the scale, window 2 the centre, window 3 the crossing
  flag, window 4 the new error term. The body reads the strip once and stores each result row whole, so after the body
  each output buffer holds one pure function of the strip; nothing is carried from point to point.
-/
import proofs.«135706_j46454366273944_2_alg».proof.Proof.Gen.KernelIdeal.Launch
import proofs.«135706_j46454366273944_2_alg».proof.Proof.Gen.KernelIdeal.Skeleton
import proofs.«135706_j46454366273944_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input strip's staging buffer holds the strip at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole strip, a whole result row -/

abbrev rX : Rect S2048x512 := Rect.unit (s := S2048x512) ![0, 0] S2048x512.size inb_S2048x512_S2048x512_0_0
abbrev rV0 : Rect S1x512 := Rect.unit (s := S1x512) ![0, 0] S1x512.size inb_S1x512_S1x512_0_0

/-! ## What the body leaves in each result row's buffer: its one store, of a pure function of the strip -/

/-- the scale row: lam · cross + pos -/
def out0_1 (x0 : Vec F S2048x512 .f32) : Vec F S1x512 .f32 :=
  View.canon [⟨rV0, k0_pay1 (k0_pay8 (View.ld x0 rX)) (k0_pay12 (View.ld x0 rX))⟩]
/-- the centre row -/
def out0_2 (x0 : Vec F S2048x512 .f32) : Vec F S1x512 .f32 :=
  View.canon [⟨rV0, k0_pay11 (View.ld x0 rX)⟩]
/-- the crossing flag row -/
def out0_3 (x0 : Vec F S2048x512 .f32) : Vec F S1x512 .f32 :=
  View.canon [⟨rV0, k0_pay7 (View.ld x0 rX)⟩]
/-- the new error term row: (delta / 2) · cross -/
def out0_4 (x0 : Vec F S2048x512 .f32) : Vec F S1x512 .f32 :=
  View.canon [⟨rV0, k0_pay2 (k0_pay7 (View.ld x0 rX)) (k0_pay10 (View.ld x0 rX))⟩]

/-- One store of a whole row covers the row. -/
theorem cover0_row (p0 : Vec F S1x512 .f32) (y : S1x512.Idx) :
    ∃ pc ∈ ([⟨rV0, p0⟩] : List (View.Piece (Elt F) S1x512 .f32)), y ∈ pc.1.set :=
  View.cover_of_tiled [⟨rV0, p0⟩] S1x512.size (by rfl) y

/-! ## The body's triple -/

set_option maxHeartbeats 4000000 in
/-- The body on whole staging memrefs, the strip's at contents `x0` and the result rows' at anything, runs to the
    continuation holding the strip as it was and each result row at its function of the strip. -/
theorem sound_kernel0 (c : Dev nD) (E : Set ℕ) (i : grid0.Coords)
    (arg1 : Memref sig .tc .vmem S2048x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole)
    (x0 : Vec F S2048x512 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out0_1 x0) ∗ owns (c : Thread nD τ) arg3 fullShare (out0_2 x0)
            ∗ owns (c : Thread nD τ) arg4 fullShare (out0_3 x0) ∗ owns (c : Thread nD τ) arg5 fullShare (out0_4 x0)) -∗ K ⟨⟩))
      ⊢ wp frame (wpE (defs₀ (F := F)) Variants.none c none) E (cc0__pass1_kernel i arg1 harg1 arg2 harg2 arg3 harg3 arg4 harg4 arg5 harg5) K := by
  simp only [cc0__pass1_kernel_eq_skeleton]; unfold cc0__pass1_kernel_skel
  simp only [k0_part1_eq_skeleton]; unfold k0_part1_skel
  unfold owns
  iintro ⟨⟨%f1, %hf1, H1⟩, ⟨%d2, %f2, -, H2⟩, ⟨%d3, %f3, -, H3⟩, ⟨%d4, %f4, -, H4⟩, ⟨%d5, %f5, -, H5⟩, Hk⟩
  subst hf1
  sl_exec
  sl_step
  iapply Hk
  isplitl [H1]
  · iexists f1; isplitr; · ipureintro; rfl
    iexact H1
  isplitl [H2]
  · iexists _; isplitr
    swap; · iexact H2
    ipureintro
    try dsimp only
    exact View.read_writes_eq_canon _ _ _ (cover0_row _)
  isplitl [H3]
  · iexists _; isplitr
    swap; · iexact H3
    ipureintro
    try dsimp only
    exact View.read_writes_eq_canon _ _ _ (cover0_row _)
  isplitl [H4]
  · iexists _; isplitr
    swap; · iexact H4
    ipureintro
    try dsimp only
    exact View.read_writes_eq_canon _ _ _ (cover0_row _)
  iexists _; isplitr
  swap; · iexact H5
  ipureintro
  try dsimp only
  exact View.read_writes_eq_canon _ _ _ (cover0_row _)

/-! ## The pipeline's proof data -/

/-- The proof data of pipeline 0 on core `c`: the arrays as the region finds them; after the body at point `t` the
    strip's buffer at the strip and each result row's at its function of the strip; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KReg1.lean ====
/- Region 1 (the second pallas_call, grid [8, 12], six windows: five inputs and one output) at a
   parameter `V`, the TensorCore's buffer contents when the region is entered: each window's block at a grid
   point, what the body leaves in the output window's staging buffer (three cases on the second grid coordinate),
   the body's triple in each case, the pipeline's proof data and the body obligation. -/
import proofs.«135706_j46454366273944_2_alg».proof.Proof.Gen.KernelIdeal.Launch
import proofs.«135706_j46454366273944_2_alg».proof.Proof.Gen.KernelIdeal.Skeleton
import proofs.«135706_j46454366273944_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- the whole [512, 512] output buffer -/
abbrev rW : Rect S512x512 := Rect.unit (s := S512x512) ![0, 0] S512x512.size inb_S512x512_S512x512_0_0
/-- row 0 of the [512, 512] output buffer -/
abbrev rRow0 : Rect S512x512 := Rect.unit (s := S512x512) ![0, 0] S1x512.size inb_S512x512_S1x512_0_0
/-- a whole [1, 512] buffer -/
abbrev rV : Rect S1x512 := Rect.unit (s := S1x512) ![0, 0] S1x512.size inb_S1x512_S1x512_0_0

/-! ## What the body leaves in the output window's buffer -/

/-- What the body leaves in window 5's buffer at a point with coordinates `i`, from the input blocks: the stores as
    pieces, LAST FIRST. Where the second coordinate is at least 4 only the third store happens; where it is 0 the
    first store (the whole buffer) is followed by the second (row 0); at 1, 2, 3 only the first happens. -/
def out1_5 (i : grid1.Coords) (x0 : Vec F S512x512 .f32) (x1 x2 x3 : Vec F S1x512 .f32) (x4 : Vec F S1x512 .i32) : Vec F S512x512 .f32 :=
  if k1_cond3 i = 1#1 then View.canon [⟨rW, k1_pay3 i (View.ld x4 rV) (View.ld x3 rV)⟩]
  else if k1_cond2 i = 1#1 then View.canon [⟨rRow0, k1_pay2 (View.ld x2 rV)⟩, ⟨rW, k1_pay1 (View.ld x0 rW) (View.ld x1 rV)⟩]
  else View.canon [⟨rW, k1_pay1 (View.ld x0 rW) (View.ld x1 rV)⟩]

/-! ## The pipeline's proof data -/

/-- The proof data of the second pipeline on core `c`: the arrays as the region finds them (`V`); after the body at
    point `t` each input's buffer at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (grid1.coords t) (iblk1 V c 0 t) (iblk1 V c 1 t) (iblk1 V c 2 t) (iblk1 V c 3 t) (iblk1 V c 4 t) := by dsimp only [dat1]

/-! ## The body's three conditions, from the second grid coordinate -/

/-- The first condition's scalar chain, decided over the twelve values of the second coordinate: it holds below 4. -/
theorem cond1_fin : ∀ j : Fin 12, (Scalar.cmpi .ne (Scalar.extui (Scalar.cmpi .slt (BitVec.ofNat 32 j.val) 4#32)) 0#32 = 1#1) ↔ j.val < 4 := by decide
/-- The second holds at 0 only. -/
theorem cond2_fin : ∀ j : Fin 12, (Scalar.cmpi .ne (Scalar.extui (Scalar.cmpi .eq (BitVec.ofNat 32 j.val) 0#32)) 0#32 = 1#1) ↔ j.val = 0 := by decide
/-- The third holds from 4 on. -/
theorem cond3_fin : ∀ j : Fin 12, (Scalar.cmpi .ne (Scalar.extui (Scalar.cmpi .sge (BitVec.ofNat 32 j.val) 4#32)) 0#32 = 1#1) ↔ 4 ≤ j.val := by decide

theorem cond1_iff (i : grid1.Coords) : k1_cond1 i = 1#1 ↔ (i 1).val < 4 := cond1_fin (i 1)
theorem cond2_iff (i : grid1.Coords) : k1_cond2 i = 1#1 ↔ (i 1).val = 0 := cond2_fin (i 1)
theorem cond3_iff (i : grid1.Coords) : k1_cond3 i = 1#1 ↔ 4 ≤ (i 1).val := cond3_fin (i 1)

/-- Input window 0's current staging buffer holds its block at every point, fetched there or not, for any proof
    data whose array is `V`'s and whose body leaves the block in place: where the window is not fetched its block
    index has not moved, so the buffer still holds this point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not, for any proof
    data whose array is `V`'s and whose body leaves the block in place: where the window is not fetched its block
    index has not moved, so the buffer still holds this point's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not, for any proof
    data whose array is `V`'s and whose body leaves the block in place: where the window is not fetched its block
    index has not moved, so the buffer still holds this point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not, for any proof
    data whose array is `V`'s and whose body leaves the block in place: where the window is not fetched its block
    index has not moved, so the buffer still holds this point's block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not, for any proof
    data whose array is `V`'s and whose body leaves the block in place: where the window is not fetched its block
    index has not moved, so the buffer still holds this point's block. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-! ## The body's triple, case by case

The kernel body on whole staging memrefs, the inputs' at read contents `x0 … x4` and the output's at anything, runs to
the continuation holding the inputs' as they were and the output's at the canonical contents of the case's stores.
Each `scf.if` is decided by the case's hypotheses. -/

/-- The single whole-buffer piece covers the buffer (it tiles it). -/
theorem cover_W (p0 : Vec F S512x512 .f32) (y : S512x512.Idx) :
    ∃ pc ∈ ([⟨rW, p0⟩] : List (View.Piece (Elt F) S512x512 .f32)), y ∈ pc.1.set :=
  View.cover_of_tiled [⟨rW, p0⟩] S512x512.size (by rfl) y

/-- A row-0 piece over the whole-buffer piece: covered because the whole-buffer piece alone covers. -/
theorem cover_RowW (p1 : Vec F S1x512 .f32) (p0 : Vec F S512x512 .f32) (y : S512x512.Idx) :
    ∃ pc ∈ ([⟨rRow0, p1⟩, ⟨rW, p0⟩] : List (View.Piece (Elt F) S512x512 .f32)), y ∈ pc.1.set := by
  obtain ⟨pc, hm, hy⟩ := cover_W p0 y
  exact ⟨pc, List.mem_cons_of_mem _ hm, hy⟩

set_option maxHeartbeats 1000000 in
/-- Case A (second coordinate 0): the first store (the whole buffer), then the second (row 0). -/
theorem sound_kernel1_A (c : Dev nD) (E : Set ℕ) (i : grid1.Coords) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x512 .f32) (harg7 : arg7.IsWhole)
    (h1 : k1_cond1 i = 1#1) (h2 : k1_cond2 i = 1#1) (h3 : ¬ k1_cond3 i = 1#1)
    (x0 : Vec F S512x512 .f32) (x1 x2 x3 : Vec F S1x512 .f32) (x4 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon [⟨rRow0, k1_pay2 (View.ld x2 rV)⟩, ⟨rW, k1_pay1 (View.ld x0 rW) (View.ld x1 rV)⟩])) -∗ K ⟨⟩))
      ⊢ wp frame (wpE (defs₀ (F := F)) Variants.none c none) E (cc1__pass2_kernel i arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_RowW _ _)

set_option maxHeartbeats 1000000 in
/-- Case B (second coordinate 1, 2 or 3): only the first store happens. -/
theorem sound_kernel1_B (c : Dev nD) (E : Set ℕ) (i : grid1.Coords) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x512 .f32) (harg7 : arg7.IsWhole)
    (h1 : k1_cond1 i = 1#1) (h2 : ¬ k1_cond2 i = 1#1) (h3 : ¬ k1_cond3 i = 1#1)
    (x0 : Vec F S512x512 .f32) (x1 x2 x3 : Vec F S1x512 .f32) (x4 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon [⟨rW, k1_pay1 (View.ld x0 rW) (View.ld x1 rV)⟩])) -∗ K ⟨⟩))
      ⊢ wp frame (wpE (defs₀ (F := F)) Variants.none c none) E (cc1__pass2_kernel i arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_W _)

set_option maxHeartbeats 1000000 in
/-- Case C (second coordinate at least 4): only the third store happens. -/
theorem sound_kernel1_C (c : Dev nD) (E : Set ℕ) (i : grid1.Coords) (arg2 : Memref sig .tc .vmem S512x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .i32) (harg6 : arg6.IsWhole) (arg7 : Memref sig .tc .vmem S512x512 .f32) (harg7 : arg7.IsWhole)
    (h1 : ¬ k1_cond1 i = 1#1) (h2 : ¬ k1_cond2 i = 1#1) (h3 : k1_cond3 i = 1#1)
    (x0 : Vec F S512x512 .f32) (x1 x2 x3 : Vec F S1x512 .f32) (x4 : Vec F S1x512 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (View.canon [⟨rW, k1_pay3 i (View.ld x4 rV) (View.ld x3 rV)⟩])) -∗ K ⟨⟩))
      ⊢ wp frame (wpE (defs₀ (F := F)) Variants.none c none) E (cc1__pass2_kernel i arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_W _)

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks (`before1_k`); the point's second coordinate is 0,
    in 1..3, or at least 4, which decides the three conditions, and the case's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h3 : k1_cond3 (grid1.coords t) = 1#1
  · -- the second coordinate is at least 4
    have h1 : ¬ k1_cond1 (grid1.coords t) = 1#1 := by
      rw [cond1_iff]; have := (cond3_iff _).mp h3; omega
    have h2 : ¬ k1_cond2 (grid1.coords t) = 1#1 := by
      rw [cond2_iff]; have := (cond3_iff _).mp h3; omega
    rw [out1_5, if_pos h3]
    iintro ⟨HΦ, Ho, ⟨%d0, H0⟩, ⟨%d1, H1⟩, ⟨%d2, H2⟩, ⟨%d3, H3⟩, ⟨%d4, H4⟩, ⟨%d5, H5⟩⟩
    iapply (sound_kernel1_C c Set.univ (grid1.coords t) _ _ _ _ _ _ _ _ _ _ _ _ h1 h2 h3
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h1 : k1_cond1 (grid1.coords t) = 1#1 := by
      rw [cond1_iff]; have := (cond3_iff _).not.mp h3; omega
    by_cases h2 : k1_cond2 (grid1.coords t) = 1#1
    · -- the second coordinate is 0
      rw [out1_5, if_neg h3, if_pos h2]
      iintro ⟨HΦ, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ h1 h2 h3
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · -- the second coordinate is 1, 2 or 3
      rw [out1_5, if_neg h3, if_neg h2]
      iintro ⟨HΦ, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ h1 h2 h3
        (iblk1 V c 0 t) (iblk1 V c 1 t) (iblk1 V c 2 t) (iblk1 V c 3 t) (iblk1 V c 4 t) _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. The output window is declared idle only where none of the three
    conditions holds and it is written back at every point, so whichever way its idle flag falls the obligation
    asks for its buffer at what the body leaves. -/
theorem body_obligation1 (c : Dev nD) : BodyObligation (dat1 (F := F) V c) (defs₀ (F := F)) Variants.none () Set.univ := fun t => by
  rw [bigSep_W1, bigSep_W1]
  have hfl : (cfg1.win 5).flush t = true := flush1_5 t
  simp only [hfl]
  generalize idle1 5 (grid1.coords t) = b
  cases b <;> exact sound_body1 V c t

end Cert.KernelIdeal.Hand

end
-- ==== Proof.KRun.lean ====
/-
  The run of the kernel program: region 0, three stretches of host operations, region 1.

  The buffer contents at each boundary are a fold from the launch memory: a region's arrays at what its write-backs
  leave, every other buffer as the region found it; a host stretch by its operations. Every weakly fair execution of
  @main terminates with every unscoped buffer at the last boundary's contents; in particular the argument is as
  launched and the result array is what region 1's write-backs leave.
-/
import proofs.«135706_j46454366273944_2_alg».proof.Proof.KReg0
import proofs.«135706_j46454366273944_2_alg».proof.Proof.KReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0 is entered with them. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: the four result rows at what the write-backs leave, everything else as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the flag row is flattened and converted to integers, -/
abbrev W2 : Dev nD → Valuation τ sig (Elt F) := fun c => StableHlo.after hostOps1 (W1 m ρ c)
/-- after the running sum, -/
abbrev W3 : Dev nD → Valuation τ sig (Elt F) := fun c => StableHlo.after hostOps1_1 (W2 m ρ c)
/-- after the rank (running sum less the own flag) is laid out as a row: region 1's entry. -/
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- At region 1's exit: the result array at what the write-backs leave, everything else as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- A host stretch does not write a buffer none of its operations writes. -/
theorem after_keeps (ops : List (HloOp τ sig (Elt F))) (W : Valuation τ sig (Elt F)) (b : Ref sig .tc)
    (h : ∀ op ∈ ops, Proc.devRef .tc b ∉ op.writes) : StableHlo.after ops W (Proc.devRef .tc b) = W (Proc.devRef .tc b) :=
  StableHlo.after_of_forall_not_mem (b := Proc.devRef .tc b) _ _ h

/-! ### The argument ends as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat1 (V4 m ρ) c).arrAt_in 0 rfl _).trans (A_eq1 (V4 m ρ) c 0))
    _ = W3 m ρ c (Proc.devRef .tc main_arg0) := StableHlo.after_of_forall_not_mem (b := Proc.devRef .tc main_arg0) _ _ (List.forall_iff_forall_mem.mp (by
          simp only [hostOps1_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1_1, List.Forall, StableHlo.TRef.nullary, StableHlo.TRef.unary, StableHlo.TRef.binary, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The result array at the end is what region 1's write-backs leave. -/
theorem W5_main_v6 (c : Dev nD) : W5 m ρ c (Proc.devRef .tc main_v6) = (dat1 (V4 m ρ) c).arrAt 5 cfg1.N :=
  W5_arr m ρ c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]

theorem main_run (c : Dev nD) : main (F := F) c = Pipeline.Seg.run (segs m ρ) := by
  rw [main_chain c, Pipeline.Seg.run_eq_chain]; rfl

set_option backward.isDefEq.respectTransparency.types false in
/-- THE RUN: from any memory with zero counters every weakly fair execution of @main terminates, nothing faulting,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W5_main_arg0 m ρ c)) (run_all m ρ)

/-- The run with the result named: the result array ends at what region 1's write-backs leave, the argument as launched. -/
theorem run_value : θ_run defs (onTc (τ := τ) (main (F := F))) ⟨m, fun _ => 0, ρ⟩ (fun r => ∀ c : Dev nD,
      r.2.mem ((c.tc : Thread nD τ).loc main_v6) = (dat1 (V4 m ρ) c).arrAt 5 cfg1.N
      ∧ r.2.mem ((c.tc : Thread nD τ).loc main_arg0) = m ((c.tc : Thread nD τ).loc main_arg0)) :=
  (θ_run defs _ _).mono (fun _ h c => ⟨(h c _ (mem_uc main_v6 (by decide))).trans (W5_main_v6 m ρ c),
    (h c _ (mem_uc main_arg0 (by decide))).trans (W5_main_arg0 m ρ c)⟩) (run_all m ρ)

end Cert.KernelIdeal.Hand

end
-- ==== Proof.Spec.lean ====
/-
  The common specification of the two programs at the ideal instance, column by column.

  The input is a matrix x of 2048 rows and 4096 columns of extended reals. Row 0 is the centre of a zonotope and
  rows 1 … 2047 its generators. For a column the interval bounds are  upper = x₀ + S  and  lower = x₀ - S  with
  S = Σ_{r ≥ 1} |x_r|. A column "crosses" when lower · upper < 0 and is "positive" when lower ≥ 0. The slope is
  lam = pos + cross · (upper / (upper - lower), or 1/2 when the bounds coincide), the shift
  delta = max (-lam · lower) ((1 - lam) · upper), and the results per column are

    centre  = (delta/2 + lam · x₀) · cross + x₀ · pos,     scale = lam · cross + pos,     newval = (delta/2) · cross.

  The output has 6144 rows: row 0 is the centres, row r (1 ≤ r < 2048) is x_r · scale, and below them a crossing
  column c puts newval c in row 2048 + (number of crossing columns before c), every other entry zero.
  The rank of a column among the crossing ones is spelt as the two programs compute it: the running sum of the 0/1
  crossing flags (a window sum with the window reaching back to the first column) minus the column's own flag.
-/
import Idealize.ShloMosaic.PureOps
import Idealize.ShloMosaic.PureOps.Ideal
import Idealize.ShloMosaic.Lib.ValueIdx

noncomputable section

namespace Cert.Spec

open Idealize.ShloMosaic Idealize.ShloMosaic.ValueIdx

/-- The three float constants of the programs, as the extended reals their words denote. -/
abbrev zero : EReal := Ideal.ofBits .f32 0x00000000#32
abbrev one : EReal := Ideal.ofBits .f32 0x3F800000#32
abbrev half : EReal := Ideal.ofBits .f32 0x3F000000#32

/-- |a| on the extended reals. -/
abbrev absE (a : EReal) : EReal := max a (-a)

section Column

-- one column of the input: row `r` of it
variable (col : Fin 2048 → EReal)

/-- S: the sum of the absolute values of the generators (rows 1 … 2047). -/
def absSum : EReal := ∑ r : Fin 2047, absE (col r.succ)
def upper : EReal := col 0 + absSum col
def lower : EReal := col 0 - absSum col
/-- The column crosses zero: lower · upper < 0, as a bit. -/
def crossB : BitVec 1 := Ideal.cmp .olt (lower col * upper col) zero
/-- The column is nonnegative: lower ≥ 0, as a bit. -/
def posB : BitVec 1 := Ideal.cmp .oge (lower col) zero
/-- The two flags as the numbers 0 and 1. -/
def crossf : EReal := (((crossB col).toNat : ℝ) : EReal)
def posf : EReal := (((posB col).toNat : ℝ) : EReal)
def denom : EReal := upper col - lower col
/-- The bounds differ. -/
def safeB : BitVec 1 := Ideal.cmp .une (denom col) zero
def ratio : EReal := Scalar.select (safeB col) (Ideal.div (upper col) (Scalar.select (safeB col) (denom col) one)) half
def lam : EReal := posf col + crossf col * ratio col
def delta : EReal := max (-(lam col) * lower col) ((one - lam col) * upper col)
def center : EReal := (delta col * half + lam col * col 0) * crossf col + col 0 * posf col
def scale : EReal := lam col * crossf col + posf col
def newval : EReal := delta col * half * crossf col

end Column

/-- The input matrix, and its column `c`. -/
abbrev Mat : Type := (⟨2, ![2048, 4096]⟩ : Shape).Idx → EReal
def colOf (x : Mat) (c : Fin 4096) : Fin 2048 → EReal := fun r => x (ix2 r c)

/-- The crossing flags of all columns as 32-bit integers (0 or 1). -/
def ci (x : Mat) : IVec (⟨1, ![4096]⟩ : Shape) 32 := fun j => (crossB (colOf x (j 0))).setWidth 32

/-- The running (inclusive) sum of a vector of 4096 integers as both programs spell it: at each position the sum over
    a window of 4096 positions ending there, the positions before the first holding the initial value 0. -/
def runSum (v : IVec (⟨1, ![4096]⟩ : Shape) 32) (h : (⟨1, ![4096]⟩ : Shape).ReduceWindows (![4096] : Fin 1 → Nat) ![1] ![4095] ![0] (⟨1, ![4096]⟩ : Shape))
    (hu : 0 < (⟨0, ![]⟩ : Shape).numel) : IVec (⟨1, ![4096]⟩ : Shape) 32 :=
  Host.reduceWindow (u := (⟨0, ![]⟩ : Shape)) IntOp.addi ![4096] ![1] ![4095] ![0] v (fun _ => 0#32) h hu

theorem rw4096 : (⟨1, ![4096]⟩ : Shape).ReduceWindows (![4096] : Fin 1 → Nat) ![1] ![4095] ![0] (⟨1, ![4096]⟩ : Shape) := by decide
theorem hu0 : 0 < (⟨0, ![]⟩ : Shape).numel := by decide

/-- The rank of column `c` among the crossing columns (how many cross before it), as a 32-bit integer: the
    running sum at `c` less the column's own flag. -/
def lrow (x : Mat) (c : Fin 4096) : BitVec 32 := runSum (ci x) rw4096 hu0 (ix1 c) - ci x (ix1 c)

/-- THE RESULT: 6144 rows of 4096. -/
def out (x : Mat) : (⟨2, ![6144, 4096]⟩ : Shape).Idx → EReal := fun i =>
  if (i 0).val = 0 then center (colOf x (i 1))
  else if h : (i 0).val < 2048 then x (ix2 ⟨(i 0).val, h⟩ (i 1)) * scale (colOf x (i 1))
  else if BitVec.ofNat 32 ((i 0).val - 2048) = lrow x (i 1) then newval (colOf x (i 1)) else 0

end Cert.Spec

end
-- ==== Proof.KCover.lean ====
/-
  The write-back windows' blocks tile their arrays.

  The first kernel writes four [1, 4096] arrays through [1, 512] blocks, grid point t taking block (0, t); the second
  writes the [6144, 4096] array through [512, 512] blocks, grid point (a, b) taking block (b, a). A block's
  coordinate range on an axis is index × size … index × size + size, so the index (r, c) of an array lies in the
  block with indices (r / size, c / size), and every such pair of block indices is some grid point's; each window
  is written back at every point. Hence every index of each array is in a written-back block.
-/
import proofs.«135706_j46454366273944_2_alg».proof.Proof.Gen.KernelIdeal.Launch
import proofs.«135706_j46454366273944_2_alg».proof.Proof.Gen.KernelIdeal.Points
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.ValueIdx

/-! ## The first kernel, window 1 -/

/-- An index of the array is in point t's block iff each coordinate is in the block's range on its axis. -/
theorem mem_blk0_1 (t : Fin cfg0.N) (i : S1x4096.Idx) :
    i ∈ ((cfg0.win 1).blk t).view.set ↔ ∀ a : Fin 2, win0_1.index t a * S1x512.size a ≤ (i a).val ∧ (i a).val < win0_1.index t a * S1x512.size a + S1x512.size a := by
  show i ∈ ((View.whole main_v0_0).slice (win0_1.rect t)).set ↔ _
  rw [View.set_slice_whole, Rect.mem_set_unit]
  exact Iff.rfl

/-- Every block of the row is some point's. -/
theorem idx_onto0_1 : ∀ q : Fin 8, ∃ t : Fin cfg0.N, win0_1.index t = ![0, q.val] :=
  (by decide +kernel : ∀ q : Fin 8, ∃ t : Fin grid0.N, win0_1.index t = ![0, q.val])

theorem cover0_1 (i : S1x4096.Idx) : ∃ t : Fin cfg0.N, (cfg0.win 1).flush t = true ∧ i ∈ ((cfg0.win 1).blk t).view.set := by
  have hi0 : (i 0).val < 1 := (i 0).isLt
  have hi1 : (i 1).val < 4096 := (i 1).isLt
  obtain ⟨t, ht⟩ := idx_onto0_1 ⟨(i 1).val / 512, by omega⟩
  have q0 : win0_1.index t (0 : Fin 2) = 0 := congrFun ht 0
  have q1 : win0_1.index t (1 : Fin 2) = (i 1).val / 512 := congrFun ht 1
  refine ⟨t, flush0_1 t, ?_⟩
  rw [mem_blk0_1]
  intro a
  match a with
  | ⟨0, _⟩ => show win0_1.index t (0 : Fin 2) * 1 ≤ (i 0).val ∧ (i 0).val < win0_1.index t (0 : Fin 2) * 1 + 1; omega
  | ⟨1, _⟩ => show win0_1.index t (1 : Fin 2) * 512 ≤ (i 1).val ∧ (i 1).val < win0_1.index t (1 : Fin 2) * 512 + 512; omega

/-! ## The first kernel, window 2 -/

/-- An index of the array is in point t's block iff each coordinate is in the block's range on its axis. -/
theorem mem_blk0_2 (t : Fin cfg0.N) (i : S1x4096.Idx) :
    i ∈ ((cfg0.win 2).blk t).view.set ↔ ∀ a : Fin 2, win0_2.index t a * S1x512.size a ≤ (i a).val ∧ (i a).val < win0_2.index t a * S1x512.size a + S1x512.size a := by
  show i ∈ ((View.whole main_v0_1).slice (win0_2.rect t)).set ↔ _
  rw [View.set_slice_whole, Rect.mem_set_unit]
  exact Iff.rfl

/-- Every block of the row is some point's. -/
theorem idx_onto0_2 : ∀ q : Fin 8, ∃ t : Fin cfg0.N, win0_2.index t = ![0, q.val] :=
  (by decide +kernel : ∀ q : Fin 8, ∃ t : Fin grid0.N, win0_2.index t = ![0, q.val])

theorem cover0_2 (i : S1x4096.Idx) : ∃ t : Fin cfg0.N, (cfg0.win 2).flush t = true ∧ i ∈ ((cfg0.win 2).blk t).view.set := by
  have hi0 : (i 0).val < 1 := (i 0).isLt
  have hi1 : (i 1).val < 4096 := (i 1).isLt
  obtain ⟨t, ht⟩ := idx_onto0_2 ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk0_2]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 512 ≤ (i 1).val ∧ (i 1).val < win0_2.index t (1 : Fin 2) * 512 + 512; omega

/-! ## The first kernel, window 3 -/

/-- An index of the array is in point t's block iff each coordinate is in the block's range on its axis. -/
theorem mem_blk0_3 (t : Fin cfg0.N) (i : S1x4096.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v0_2).slice (win0_3.rect t)).set ↔ _
  rw [View.set_slice_whole, Rect.mem_set_unit]
  exact Iff.rfl

/-- Every block of the row is some point's. -/
theorem idx_onto0_3 : ∀ q : Fin 8, ∃ t : Fin cfg0.N, win0_3.index t = ![0, q.val] :=
  (by decide +kernel : ∀ q : Fin 8, ∃ t : Fin grid0.N, win0_3.index t = ![0, q.val])

theorem cover0_3 (i : S1x4096.Idx) : ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ := idx_onto0_3 ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_blk0_3]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 512 ≤ (i 1).val ∧ (i 1).val < win0_3.index t (1 : Fin 2) * 512 + 512; omega

/-! ## The first kernel, window 4 -/

/-- An index of the array is in point t's block iff each coordinate is in the block's range on its axis. -/
theorem mem_blk0_4 (t : Fin cfg0.N) (i : S1x4096.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v0_3).slice (win0_4.rect t)).set ↔ _
  rw [View.set_slice_whole, Rect.mem_set_unit]
  exact Iff.rfl

/-- Every block of the row is some point's. -/
theorem idx_onto0_4 : ∀ q : Fin 8, ∃ t : Fin cfg0.N, win0_4.index t = ![0, q.val] :=
  (by decide +kernel : ∀ q : Fin 8, ∃ t : Fin grid0.N, win0_4.index t = ![0, q.val])

theorem cover0_4 (i : S1x4096.Idx) : ∃ t : Fin cfg0.N, (cfg0.win 4).flush t = true ∧ i ∈ ((cfg0.win 4).blk t).view.set := by
  have hi0 : (i 0).val < 1 := (i 0).isLt
  have hi1 : (i 1).val < 4096 := (i 1).isLt
  obtain ⟨t, ht⟩ := idx_onto0_4 ⟨(i 1).val / 512, by omega⟩
  have q0 : win0_4.index t (0 : Fin 2) = 0 := congrFun ht 0
  have q1 : win0_4.index t (1 : Fin 2) = (i 1).val / 512 := congrFun ht 1
  refine ⟨t, flush0_4 t, ?_⟩
  rw [mem_blk0_4]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 512 ≤ (i 1).val ∧ (i 1).val < win0_4.index t (1 : Fin 2) * 512 + 512; omega

/-! ## The second kernel, window 5 -/

/-- An index of the array is in point t's block iff each coordinate is in the block's range on its axis. -/
theorem mem_blk1_5 (t : Fin cfg1.N) (i : S6144x4096.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v6).slice (win1_5.rect t)).set ↔ _
  rw [View.set_slice_whole, Rect.mem_set_unit]
  exact Iff.rfl

/-- Every block of the array is some point's. -/
theorem idx_onto1_5 : ∀ (q0 : Fin 12) (q1 : Fin 8), ∃ t : Fin cfg1.N, win1_5.index t = ![q0.val, q1.val] :=
  (by decide +kernel : ∀ (q0 : Fin 12) (q1 : Fin 8), ∃ t : Fin grid1.N, win1_5.index t = ![q0.val, q1.val])

theorem cover1_5 (i : S6144x4096.Idx) : ∃ t : Fin cfg1.N, (cfg1.win 5).flush t = true ∧ i ∈ ((cfg1.win 5).blk t).view.set := by
  have hi0 : (i 0).val < 6144 := (i 0).isLt
  have hi1 : (i 1).val < 4096 := (i 1).isLt
  obtain ⟨t, ht⟩ := idx_onto1_5 ⟨(i 0).val / 512, by omega⟩ ⟨(i 1).val / 512, by omega⟩
  have q0 : win1_5.index t (0 : Fin 2) = (i 0).val / 512 := congrFun ht 0
  have q1 : win1_5.index t (1 : Fin 2) = (i 1).val / 512 := congrFun ht 1
  refine ⟨t, flush1_5 t, ?_⟩
  rw [mem_blk1_5]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 512 ≤ (i 1).val ∧ (i 1).val < win1_5.index t (1 : Fin 2) * 512 + 512; omega

/-! ## The first kernel's four result windows at once -/

/-- Every index of a result window's array is in a written-back block, the index at the type the array's location
    gives it. -/
theorem cover0 (c : Dev nD) (w : Fin cfg0.W) (hw : w.val ≠ 0)
    (i : ((cfg0.win w).arr.view.loc (c.tc : Thread nD τ)).2.ty.Idx) :
    ∃ t : Fin cfg0.N, (cfg0.win w).flush t = true ∧ i ∈ ((cfg0.win w).blk t).view.set := by
  match w, hw, i with
  | ⟨0, _⟩, hw, _ => exact absurd rfl hw
  | ⟨1, _⟩, _, i => exact cover0_1 i
  | ⟨2, _⟩, _, i => exact cover0_2 i
  | ⟨3, _⟩, _, i => exact cover0_3 i
  | ⟨4, _⟩, _, i => exact cover0_4 i
  | ⟨n + 5, h⟩, _, _ => exact absurd h (Nat.not_lt.2 (Nat.le_add_left _ _))

end Cert.KernelIdeal.KValue

end
-- ==== Proof.LibRowCast.lean ====
/-
  A vector reshaped to a one-row matrix, read at an entry.

  The reshape `[n] → [1, n]` keeps the row-major position, so entry `(0, q)` of the one-row matrix is entry `q` of the
  vector: the companion of the one-column form `[n] → [n, 1]`, for a column norm or any per-column quantity that a body
  broadcasts down the rows.
-/
import Idealize.ShloMosaic.Lib.ValueIdx
import Idealize.ShloMosaic.Lib.Pipeline.Value

noncomputable section

namespace Cert.RowCast

open Idealize.ShloMosaic Idealize.ShloMosaic.ValueIdx

/-- A vector reshaped to a one-row matrix: entry `(0, q)` is entry `q`. -/
theorem shapeCast_row_apply {α : Type} {n : Nat} (v : (⟨1, ![n]⟩ : Shape).Idx → α)
    (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_one, Shape.rowMajor_val_two]
    show q.val = 0 * n + q.val
    omega)

end Cert.RowCast

end
-- ==== Proof.KPay0.lean ====
/-
  The column pass at one column.

  The column pass reads a strip of 2048 rows and 512 columns and computes, for each of its columns, the interval
  bounds of the zonotope (centre plus and minus the sum of the generators' absolute values), the two flags (the column
  crosses zero, the column is nonnegative), the slope, the shift and from them the result rows. Every operation
  is elementwise along the columns except the masked column sum, so each value at column q is the specification's
  scalar chain applied to column q of the strip. One lemma per intermediate value, each citing the ones before it.
-/
import proofs.«135706_j46454366273944_2_alg».proof.Proof.Gen.KernelIdeal.Skeleton
import proofs.«135706_j46454366273944_2_alg».proof.Proof.Spec
import proofs.«135706_j46454366273944_2_alg».proof.Proof.LibRowCast
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx

/-- Column q of a strip: its 2048 entries from the top row down. -/
abbrev colAt (v0 : Vec Ideal S2048x512 .f32) (q : Fin 512) : Fin 2048 → EReal := fun r => v0 (ix2 r q)

/-- The strip's top row at column q is the column's first entry. -/
theorem pay3_at (v0 : Vec Ideal S2048x512 .f32) (q : Fin 512) :
    k0_pay3 v0 (ix2 (0 : Fin 1) q) = colAt v0 q 0 := by
  unfold k0_pay3
  refine extractStridedSlice_apply _ _ _ _ (ix2 (0 : Fin 2048) q) fun a => ?_
  match a with
  | ⟨0, _⟩ => rfl
  | ⟨1, _⟩ => show q.val = 0 + q.val; omega

/-- A select on "the row number is 0", the row number below 2048, is the `if` on it. -/
theorem select_row0 {α : Type} (n : Nat) (hn : n < 2048) (A B : α) :
    Scalar.select (IntOp.cmpi .eq (BitVec.ofNat 32 n) 0#32) A B = if n = 0 then A else B := by
  unfold Scalar.select IntOp.cmpi
  by_cases h : n = 0
  · subst h; simp
  · have hne : BitVec.ofNat 32 n ≠ 0#32 := by
      intro e
      have := congrArg BitVec.toNat e
      simp [BitVec.toNat_ofNat] at this
      omega
    have hc : (BitVec.ofNat 32 n == 0#32) = false := beq_eq_false_iff_ne.mpr hne
    rw [if_neg h]
    show (if BitVec.ofBool (BitVec.ofNat 32 n == 0#32) = 1#1 then A else B) = B
    rw [hc]
    exact if_neg (by decide)

/-- The summand of the masked column sum at an entry: zero in the top row, the absolute value below it. -/
theorem masked_abs_at (v0 : Vec Ideal S2048x512 .f32) (i : S2048x512.Idx) :
    select (cmpi .eq (iota .tc S2048x512 32 [0] iota_S2048x512_d0_w32) (broadcast S2048x512 0#32))
        (broadcast S2048x512 (Scalar.ofBits (F := Ideal) .f32 0x00000000#32)) (absf v0) i
      = if (i 0).val = 0 then 0 else Cert.Spec.absE (v0 i) := by
  show Scalar.select (IntOp.cmpi .eq (iota .tc S2048x512 32 [0] iota_S2048x512_d0_w32 i) 0#32)
      (Ideal.ofBits .f32 0x00000000#32) (max (v0 i) (-(v0 i))) = _
  rw [iota_single_apply, select_row0 _ (idx2_lt0 i), Ideal.ofBits_zero_f32]

/-- The summand in the top row is zero. -/
theorem masked_abs_top (v0 : Vec Ideal S2048x512 .f32) (q : Fin 512) :
    select (cmpi .eq (iota .tc S2048x512 32 [0] iota_S2048x512_d0_w32) (broadcast S2048x512 0#32))
        (broadcast S2048x512 (Scalar.ofBits (F := Ideal) .f32 0x00000000#32)) (absf v0) (ix2 (0 : Fin 2048) q) = 0 :=
  (masked_abs_at v0 _).trans (if_pos rfl)

/-- The summand in a row below the top one is the entry's absolute value. -/
theorem masked_abs_below (v0 : Vec Ideal S2048x512 .f32) (q : Fin 512) (r : Fin 2047) :
    select (cmpi .eq (iota .tc S2048x512 32 [0] iota_S2048x512_d0_w32) (broadcast S2048x512 0#32))
        (broadcast S2048x512 (Scalar.ofBits (F := Ideal) .f32 0x00000000#32)) (absf v0) (ix2 r.succ q)
      = Cert.Spec.absE (v0 (ix2 r.succ q)) :=
  (masked_abs_at v0 _).trans (if_neg (Nat.succ_ne_zero r.val))

/-- A sum down the rows of a strip, read at column q, is the sum over the 2048 rows of the entries of that column. -/
theorem colsum_at (f : FVec Ideal S2048x512 .f32) (q : Fin 512) (h : S2048x512.Reduces [0] S512) (hφ : FKind.Formats .f32)
    (hacc : (0x00000000#32 : BitVec 32) = FKind.add.neutral .f32 hφ) :
    multiReduction .add [0] S512 f 0x00000000#32 h hφ hacc (ix1 q) = ∑ k : Fin 2048, f (ix2 k q) :=
  (Ideal.multiReduction_add_single f 0x00000000#32 h hφ hacc (ix1 q)).trans
    (Finset.sum_congr rfl fun k _ => congrArg f (funext fun a => by
      match a with
      | ⟨0, _⟩ => rfl
      | ⟨1, _⟩ => rfl))

/-- The masked column sum at column q: the generators' absolute values summed, the top row's term masked to zero. -/
theorem pay4_at (v0 : Vec Ideal S2048x512 .f32) (q : Fin 512) :
    k0_pay4 v0 (ix2 (0 : Fin 1) q) = Cert.Spec.absSum (colAt v0 q) := by
  unfold k0_pay4
  try dsimp only
  rw [Cert.RowCast.shapeCast_row_apply]
  refine (colsum_at _ q _ _ _).trans ?_
  refine (Fin.sum_univ_succ (n := 2047) _).trans ?_
  exact (congrArg₂ (· + ·) (masked_abs_top v0 q)
    (Finset.sum_congr rfl fun r _ => masked_abs_below v0 q r)).trans (zero_add _)

/-- The upper bound at column q. -/
theorem pay5_at (v0 : Vec Ideal S2048x512 .f32) (q : Fin 512) :
    k0_pay5 v0 (ix2 (0 : Fin 1) q) = Cert.Spec.upper (colAt v0 q) := by
  unfold k0_pay5 Cert.Spec.upper
  try dsimp only
  rw [addf_apply, pay3_at, pay4_at]

/-- The lower bound at column q. -/
theorem pay6_at (v0 : Vec Ideal S2048x512 .f32) (q : Fin 512) :
    k0_pay6 v0 (ix2 (0 : Fin 1) q) = Cert.Spec.lower (colAt v0 q) := by
  unfold k0_pay6 Cert.Spec.lower
  try dsimp only
  rw [subf_apply, pay3_at, pay4_at]

/-- A one-bit flag widened to 32 bits and read as a signed integer is the flag read as a natural number: 0 or 1. -/
theorem flag_cast (b : BitVec 1) : (((b.setWidth 32).toInt : ℝ) : EReal) = (((b.toNat : ℕ) : ℝ) : EReal) := by
  rcases BitVec.eq_zero_or_eq_one b with h | h <;> subst h
  · have e : (BitVec.setWidth 32 0#1).toInt = 0 := by decide
    rw [e]; simp
  · have e : (BitVec.setWidth 32 1#1).toInt = 1 := by decide
    rw [e]; simp

/-- The crossing flag at column q. -/
theorem pay7_at (v0 : Vec Ideal S2048x512 .f32) (q : Fin 512) :
    k0_pay7 v0 (ix2 (0 : Fin 1) q) = Cert.Spec.crossf (colAt v0 q) := by
  unfold k0_pay7
  try dsimp only
  rw [sitofp_apply, extui_apply, cmpf_apply, mulf_apply, broadcast_apply, pay6_at, pay5_at]
  exact flag_cast _

/-- The positivity flag at column q. -/
theorem pay8_at (v0 : Vec Ideal S2048x512 .f32) (q : Fin 512) :
    k0_pay8 v0 (ix2 (0 : Fin 1) q) = Cert.Spec.posf (colAt v0 q) := by
  unfold k0_pay8
  try dsimp only
  rw [sitofp_apply, extui_apply, cmpf_apply, broadcast_apply, pay6_at]
  exact flag_cast _

/-- The slope at column q. The comparison "ordered and not equal" is "not equal" on the extended reals. -/
theorem pay9_at (v0 : Vec Ideal S2048x512 .f32) (q : Fin 512) :
    k0_pay9 v0 (ix2 (0 : Fin 1) q) = Cert.Spec.lam (colAt v0 q) := by
  unfold k0_pay9
  try dsimp only
  simp only [addf_apply, mulf_apply, select_apply, divf_apply, cmpf_apply, subf_apply, broadcast_apply,
    pay5_at, pay6_at, pay7_at, pay8_at]
  rfl

/-- The shift at column q: the program's 0 - lam is the specification's -lam. -/
theorem pay10_at (v0 : Vec Ideal S2048x512 .f32) (q : Fin 512) :
    k0_pay10 v0 (ix2 (0 : Fin 1) q) = Cert.Spec.delta (colAt v0 q) := by
  unfold k0_pay10
  try dsimp only
  simp only [maximumf_apply, mulf_apply, subf_apply, broadcast_apply, pay9_at, pay6_at, pay5_at]
  show max ((Ideal.ofBits .f32 0x00000000#32 - _) * _) _ = _
  rw [Ideal.ofBits_zero_f32, zero_sub]
  rfl

/-- The centre at column q. -/
theorem pay11_at (v0 : Vec Ideal S2048x512 .f32) (q : Fin 512) :
    k0_pay11 v0 (ix2 (0 : Fin 1) q) = Cert.Spec.center (colAt v0 q) := by
  unfold k0_pay11
  try dsimp only
  simp only [addf_apply, mulf_apply, broadcast_apply, pay10_at, pay9_at, pay3_at, pay7_at, pay8_at]
  rfl

/-- Slope times crossing flag at column q. -/
theorem pay12_at (v0 : Vec Ideal S2048x512 .f32) (q : Fin 512) :
    k0_pay12 v0 (ix2 (0 : Fin 1) q) = Cert.Spec.lam (colAt v0 q) * Cert.Spec.crossf (colAt v0 q) := by
  unfold k0_pay12
  try dsimp only
  rw [mulf_apply, pay9_at, pay7_at]

/-- The scale row at column q: slope times crossing flag plus positivity flag. -/
theorem pay_scale (v0 : Vec Ideal S2048x512 .f32) (q : Fin 512) :
    Gen.k0_pay1 (Gen.k0_pay8 v0) (Gen.k0_pay12 v0) (ix2 (0 : Fin 1) q) = Cert.Spec.scale (fun r : Fin 2048 => v0 (ix2 r q)) := by
  unfold k0_pay1
  try dsimp only
  rw [addf_apply, pay12_at, pay8_at]
  rfl

/-- The centre row at column q. -/
theorem pay_center (v0 : Vec Ideal S2048x512 .f32) (q : Fin 512) :
    Gen.k0_pay11 v0 (ix2 (0 : Fin 1) q) = Cert.Spec.center (fun r : Fin 2048 => v0 (ix2 r q)) :=
  pay11_at v0 q

/-- The crossing flag row at column q, as the number 0 or 1. -/
theorem pay_crossf (v0 : Vec Ideal S2048x512 .f32) (q : Fin 512) :
    Gen.k0_pay7 v0 (ix2 (0 : Fin 1) q) = Cert.Spec.crossf (fun r : Fin 2048 => v0 (ix2 r q)) :=
  pay7_at v0 q

/-- The new error term row at column q: half the shift where the column crosses. -/
theorem pay_newval (v0 : Vec Ideal S2048x512 .f32) (q : Fin 512) :
    Gen.k0_pay2 (Gen.k0_pay7 v0) (Gen.k0_pay10 v0) (ix2 (0 : Fin 1) q) = Cert.Spec.newval (fun r : Fin 2048 => v0 (ix2 r q)) := by
  unfold k0_pay2
  try dsimp only
  rw [mulf_apply, mulf_apply, broadcast_apply, pay10_at, pay7_at]
  rfl

end Cert.KernelIdeal.KValue

end
-- ==== Proof.KValueHost.lean ====
/-
  The host operations between the kernel program's two regions, at the ideal instance.

  Seven operations run between the column pass and the write-out pass: the crossing-flag row is flattened and converted
  to 32-bit integers; their running sum is taken (a window of 4096 reaching back over 4095 cells of padding, from 0);
  the own integer is subtracted and the result laid out as a row again. None of them writes the argument or the rows
  of scales, centres and new values, so region 1 is entered with those as region 0 left them. When the flag row holds
  the specification's 0/1 crossing flags as reals, the integers are the specification's flags (a 0/1 real converts to
  the same bit, widened), so the row region 1 is entered with holds, at column c, the rank of c among the crossing
  columns as the specification spells it.
-/
import proofs.«135706_j46454366273944_2_alg».proof.Proof.KRun
import proofs.«135706_j46454366273944_2_alg».proof.Proof.Spec
import Idealize.ShloMosaic.Lib.ValueLayout

set_option maxRecDepth 16384

noncomputable section

namespace Cert.KernelIdeal.KValue

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ) (ρ : Dev nD → PrngReg) (c : Dev nD)

/-! ## What the host operations leave alone -/

/-- A buffer that is none of the seven results is, at region 1's entry, as region 0 left it. -/
theorem V4_keeps (b : Ref sig .tc) (h1 : b ≠ main_v1) (h2 : b ≠ main_v2) (hc : b ≠ main_call0_call0_c)
    (hv0 : b ≠ main_call0_call0_v0) (h3 : b ≠ main_v3) (h4 : b ≠ main_v4) (h5 : b ≠ main_v5) :
    V4 (F := Ideal) m ρ c b = V1 m ρ c b :=
  calc W4 m ρ c (Proc.devRef .tc b)
    _ = W3 m ρ c (Proc.devRef .tc b) := StableHlo.after_of_forall_not_mem (b := Proc.devRef .tc b) _ _ (List.forall_iff_forall_mem.mp (by
          simp only [hostOps1_2, List.Forall, StableHlo.binary_writes, StableHlo.reshape_writes, Finset.mem_singleton]
          exact ⟨StableHlo.devRef_ne_of_ne h4, StableHlo.devRef_ne_of_ne h5⟩))
    _ = W2 m ρ c (Proc.devRef .tc b) := StableHlo.after_of_forall_not_mem (b := Proc.devRef .tc b) _ _ (List.forall_iff_forall_mem.mp (by
          simp only [hostOps1_1, List.Forall, StableHlo.TRef.nullary, StableHlo.TRef.unary, StableHlo.TRef.binary, StableHlo.nullary_writes, StableHlo.unary_writes, StableHlo.binary_writes, Finset.mem_singleton]
          exact ⟨StableHlo.devRef_ne_of_ne hc, StableHlo.devRef_ne_of_ne hv0, StableHlo.devRef_ne_of_ne h3⟩))
    _ = W1 m ρ c (Proc.devRef .tc b) := StableHlo.after_of_forall_not_mem (b := Proc.devRef .tc b) _ _ (List.forall_iff_forall_mem.mp (by
          simp only [hostOps1, List.Forall, StableHlo.unary_writes, StableHlo.reshape_writes, Finset.mem_singleton]
          exact ⟨StableHlo.devRef_ne_of_ne h1, StableHlo.devRef_ne_of_ne h2⟩))

theorem V4_keeps_arg0 : V4 (F := Ideal) m ρ c main_arg0 = V1 m ρ c main_arg0 :=
  V4_keeps m ρ c main_arg0 (by decide) (by decide) (by decide) (by decide) (by decide) (by decide) (by decide)
theorem V4_keeps_v0_0 : V4 (F := Ideal) m ρ c main_v0_0 = V1 m ρ c main_v0_0 :=
  V4_keeps m ρ c main_v0_0 (by decide) (by decide) (by decide) (by decide) (by decide) (by decide) (by decide)
theorem V4_keeps_v0_1 : V4 (F := Ideal) m ρ c main_v0_1 = V1 m ρ c main_v0_1 :=
  V4_keeps m ρ c main_v0_1 (by decide) (by decide) (by decide) (by decide) (by decide) (by decide) (by decide)
theorem V4_keeps_v0_3 : V4 (F := Ideal) m ρ c main_v0_3 = V1 m ρ c main_v0_3 :=
  V4_keeps m ρ c main_v0_3 (by decide) (by decide) (by decide) (by decide) (by decide) (by decide) (by decide)

/-- A 0/1 flag written as a real and converted to a signed 32-bit integer is the flag's bit widened. -/
theorem fptosi_flag (b : BitVec 1) : Ideal.fptosi 32 (((b.toNat : ℝ) : EReal)) = b.setWidth 32 := by
  rcases BitVec.eq_zero_or_eq_one b with h | h <;> subst h
  · have e : (((0#1 : BitVec 1).toNat : ℝ)) = 0 := by norm_num
    rw [e, Ideal.fptosi, Ideal.toIntClamped_coe]
    norm_num
  · have e : (((1#1 : BitVec 1).toNat : ℝ)) = 1 := by norm_num
    rw [e, Ideal.fptosi, Ideal.toIntClamped_coe]
    norm_num

/-- The crossing-flag row, flattened and converted to integers, is the specification's vector of flags. -/
theorem flags_eq (x : Cert.Spec.Mat) :
    fptosi (F := Ideal) (φ := .f32) 32 (shapeCast S4096 (fun i : S1x4096.Idx => Cert.Spec.crossf (Cert.Spec.colOf x (i 1)))
      shapeCasts_S1x4096_S4096) = Cert.Spec.ci x := by
  funext k
  obtain ⟨j, rfl⟩ : ∃ j : Fin 4096, k = ix1 j := ⟨k 0, eq_ix1 k⟩
  show Ideal.fptosi 32 (shapeCast S4096 (fun i : S1x4096.Idx => Cert.Spec.crossf (Cert.Spec.colOf x (i 1)))
    shapeCasts_S1x4096_S4096 (ix1 j)) = _
  rw [shapeCast_1a_a_apply]
  exact fptosi_flag _

/-! ## The three host stretches, from any contents -/

section Stages
variable (V : Valuation τ sig (Elt Ideal))

/-! At a literal reference the typed view of a buffer's contents is the contents. -/
theorem ofBuf_v2 (h1 : main_v2.ty = ⟨S4096, .i32⟩) (h2 : main_v2.space ≠ .host) (h3 : main_v2.isScoped = false)
    (v : main_v2.ty.Contents (Elt Ideal)) : (StableHlo.TRef.of main_v2 h1 h2 h3).ofBuf v = v := rfl
theorem toBuf_v3 (h1 : main_v3.ty = ⟨S4096, .i32⟩) (h2 : main_v3.space ≠ .host) (h3 : main_v3.isScoped = false)
    (v : (⟨S4096, .i32⟩ : BufTy).Contents (Elt Ideal)) : (StableHlo.TRef.of main_v3 h1 h2 h3).toBuf v = v := rfl
theorem ofBuf_cv0 (h1 : main_call0_call0_v0.ty = ⟨S_, .i32⟩) (h2 : main_call0_call0_v0.space ≠ .host)
    (h3 : main_call0_call0_v0.isScoped = false) (v : main_call0_call0_v0.ty.Contents (Elt Ideal)) :
    (StableHlo.TRef.of main_call0_call0_v0 h1 h2 h3).ofBuf v = v := rfl
theorem toBuf_cv0 (h1 : main_call0_call0_v0.ty = ⟨S_, .i32⟩) (h2 : main_call0_call0_v0.space ≠ .host)
    (h3 : main_call0_call0_v0.isScoped = false) (v : (⟨S_, .i32⟩ : BufTy).Contents (Elt Ideal)) :
    (StableHlo.TRef.of main_call0_call0_v0 h1 h2 h3).toBuf v = v := rfl
theorem ofBuf_cc (h1 : main_call0_call0_c.ty = ⟨S_, .i32⟩) (h2 : main_call0_call0_c.space ≠ .host)
    (h3 : main_call0_call0_c.isScoped = false) (v : main_call0_call0_c.ty.Contents (Elt Ideal)) :
    (StableHlo.TRef.of main_call0_call0_c h1 h2 h3).ofBuf v = v := rfl
theorem toBuf_cc (h1 : main_call0_call0_c.ty = ⟨S_, .i32⟩) (h2 : main_call0_call0_c.space ≠ .host)
    (h3 : main_call0_call0_c.isScoped = false) (v : (⟨S_, .i32⟩ : BufTy).Contents (Elt Ideal)) :
    (StableHlo.TRef.of main_call0_call0_c h1 h2 h3).toBuf v = v := rfl

/-- The flag row flattened and converted to integers. -/
theorem stage1 : StableHlo.after hostOps1 V (Proc.devRef .tc main_v2)
    = fptosi (F := Ideal) (φ := .f32) 32 (shapeCast S4096 (V (Proc.devRef .tc main_v0_2)) shapeCasts_S1x4096_S4096) := by
  simp only [hostOps1]
  open StableHlo in after_results
  rfl

/-- The running sum of the integers, from 0. -/
theorem stage2 : StableHlo.after hostOps1_1 V (Proc.devRef .tc main_v3)
    = Host.reduceWindow IntOp.addi ![4096] ![1] ![4095] ![0] (V (Proc.devRef .tc main_v2)) (fun _ => (0#32 : BitVec 32))
        reduceWindows_S4096_S4096_w4096s1p4095_0 h_S_ := by
  simp only [hostOps1_1, StableHlo.TRef.nullary, StableHlo.TRef.unary, StableHlo.TRef.binary]
  open StableHlo in after_results
  rw [toBuf_v3, ofBuf_v2, ofBuf_cv0, toBuf_cv0, ofBuf_cc, toBuf_cc,
    show broadcastInDim S_ ![] bcast_S_S_ (constantI S_ 32 0#32) = fun _ => (0#32 : BitVec 32) from rfl]

/-- … which leaves the integers where they were. -/
theorem stage2_keeps : StableHlo.after hostOps1_1 V (Proc.devRef .tc main_v2) = V (Proc.devRef .tc main_v2) := by
  simp only [hostOps1_1, StableHlo.TRef.nullary, StableHlo.TRef.unary, StableHlo.TRef.binary]
  open StableHlo in after_results

/-- The running sum less the own integer, as a row. -/
theorem stage3 : StableHlo.after hostOps1_2 V (Proc.devRef .tc main_v5)
    = shapeCast S1x4096 (subi (V (Proc.devRef .tc main_v3)) (V (Proc.devRef .tc main_v2))) shapeCasts_S4096_S1x4096 := by
  simp only [hostOps1_2]
  open StableHlo in after_results
  rfl

end Stages

/-- Region 1 is entered with the rank row: at column c the running sum of the flags less the own flag. -/
theorem V4_lrow_of (x : Cert.Spec.Mat)
    (hflag : V1 (F := Ideal) m ρ c main_v0_2 = fun i => Cert.Spec.crossf (Cert.Spec.colOf x (i 1))) :
    V4 (F := Ideal) m ρ c main_v5 = fun i => Cert.Spec.lrow x (i 1) := by
  have hflag' : W1 m ρ c (Proc.devRef .tc main_v0_2)
      = (fun i : S1x4096.Idx => Cert.Spec.crossf (Cert.Spec.colOf x (i 1))) := hflag
  show StableHlo.after hostOps1_2 (StableHlo.after hostOps1_1 (StableHlo.after hostOps1 (W1 m ρ c))) (Proc.devRef .tc main_v5) = _
  rw [stage3, stage2, stage2_keeps, stage1, hflag', flags_eq]
  funext i
  obtain ⟨u, j, rfl⟩ : ∃ (u : Fin 1) (j : Fin 4096), i = ix2 u j := ⟨i 0, i 1, eq_ix2 i⟩
  rw [shapeCast_a_1a_apply]
  rfl

end Cert.KernelIdeal.KValue

end
-- ==== Proof.KValue0.lean ====
/-
  The column pass read at the ideal instance, and what the write-out pass is entered with.

  At point t the column pass stages columns 512 t … 512 t + 511 of the launched argument x and writes back, for each
  of those columns, four numbers into block t of four rows of 4096: the scale, the centre, the crossing flag and the
  new error term of the column, each the specification's function of the column. The eight blocks tile each row, so
  after the pass each row holds its function of every column of x. The host stretches between the two passes leave the
  argument and the scale, centre and new-error-term rows alone and turn the flag row into the row of ranks; so the
  write-out pass is entered with x, the three rows, and the ranks.
-/
import proofs.«135706_j46454366273944_2_alg».proof.Proof.KRun
import proofs.«135706_j46454366273944_2_alg».proof.Proof.Spec
import proofs.«135706_j46454366273944_2_alg».proof.Proof.KPay0
import proofs.«135706_j46454366273944_2_alg».proof.Proof.KValueHost
import proofs.«135706_j46454366273944_2_alg».proof.Proof.KCover
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The column pass: where its windows sit -/

theorem zero_offsets0 : (![0, 0] : Fin 2 → Nat) = fun _ => 0 := funext fun a => by fin_cases a <;> rfl

/-- The printed index maps of the column pass, decided over its eight points: at point `t` every window's block
    is at block row 0 and block column `t`. -/
theorem index0_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The input strip at point `t` is columns `512 t … 512 t + 511` of the argument as launched. -/
theorem strip0_apply (c : Dev nD) (t : Fin cfg0.N) (y : S2048x512.Idx) (k : S2048x4096.Idx)
    (hk0 : (k 0).val = (y 0).val) (hk1 : (k 1).val = 512 * t.val + (y 1).val) :
    (iblk0 (V0 m ρ) c 0 t : Vec Ideal S2048x512 .f32) y = (m ((c : Thread nD τ).loc main_arg0) : S2048x4096.Idx → EReal) k := by
  obtain ⟨e0, e1, -⟩ := index0_facts t
  unfold iblk0
  rw [View.read_apply]
  show (m ((c : Thread nD τ).loc main_arg0) : S2048x4096.Idx → EReal) _ = m ((c : Thread nD τ).loc main_arg0) k
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 512 + 1 * (y 1).val = (k 1).val; rw [e1, hk1]; omega

/-! ## Each result row, block by block -/

/-- The scale row's payload at position `j = (0, q)` of a strip `X` whose column `q` is column `k` of the
    matrix `x`: the specification's scale of that column. -/
theorem row0_scale (X : Vec Ideal S2048x512 .f32) (x : Cert.Spec.Mat) (j : S1x512.Idx) (q : Fin 512) (k : Fin 4096)
    (hq : (j 1).val = q.val) (hX : ∀ r : Fin 2048, X (ix2 r q) = x (ix2 r k)) :
    k0_pay1 (k0_pay8 X) (k0_pay12 X) j = Cert.Spec.scale (Cert.Spec.colOf x k) := by
  have hj : j = ix2 (0 : Fin 1) q := by
    funext a
    match a with
    | ⟨0, _⟩ => exact Fin.ext (by have := idx2_lt0 (n0 := 1) (n1 := 512) j; show (j 0).val = 0; omega)
    | ⟨1, _⟩ => exact Fin.ext hq
  rw [hj, pay_scale]
  congr 1
  funext r
  exact hX r

/-- What point `t` of the column pass writes back to the scale row: block `t` of the row of the specification's
    scale of the launched argument's columns. -/
theorem flushed0_1_eq (c : Dev nD) (t : Fin cfg0.N) :
    (dat0 (V0 m ρ) c).flushed 1 t = ((cfg0.win 1).blk t).view.read (Elt Ideal)
      (fun i : S1x4096.Idx => Cert.Spec.scale (Cert.Spec.colOf (m ((c : Thread nD τ).loc main_arg0)) (i 1))) := by
  show (cfg0.win 1).cut (grid0.coords t) ((dat0 (V0 m ρ) c).after 1 t) = _
  rw [after0_1]
  unfold out0_1
  rw [View.canon_unit_zero zero_offsets0]
  simp only [View.ld_unit_zero (S := S2048x512) zero_offsets0]
  obtain ⟨-, -, e0, e1, -, -, -, -, -, -⟩ := index0_facts t
  funext j
  show k0_pay1 (k0_pay8 (iblk0 (V0 m ρ) c 0 t)) (k0_pay12 (iblk0 (V0 m ρ) c 0 t)) j
    = Cert.Spec.scale (Cert.Spec.colOf (m ((c : Thread nD τ).loc main_arg0)) ((((cfg0.win 1).blk t).view.emb j) 1))
  refine row0_scale _ _ j ⟨(j 1).val, (show (j 1).val < 512 from (j 1).isLt)⟩ _ rfl fun r => ?_
  refine strip0_apply m ρ c t _ _ rfl ?_
  show win0_1.index t (1 : Fin 2) * 512 + 1 * (j 1).val = 512 * t.val + (j 1).val
  rw [e1]; omega

/-- The centre row's payload at position `j = (0, q)` of a strip `X` whose column `q` is column `k` of the
    matrix `x`: the specification's center of that column. -/
theorem row0_center (X : Vec Ideal S2048x512 .f32) (x : Cert.Spec.Mat) (j : S1x512.Idx) (q : Fin 512) (k : Fin 4096)
    (hq : (j 1).val = q.val) (hX : ∀ r : Fin 2048, X (ix2 r q) = x (ix2 r k)) :
    k0_pay11 X j = Cert.Spec.center (Cert.Spec.colOf x k) := by
  have hj : j = ix2 (0 : Fin 1) q := by
    funext a
    match a with
    | ⟨0, _⟩ => exact Fin.ext (by have := idx2_lt0 (n0 := 1) (n1 := 512) j; show (j 0).val = 0; omega)
    | ⟨1, _⟩ => exact Fin.ext hq
  rw [hj, pay_center]
  congr 1
  funext r
  exact hX r

/-- What point `t` of the column pass writes back to the centre row: block `t` of the row of the specification's
    center of the launched argument's columns. -/
theorem flushed0_2_eq (c : Dev nD) (t : Fin cfg0.N) :
    (dat0 (V0 m ρ) c).flushed 2 t = ((cfg0.win 2).blk t).view.read (Elt Ideal)
      (fun i : S1x4096.Idx => Cert.Spec.center (Cert.Spec.colOf (m ((c : Thread nD τ).loc main_arg0)) (i 1))) := by
  show (cfg0.win 2).cut (grid0.coords t) ((dat0 (V0 m ρ) c).after 2 t) = _
  rw [after0_2]
  unfold out0_2
  rw [View.canon_unit_zero zero_offsets0]
  simp only [View.ld_unit_zero (S := S2048x512) zero_offsets0]
  obtain ⟨-, -, -, -, e0, e1, -, -, -, -⟩ := index0_facts t
  funext j
  show k0_pay11 (iblk0 (V0 m ρ) c 0 t) j
    = Cert.Spec.center (Cert.Spec.colOf (m ((c : Thread nD τ).loc main_arg0)) ((((cfg0.win 2).blk t).view.emb j) 1))
  refine row0_center _ _ j ⟨(j 1).val, (show (j 1).val < 512 from (j 1).isLt)⟩ _ rfl fun r => ?_
  refine strip0_apply m ρ c t _ _ rfl ?_
  show win0_2.index t (1 : Fin 2) * 512 + 1 * (j 1).val = 512 * t.val + (j 1).val
  rw [e1]; omega

/-- The crossing flag row's payload at position `j = (0, q)` of a strip `X` whose column `q` is column `k` of the
    matrix `x`: the specification's crossf of that column. -/
theorem row0_crossf (X : Vec Ideal S2048x512 .f32) (x : Cert.Spec.Mat) (j : S1x512.Idx) (q : Fin 512) (k : Fin 4096)
    (hq : (j 1).val = q.val) (hX : ∀ r : Fin 2048, X (ix2 r q) = x (ix2 r k)) :
    k0_pay7 X j = Cert.Spec.crossf (Cert.Spec.colOf x k) := by
  have hj : j = ix2 (0 : Fin 1) q := by
    funext a
    match a with
    | ⟨0, _⟩ => exact Fin.ext (by have := idx2_lt0 (n0 := 1) (n1 := 512) j; show (j 0).val = 0; omega)
    | ⟨1, _⟩ => exact Fin.ext hq
  rw [hj, pay_crossf]
  congr 1
  funext r
  exact hX r

/-- What point `t` of the column pass writes back to the crossing flag row: block `t` of the row of the specification's
    crossf of the launched argument's columns. -/
theorem flushed0_3_eq (c : Dev nD) (t : Fin cfg0.N) :
    (dat0 (V0 m ρ) c).flushed 3 t = ((cfg0.win 3).blk t).view.read (Elt Ideal)
      (fun i : S1x4096.Idx => Cert.Spec.crossf (Cert.Spec.colOf (m ((c : Thread nD τ).loc main_arg0)) (i 1))) := by
  show (cfg0.win 3).cut (grid0.coords t) ((dat0 (V0 m ρ) c).after 3 t) = _
  rw [after0_3]
  unfold out0_3
  rw [View.canon_unit_zero zero_offsets0]
  simp only [View.ld_unit_zero (S := S2048x512) zero_offsets0]
  obtain ⟨-, -, -, -, -, -, e0, e1, -, -⟩ := index0_facts t
  funext j
  show k0_pay7 (iblk0 (V0 m ρ) c 0 t) j
    = Cert.Spec.crossf (Cert.Spec.colOf (m ((c : Thread nD τ).loc main_arg0)) ((((cfg0.win 3).blk t).view.emb j) 1))
  refine row0_crossf _ _ j ⟨(j 1).val, (show (j 1).val < 512 from (j 1).isLt)⟩ _ rfl fun r => ?_
  refine strip0_apply m ρ c t _ _ rfl ?_
  show win0_3.index t (1 : Fin 2) * 512 + 1 * (j 1).val = 512 * t.val + (j 1).val
  rw [e1]; omega

/-- The new error term row's payload at position `j = (0, q)` of a strip `X` whose column `q` is column `k` of the
    matrix `x`: the specification's newval of that column. -/
theorem row0_newval (X : Vec Ideal S2048x512 .f32) (x : Cert.Spec.Mat) (j : S1x512.Idx) (q : Fin 512) (k : Fin 4096)
    (hq : (j 1).val = q.val) (hX : ∀ r : Fin 2048, X (ix2 r q) = x (ix2 r k)) :
    k0_pay2 (k0_pay7 X) (k0_pay10 X) j = Cert.Spec.newval (Cert.Spec.colOf x k) := by
  have hj : j = ix2 (0 : Fin 1) q := by
    funext a
    match a with
    | ⟨0, _⟩ => exact Fin.ext (by have := idx2_lt0 (n0 := 1) (n1 := 512) j; show (j 0).val = 0; omega)
    | ⟨1, _⟩ => exact Fin.ext hq
  rw [hj, pay_newval]
  congr 1
  funext r
  exact hX r

/-- What point `t` of the column pass writes back to the new error term row: block `t` of the row of the specification's
    newval of the launched argument's columns. -/
theorem flushed0_4_eq (c : Dev nD) (t : Fin cfg0.N) :
    (dat0 (V0 m ρ) c).flushed 4 t = ((cfg0.win 4).blk t).view.read (Elt Ideal)
      (fun i : S1x4096.Idx => Cert.Spec.newval (Cert.Spec.colOf (m ((c : Thread nD τ).loc main_arg0)) (i 1))) := by
  show (cfg0.win 4).cut (grid0.coords t) ((dat0 (V0 m ρ) c).after 4 t) = _
  rw [after0_4]
  unfold out0_4
  rw [View.canon_unit_zero zero_offsets0]
  simp only [View.ld_unit_zero (S := S2048x512) zero_offsets0]
  obtain ⟨-, -, -, -, -, -, -, -, e0, e1⟩ := index0_facts t
  funext j
  show k0_pay2 (k0_pay7 (iblk0 (V0 m ρ) c 0 t)) (k0_pay10 (iblk0 (V0 m ρ) c 0 t)) j
    = Cert.Spec.newval (Cert.Spec.colOf (m ((c : Thread nD τ).loc main_arg0)) ((((cfg0.win 4).blk t).view.emb j) 1))
  refine row0_newval _ _ j ⟨(j 1).val, (show (j 1).val < 512 from (j 1).isLt)⟩ _ rfl fun r => ?_
  refine strip0_apply m ρ c t _ _ rfl ?_
  show win0_4.index t (1 : Fin 2) * 512 + 1 * (j 1).val = 512 * t.val + (j 1).val
  rw [e1]; omega

/-! ## Each result row as a whole, after the column pass -/

/-- So the scale row ends the column pass holding the specification's scale of every column. -/
theorem final0_1 (c : Dev nD) : (dat0 (V0 m ρ) c).arrAt 1 cfg0.N
    = fun i : S1x4096.Idx => Cert.Spec.scale (Cert.Spec.colOf (m ((c : Thread nD τ).loc main_arg0)) (i 1)) :=
  (dat0 (V0 m ρ) c).arrAt_eq_of_cover 1 _ (fun t _ => flushed0_1_eq m ρ c t) cover0_1

/-- and that is what the buffer `main_v0_0` holds when the column pass is left. -/
theorem V1_scale (c : Dev nD) : V1 m ρ c main_v0_0
    = fun i : S1x4096.Idx => Cert.Spec.scale (Cert.Spec.colOf (m ((c : Thread nD τ).loc main_arg0)) (i 1)) :=
  (W1_arr m ρ c 1).trans (final0_1 m ρ c)

/-- So the centre row ends the column pass holding the specification's center of every column. -/
theorem final0_2 (c : Dev nD) : (dat0 (V0 m ρ) c).arrAt 2 cfg0.N
    = fun i : S1x4096.Idx => Cert.Spec.center (Cert.Spec.colOf (m ((c : Thread nD τ).loc main_arg0)) (i 1)) :=
  (dat0 (V0 m ρ) c).arrAt_eq_of_cover 2 _ (fun t _ => flushed0_2_eq m ρ c t) cover0_2

/-- and that is what the buffer `main_v0_1` holds when the column pass is left. -/
theorem V1_center (c : Dev nD) : V1 m ρ c main_v0_1
    = fun i : S1x4096.Idx => Cert.Spec.center (Cert.Spec.colOf (m ((c : Thread nD τ).loc main_arg0)) (i 1)) :=
  (W1_arr m ρ c 2).trans (final0_2 m ρ c)

/-- So the crossing flag row ends the column pass holding the specification's crossf of every column. -/
theorem final0_3 (c : Dev nD) : (dat0 (V0 m ρ) c).arrAt 3 cfg0.N
    = fun i : S1x4096.Idx => Cert.Spec.crossf (Cert.Spec.colOf (m ((c : Thread nD τ).loc main_arg0)) (i 1)) :=
  (dat0 (V0 m ρ) c).arrAt_eq_of_cover 3 _ (fun t _ => flushed0_3_eq m ρ c t) cover0_3

/-- and that is what the buffer `main_v0_2` holds when the column pass is left. -/
theorem V1_crossf (c : Dev nD) : V1 m ρ c main_v0_2
    = fun i : S1x4096.Idx => Cert.Spec.crossf (Cert.Spec.colOf (m ((c : Thread nD τ).loc main_arg0)) (i 1)) :=
  (W1_arr m ρ c 3).trans (final0_3 m ρ c)

/-- So the new error term row ends the column pass holding the specification's newval of every column. -/
theorem final0_4 (c : Dev nD) : (dat0 (V0 m ρ) c).arrAt 4 cfg0.N
    = fun i : S1x4096.Idx => Cert.Spec.newval (Cert.Spec.colOf (m ((c : Thread nD τ).loc main_arg0)) (i 1)) :=
  (dat0 (V0 m ρ) c).arrAt_eq_of_cover 4 _ (fun t _ => flushed0_4_eq m ρ c t) cover0_4

/-- and that is what the buffer `main_v0_3` holds when the column pass is left. -/
theorem V1_newval (c : Dev nD) : V1 m ρ c main_v0_3
    = fun i : S1x4096.Idx => Cert.Spec.newval (Cert.Spec.colOf (m ((c : Thread nD τ).loc main_arg0)) (i 1)) :=
  (W1_arr m ρ c 4).trans (final0_4 m ρ c)

/-- The argument is as launched when the column pass is left: its window is an input, never written back. -/
theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))

/-! ## What the write-out pass is entered with

The host stretches between the two passes write neither the argument nor the scale, centre and new-error-term rows,
and turn the crossing-flag row into the row of ranks. -/

theorem V4_arg0 (c : Dev nD) : V4 (F := Ideal) m ρ c main_arg0 = m ((c.tc : Thread nD τ).loc main_arg0) :=
  (V4_keeps_arg0 m ρ c).trans (V1_arg0 m ρ c)

theorem V4_scale (c : Dev nD) : V4 (F := Ideal) m ρ c main_v0_0 = fun i => Cert.Spec.scale (Cert.Spec.colOf (m ((c.tc : Thread nD τ).loc main_arg0)) (i 1)) :=
  (V4_keeps_v0_0 m ρ c).trans (V1_scale m ρ c)

theorem V4_center (c : Dev nD) : V4 (F := Ideal) m ρ c main_v0_1 = fun i => Cert.Spec.center (Cert.Spec.colOf (m ((c.tc : Thread nD τ).loc main_arg0)) (i 1)) :=
  (V4_keeps_v0_1 m ρ c).trans (V1_center m ρ c)

theorem V4_newval (c : Dev nD) : V4 (F := Ideal) m ρ c main_v0_3 = fun i => Cert.Spec.newval (Cert.Spec.colOf (m ((c.tc : Thread nD τ).loc main_arg0)) (i 1)) :=
  (V4_keeps_v0_3 m ρ c).trans (V1_newval m ρ c)

theorem V4_lrow (c : Dev nD) : V4 (F := Ideal) m ρ c main_v5 = fun i => Cert.Spec.lrow (m ((c.tc : Thread nD τ).loc main_arg0)) (i 1) :=
  V4_lrow_of m ρ c (m ((c.tc : Thread nD τ).loc main_arg0)) (V1_crossf m ρ c)

end Cert.KernelIdeal.KValue

end
-- ==== Proof.KValue1.lean ====
/-
  The value the second region leaves in the result array, at the ideal instance.

  The region runs over a grid of 8 column strips (first coordinate) by 12 row blocks (second coordinate) and
  writes block (row block, column strip) of the [6144, 4096] result at every point, each block 512 by 512.
  With ri the row block and ci the column strip, entry (p, q) of the block is entry (512·ri + p, 512·ci + q)
  of the result:

    ri = 0            row 0 of the block is the centres of the strip's columns, the other rows x · scale;
    ri = 1, 2, 3      x · scale, the block of x being block (ri, ci);
    ri ≥ 4            newval of column 512·ci + q where the row's number counted from 2048, 512·(ri − 4) + p,
                      is the column's rank among the crossing columns, zero elsewhere.

  Given what the region is entered with (the argument as launched, and the rows scale, centre, newval and rank
  as the specification's functions of the argument's columns), each written block is the block of the
  specification's result, and the 96 blocks tile the result array.
-/
import proofs.«135706_j46454366273944_2_alg».proof.Proof.KRun
import proofs.«135706_j46454366273944_2_alg».proof.Proof.Spec
import proofs.«135706_j46454366273944_2_alg».proof.Proof.KCover
import proofs.«135706_j46454366273944_2_alg».proof.Proof.KValue0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## The three stored values at an entry -/

/-- A select on an integer equality test is an if on the equality. -/
theorem select_cmpi_eq {α : Type} (a b : BitVec 32) (x y : α) :
    Scalar.select (IntOp.cmpi .eq a b) x y = if a = b then x else y := by
  show (if BitVec.ofBool (a == b) = 1 then x else y) = _
  by_cases h : a = b
  · subst h; simp
  · have hb : (a == b) = false := beq_false_of_ne h
    rw [hb, if_neg h, if_neg (by decide)]

/-- The product store: entry (p, q) is the block's entry times the row's entry at q. -/
theorem k1_pay1_apply (v9 : Vec Ideal S512x512 .f32) (v10 : Vec Ideal S1x512 .f32) (p q : Fin 512) :
    k1_pay1 v9 v10 (ix2 p q) = v9 (ix2 p q) * v10 (ix2 (0 : Fin 1) q) := by
  unfold k1_pay1
  rw [mulf_apply, shapeCast_self, broadcastTo_1b_ab_apply]

/-- The row store: the row itself. -/
theorem k1_pay2_eq (v9 : Vec Ideal S1x512 .f32) : k1_pay2 v9 = v9 := by
  unfold k1_pay2
  rw [shapeCast_self]

/-- The scatter store: at (p, q) the row's entry at q where p plus the block's first row number equals the
    rank at q, zero elsewhere. -/
theorem k1_pay3_apply (i : grid1.Coords) (v14 : Vec Ideal S1x512 .i32) (v18 : Vec Ideal S1x512 .f32) (p q : Fin 512) :
    k1_pay3 i v14 v18 (ix2 p q)
      = if BitVec.ofNat 32 p.val + (BitVec.ofNat 32 (i 1).val - 4#32) * 512#32 = v14 (ix2 (0 : Fin 1) q)
        then v18 (ix2 (0 : Fin 1) q) else 0 := by
  unfold k1_pay3
  dsimp only
  rw [select_apply, shapeCast_self, shapeCast_self, shapeCast_self]
  show Scalar.select (IntOp.cmpi .eq (IntOp.addi (iota .tc S512x512 32 [0] iota_S512x512_d0_w32 (ix2 p q))
      (Scalar.muli (Scalar.subi (BitVec.ofNat 32 (i 1).val) 4#32) 512#32)) (broadcastTo S512x512 v14 broadcasts_S1x512_S512x512 (ix2 p q)))
      (broadcastTo S512x512 v18 broadcasts_S1x512_S512x512 (ix2 p q)) (Ideal.ofBits .f32 0x00000000#32) = _
  rw [iota_single_apply, broadcastTo_1b_ab_apply, broadcastTo_1b_ab_apply, Ideal.ofBits_zero_f32, select_cmpi_eq]
  rfl

/-! ## A block of the result at an entry -/

theorem hz_k1 : (![0, 0] : Fin 2 → Nat) = fun _ => 0 := funext fun a => by fin_cases a <;> rfl

/-- No wrap: for 4 ≤ ri < 12 and p < 512 the 32-bit word p + (ri − 4) · 512 is the number 512 · ri + p − 2048. -/
theorem row_word (ri p : Nat) (hri : ri < 12) (hp : p < 512) (h : 4 ≤ ri) :
    BitVec.ofNat 32 p + (BitVec.ofNat 32 ri - 4#32) * 512#32 = BitVec.ofNat 32 (ri * 512 + p - 2048) := by
  apply BitVec.eq_of_toNat_eq
  simp only [BitVec.toNat_add, BitVec.toNat_sub, BitVec.toNat_mul, BitVec.toNat_ofNat]
  omega

/-- The specification's result at an entry given by its row and column. -/
theorem out_ix2 (x : Cert.Spec.Mat) (r : Fin 6144) (cc : Fin 4096) :
    Cert.Spec.out x (ix2 r cc)
      = if r.val = 0 then Cert.Spec.center (Cert.Spec.colOf x cc)
        else if h : r.val < 2048 then x (ix2 ⟨r.val, h⟩ cc) * Cert.Spec.scale (Cert.Spec.colOf x cc)
        else if BitVec.ofNat 32 (r.val - 2048) = Cert.Spec.lrow x cc then Cert.Spec.newval (Cert.Spec.colOf x cc) else 0 := rfl

/-- WHAT A POINT LEAVES IN ITS BLOCK, entry by entry: with ri the point's row block, entry (p, q) of the block is
    the specification's result at row 512 · ri + p and the column cc the rows' entry q belongs to — given that the
    point's block of x holds x at that row (where the row is below 2048) and the four rows' blocks hold the
    specification's scale, centre, newval and rank of column cc. -/
theorem block1_value (x : Cert.Spec.Mat) (i : grid1.Coords)
    (x0 : Vec Ideal S512x512 .f32) (x1 x2 x3 : Vec Ideal S1x512 .f32) (x4 : Vec Ideal S1x512 .i32)
    (p q : Fin 512) (r : Fin 6144) (cc : Fin 4096)
    (hr : r.val = (i 1).val * 512 + p.val)
    (h0 : ∀ hlt : r.val < 2048, x0 (ix2 p q) = x (ix2 ⟨r.val, hlt⟩ cc))
    (h1 : x1 (ix2 (0 : Fin 1) q) = Cert.Spec.scale (Cert.Spec.colOf x cc))
    (h2 : x2 (ix2 (0 : Fin 1) q) = Cert.Spec.center (Cert.Spec.colOf x cc))
    (h3 : x3 (ix2 (0 : Fin 1) q) = Cert.Spec.newval (Cert.Spec.colOf x cc))
    (h4 : x4 (ix2 (0 : Fin 1) q) = Cert.Spec.lrow x cc) :
    out1_5 i x0 x1 x2 x3 x4 (ix2 p q) = Cert.Spec.out x (ix2 r cc) := by
  have hri : (i 1).val < 12 := (i 1).isLt
  have hp : p.val < 512 := p.isLt
  rw [out_ix2]
  unfold out1_5
  by_cases c3 : k1_cond3 i = 1#1
  · -- the scatter rows: ri ≥ 4
    have h4' : 4 ≤ (i 1).val := (cond3_iff i).mp c3
    rw [if_pos c3, View.canon_unit_zero hz_k1]
    simp only [View.ld_unit_zero (S := S1x512) hz_k1]
    rw [k1_pay3_apply, h4, h3, row_word _ _ hri hp h4', if_neg (show ¬ r.val = 0 by omega), dif_neg (show ¬ r.val < 2048 by omega)]
    have e : (i 1).val * 512 + p.val - 2048 = r.val - 2048 := by omega
    rw [e]
  · have hlt4 : (i 1).val < 4 := by
      have := (cond3_iff i).not.mp c3; omega
    have hlt : r.val < 2048 := by omega
    rw [if_neg c3]
    by_cases c2 : k1_cond2 i = 1#1
    · -- the first row block: row 0 is the centres
      have hri0 : (i 1).val = 0 := (cond2_iff i).mp c2
      rw [if_pos c2]
      simp only [View.ld_unit_zero (S := S1x512) hz_k1, View.ld_unit_zero (S := S512x512) hz_k1]
      by_cases hp0 : p.val = 0
      · have e : (ix2 p q : S512x512.Idx) = rRow0.emb (ix2 (0 : Fin 1) q) := by
          funext a; apply Fin.ext
          match a with
          | ⟨0, _⟩ => show p.val = 0 + 1 * 0; omega
          | ⟨1, _⟩ => show q.val = 0 + 1 * q.val; omega
        rw [e, View.canon_cons_emb, k1_pay2_eq, h2, if_pos (show r.val = 0 by omega)]
      · have hnm : (ix2 p q : S512x512.Idx) ∉ rRow0.set := by
          rw [Rect.mem_set_unit]
          intro h
          have h0' : p.val < 0 + 1 := (h 0).2
          omega
        rw [View.canon_cons_of_not_mem (⟨rRow0, k1_pay2 x2⟩ : View.Piece (Elt Ideal) S512x512 .f32) _ hnm, View.canon_unit_zero hz_k1]
        rw [k1_pay1_apply, h0 hlt, h1, if_neg (show ¬ r.val = 0 by omega), dif_pos hlt]
    · -- row blocks 1, 2, 3
      have hrine : (i 1).val ≠ 0 := (cond2_iff i).not.mp c2
      rw [if_neg c2, View.canon_unit_zero hz_k1]
      simp only [View.ld_unit_zero (S := S1x512) hz_k1, View.ld_unit_zero (S := S512x512) hz_k1]
      rw [k1_pay1_apply, h0 hlt, h1, if_neg (show ¬ r.val = 0 by omega), dif_pos hlt]

/-! ## What a point writes back -/

/-- The printed index maps over the grid: the result's block row is the point's second coordinate; the block of x
    is at block row min(that, 3) in the same strip; the four rows' blocks are at row 0 in the same strip. -/
theorem idx_facts1 : ∀ t : Fin cfg1.N,
    win1_5.index t (0 : Fin 2) = (grid1.coords t 1).val ∧ win1_5.index t (0 : Fin 2) < 12 ∧ win1_5.index t (1 : Fin 2) < 8
    ∧ win1_0.index t (0 : Fin 2) = min (win1_5.index t (0 : Fin 2)) 3 ∧ win1_0.index t (1 : Fin 2) = win1_5.index t (1 : Fin 2)
    ∧ win1_1.index t (0 : Fin 2) = 0 ∧ win1_1.index t (1 : Fin 2) = win1_5.index t (1 : Fin 2)
    ∧ win1_2.index t (0 : Fin 2) = 0 ∧ win1_2.index t (1 : Fin 2) = win1_5.index t (1 : Fin 2)
    ∧ win1_3.index t (0 : Fin 2) = 0 ∧ win1_3.index t (1 : Fin 2) = win1_5.index t (1 : Fin 2)
    ∧ win1_4.index t (0 : Fin 2) = 0 ∧ win1_4.index t (1 : Fin 2) = win1_5.index t (1 : Fin 2) :=
  (by decide +kernel : ∀ t : Fin grid1.N, _)

section Flushed

variable (m : (ℓ : Loc nD τ sig) → Buf (Elt Ideal) ℓ) (ρ : Dev nD → PrngReg) (c : Dev nD)

/-- WHAT POINT t WRITES BACK is block t of the specification's result of the argument as launched. -/
theorem flushed1_eq
    (h0 : V4 (F := Ideal) m ρ c main_arg0 = m ((c.tc : Thread nD τ).loc main_arg0))
    (hs : V4 (F := Ideal) m ρ c main_v0_0 = fun i => Cert.Spec.scale (Cert.Spec.colOf (m ((c.tc : Thread nD τ).loc main_arg0)) (i 1)))
    (hc : V4 (F := Ideal) m ρ c main_v0_1 = fun i => Cert.Spec.center (Cert.Spec.colOf (m ((c.tc : Thread nD τ).loc main_arg0)) (i 1)))
    (hn : V4 (F := Ideal) m ρ c main_v0_3 = fun i => Cert.Spec.newval (Cert.Spec.colOf (m ((c.tc : Thread nD τ).loc main_arg0)) (i 1)))
    (hl : V4 (F := Ideal) m ρ c main_v5 = fun i => Cert.Spec.lrow (m ((c.tc : Thread nD τ).loc main_arg0)) (i 1))
    (t : Fin cfg1.N) :
    (dat1 (F := Ideal) (V4 m ρ) c).flushed 5 t
      = ((cfg1.win 5).blk t).view.read (Elt Ideal) (Cert.Spec.out (m ((c.tc : Thread nD τ).loc main_arg0))) := by
  show (cfg1.win 5).cut (grid1.coords t) ((dat1 (V4 m ρ) c).after 5 t) = _
  rw [after1_5]
  obtain ⟨e5, b50, b51, e00, e01, e10, e11, e20, e21, e30, e31, e40, e41⟩ := idx_facts1 t
  funext j
  have hj0 : (j 0).val < 512 := (j 0).isLt
  have hj1 : (j 1).val < 512 := (j 1).isLt
  obtain ⟨p, hp⟩ : ∃ p : Fin 512, p.val = (j 0).val := ⟨⟨_, hj0⟩, rfl⟩
  obtain ⟨q, hq⟩ : ∃ q : Fin 512, q.val = (j 1).val := ⟨⟨_, hj1⟩, rfl⟩
  obtain ⟨r, hr⟩ : ∃ r : Fin 6144, r.val = win1_5.index t (0 : Fin 2) * 512 + (j 0).val := ⟨⟨_, by omega⟩, rfl⟩
  obtain ⟨cc, hcc⟩ : ∃ cc : Fin 4096, cc.val = win1_5.index t (1 : Fin 2) * 512 + (j 1).val := ⟨⟨_, by omega⟩, rfl⟩
  have ej : (cfg1.win 5).xinj (grid1.coords t) j = (ix2 p q : S512x512.Idx) := by
    funext a
    match a with
    | ⟨0, _⟩ => exact Fin.ext hp.symm
    | ⟨1, _⟩ => exact Fin.ext hq.symm
  have ei : ((cfg1.win 5).blk t).view.emb j = (ix2 r cc : S6144x4096.Idx) := by
    funext a; apply Fin.ext
    match a with
    | ⟨0, _⟩ => show win1_5.index t (0 : Fin 2) * 512 + 1 * (j 0).val = r.val; omega
    | ⟨1, _⟩ => show win1_5.index t (1 : Fin 2) * 512 + 1 * (j 1).val = cc.val; omega
  show out1_5 (grid1.coords t) (iblk1 (V4 m ρ) c 0 t) (iblk1 (V4 m ρ) c 1 t) (iblk1 (V4 m ρ) c 2 t) (iblk1 (V4 m ρ) c 3 t)
      (iblk1 (V4 m ρ) c 4 t) ((cfg1.win 5).xinj (grid1.coords t) j)
    = Cert.Spec.out (m ((c.tc : Thread nD τ).loc main_arg0)) (((cfg1.win 5).blk t).view.emb j)
  rw [ej, ei]
  refine block1_value (m ((c.tc : Thread nD τ).loc main_arg0)) (grid1.coords t) _ _ _ _ _ p q r cc ?_ ?_ ?_ ?_ ?_ ?_
  · -- the row of the entry
    omega
  · -- the block of x, where the row is below 2048: block row min(ri, 3) = ri
    intro hlt
    show V4 m ρ c main_arg0 (((cfg1.win 0).blk t).view.emb (ix2 p q)) = _
    rw [h0]
    refine congrArg _ ?_
    funext a; apply Fin.ext
    match a with
    | ⟨0, _⟩ => show win1_0.index t (0 : Fin 2) * 512 + 1 * p.val = r.val; omega
    | ⟨1, _⟩ => show win1_0.index t (1 : Fin 2) * 512 + 1 * q.val = cc.val; omega
  · -- scale
    show V4 m ρ c main_v0_0 (((cfg1.win 1).blk t).view.emb (ix2 (0 : Fin 1) q)) = _
    rw [hs]
    refine congrArg (fun k => Cert.Spec.scale (Cert.Spec.colOf _ k)) (Fin.ext ?_)
    show win1_1.index t (1 : Fin 2) * 512 + 1 * q.val = cc.val; omega
  · -- centre
    show V4 m ρ c main_v0_1 (((cfg1.win 2).blk t).view.emb (ix2 (0 : Fin 1) q)) = _
    rw [hc]
    refine congrArg (fun k => Cert.Spec.center (Cert.Spec.colOf _ k)) (Fin.ext ?_)
    show win1_2.index t (1 : Fin 2) * 512 + 1 * q.val = cc.val; omega
  · -- newval
    show V4 m ρ c main_v0_3 (((cfg1.win 3).blk t).view.emb (ix2 (0 : Fin 1) q)) = _
    rw [hn]
    refine congrArg (fun k => Cert.Spec.newval (Cert.Spec.colOf _ k)) (Fin.ext ?_)
    show win1_3.index t (1 : Fin 2) * 512 + 1 * q.val = cc.val; omega
  · -- rank
    show V4 m ρ c main_v5 (((cfg1.win 4).blk t).view.emb (ix2 (0 : Fin 1) q)) = _
    rw [hl]
    refine congrArg (fun k => Cert.Spec.lrow _ k) (Fin.ext ?_)
    show win1_4.index t (1 : Fin 2) * 512 + 1 * q.val = cc.val; omega

/-- THE RESULT ARRAY after the region, given the contents it is entered with: the 96 written blocks are the
    blocks of the specification's result and they tile the array. -/
theorem result_eq_of
    (h0 : V4 (F := Ideal) m ρ c main_arg0 = m ((c.tc : Thread nD τ).loc main_arg0))
    (hs : V4 (F := Ideal) m ρ c main_v0_0 = fun i => Cert.Spec.scale (Cert.Spec.colOf (m ((c.tc : Thread nD τ).loc main_arg0)) (i 1)))
    (hc : V4 (F := Ideal) m ρ c main_v0_1 = fun i => Cert.Spec.center (Cert.Spec.colOf (m ((c.tc : Thread nD τ).loc main_arg0)) (i 1)))
    (hn : V4 (F := Ideal) m ρ c main_v0_3 = fun i => Cert.Spec.newval (Cert.Spec.colOf (m ((c.tc : Thread nD τ).loc main_arg0)) (i 1)))
    (hl : V4 (F := Ideal) m ρ c main_v5 = fun i => Cert.Spec.lrow (m ((c.tc : Thread nD τ).loc main_arg0)) (i 1)) :
    (dat1 (F := Ideal) (V4 m ρ) c).arrAt 5 cfg1.N = Cert.Spec.out (m ((c.tc : Thread nD τ).loc main_arg0)) :=
  (dat1 (F := Ideal) (V4 m ρ) c).arrAt_eq_of_cover 5 (Cert.Spec.out (m ((c.tc : Thread nD τ).loc main_arg0)))
    (fun t _ => flushed1_eq m ρ c h0 hs hc hn hl t) (fun i => cover1_5 i)

end Flushed

/-- THE RESULT ARRAY after the second region is the specification's result of the argument as launched. -/
theorem result_eq (m : (ℓ : Loc nD τ sig) → Buf (Elt Ideal) ℓ) (ρ : Dev nD → PrngReg) (c : Dev nD) :
    (dat1 (F := Ideal) (V4 m ρ) c).arrAt 5 cfg1.N = Cert.Spec.out (m ((c.tc : Thread nD τ).loc main_arg0)) :=
  result_eq_of m ρ c (V4_arg0 m ρ c) (V4_scale m ρ c) (V4_center m ρ c) (V4_newval m ρ c) (V4_lrow m ρ c)

end Cert.KernelIdeal.KValue

end
-- ==== Proof.RefTerm.lean ====
/- The reference function's @main as pure terms of its argument: one definition per tensor value that a
   later value reads, each the function of its StableHLO operation applied to the definitions of the
   values it reads. Scalar constants and their broadcasts are written where they are used; the called
   functions are written at the call site as the operations of their bodies (`where(c, a, s)` is
   `select c a (broadcast (id s))`, `cumsum a` is a window sum of width 4096 over 4095 cells of low
   padding). `out` is the result of @main. -/
import proofs.«135706_j46454366273944_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- %0 = slice %arg0 [1:2048, 0:4096] -/
def v0 (x : (⟨S2048x4096, .f32⟩ : BufTy).Contents (Elt F)) : (⟨S2047x4096, .f32⟩ : BufTy).Contents (Elt F) :=
  extractStridedSlice S2047x4096 ![1, 0] x slices_S2048x4096_S2047x4096_1_0

/-- %1 = abs %0 -/
def v1 (x : (⟨S2048x4096, .f32⟩ : BufTy).Contents (Elt F)) : (⟨S2047x4096, .f32⟩ : BufTy).Contents (Elt F) :=
  Host.absf (v0 x)

/-- %2 = reduce add over dimension 0 of %1, from 0.0 -/
def v2 (x : (⟨S2048x4096, .f32⟩ : BufTy).Contents (Elt F)) : (⟨S4096, .f32⟩ : BufTy).Contents (Elt F) :=
  Host.reduceAdd (v1 x) (constant S_ .f32 0x00000000#32) reducesTo_S2047x4096_S4096_d0 h_S_

/-- %3 = slice %arg0 [0:1, 0:4096] -/
def v3 (x : (⟨S2048x4096, .f32⟩ : BufTy).Contents (Elt F)) : (⟨S1x4096, .f32⟩ : BufTy).Contents (Elt F) :=
  extractStridedSlice S1x4096 ![0, 0] x slices_S2048x4096_S1x4096_0_0

/-- %4 = reshape %3 -/
def v4 (x : (⟨S2048x4096, .f32⟩ : BufTy).Contents (Elt F)) : (⟨S4096, .f32⟩ : BufTy).Contents (Elt F) :=
  shapeCast S4096 (v3 x) shapeCasts_S1x4096_S4096

/-- %5 = %4 + %2 -/
def v5 (x : (⟨S2048x4096, .f32⟩ : BufTy).Contents (Elt F)) : (⟨S4096, .f32⟩ : BufTy).Contents (Elt F) :=
  addf (v4 x) (v2 x)

/-- %6 = slice %arg0 [0:1, 0:4096] -/
def v6 (x : (⟨S2048x4096, .f32⟩ : BufTy).Contents (Elt F)) : (⟨S1x4096, .f32⟩ : BufTy).Contents (Elt F) :=
  extractStridedSlice S1x4096 ![0, 0] x slices_S2048x4096_S1x4096_0_0

/-- %7 = reshape %6 -/
def v7 (x : (⟨S2048x4096, .f32⟩ : BufTy).Contents (Elt F)) : (⟨S4096, .f32⟩ : BufTy).Contents (Elt F) :=
  shapeCast S4096 (v6 x) shapeCasts_S1x4096_S4096

/-- %8 = %7 - %2 -/
def v8 (x : (⟨S2048x4096, .f32⟩ : BufTy).Contents (Elt F)) : (⟨S4096, .f32⟩ : BufTy).Contents (Elt F) :=
  subf (v7 x) (v2 x)

/-- %9 = %8 * %5 -/
def v9 (x : (⟨S2048x4096, .f32⟩ : BufTy).Contents (Elt F)) : (⟨S4096, .f32⟩ : BufTy).Contents (Elt F) :=
  mulf (v8 x) (v5 x)

/-- %11 = %9 < 0.0 -/
def v11 (x : (⟨S2048x4096, .f32⟩ : BufTy).Contents (Elt F)) : (⟨S4096, .i1⟩ : BufTy).Contents (Elt F) :=
  cmpf .olt (v9 x) (broadcastInDim S4096 ![] bcast_S_S4096 (constant S_ .f32 0x00000000#32))

/-- %13 = %8 >= 0.0 -/
def v13 (x : (⟨S2048x4096, .f32⟩ : BufTy).Contents (Elt F)) : (⟨S4096, .i1⟩ : BufTy).Contents (Elt F) :=
  cmpf .oge (v8 x) (broadcastInDim S4096 ![] bcast_S_S4096 (constant S_ .f32 0x00000000#32))

/-- %14 = convert %11 to f32 -/
def v14 (x : (⟨S2048x4096, .f32⟩ : BufTy).Contents (Elt F)) : (⟨S4096, .f32⟩ : BufTy).Contents (Elt F) :=
  uitofp .f32 (v11 x)

/-- %15 = convert %13 to f32 -/
def v15 (x : (⟨S2048x4096, .f32⟩ : BufTy).Contents (Elt F)) : (⟨S4096, .f32⟩ : BufTy).Contents (Elt F) :=
  uitofp .f32 (v13 x)

/-- %16 = %5 - %8 -/
def v16 (x : (⟨S2048x4096, .f32⟩ : BufTy).Contents (Elt F)) : (⟨S4096, .f32⟩ : BufTy).Contents (Elt F) :=
  subf (v5 x) (v8 x)

/-- %18 = %16 != 0.0 -/
def v18 (x : (⟨S2048x4096, .f32⟩ : BufTy).Contents (Elt F)) : (⟨S4096, .i1⟩ : BufTy).Contents (Elt F) :=
  cmpf .une (v16 x) (broadcastInDim S4096 ![] bcast_S_S4096 (constant S_ .f32 0x00000000#32))

/-- %19 = where(%18, %16, 1.0) -/
def v19 (x : (⟨S2048x4096, .f32⟩ : BufTy).Contents (Elt F)) : (⟨S4096, .f32⟩ : BufTy).Contents (Elt F) :=
  select (v18 x) (v16 x) (broadcastInDim S4096 ![] bcast_S_S4096 (id (constant S_ .f32 0x3F800000#32)))

/-- %20 = %5 / %19 -/
def v20 (x : (⟨S2048x4096, .f32⟩ : BufTy).Contents (Elt F)) : (⟨S4096, .f32⟩ : BufTy).Contents (Elt F) :=
  Host.divf (v5 x) (v19 x)

/-- %21 = where(%18, %20, 0.5) -/
def v21 (x : (⟨S2048x4096, .f32⟩ : BufTy).Contents (Elt F)) : (⟨S4096, .f32⟩ : BufTy).Contents (Elt F) :=
  select (v18 x) (v20 x) (broadcastInDim S4096 ![] bcast_S_S4096 (id (constant S_ .f32 0x3F000000#32)))

/-- %22 = %14 * %21 -/
def v22 (x : (⟨S2048x4096, .f32⟩ : BufTy).Contents (Elt F)) : (⟨S4096, .f32⟩ : BufTy).Contents (Elt F) :=
  mulf (v14 x) (v21 x)

/-- %23 = %15 + %22 -/
def v23 (x : (⟨S2048x4096, .f32⟩ : BufTy).Contents (Elt F)) : (⟨S4096, .f32⟩ : BufTy).Contents (Elt F) :=
  addf (v15 x) (v22 x)

/-- %24 = - %23 -/
def v24 (x : (⟨S2048x4096, .f32⟩ : BufTy).Contents (Elt F)) : (⟨S4096, .f32⟩ : BufTy).Contents (Elt F) :=
  Host.negf (v23 x)

/-- %25 = %24 * %8 -/
def v25 (x : (⟨S2048x4096, .f32⟩ : BufTy).Contents (Elt F)) : (⟨S4096, .f32⟩ : BufTy).Contents (Elt F) :=
  mulf (v24 x) (v8 x)

/-- %27 = 1.0 - %23 -/
def v27 (x : (⟨S2048x4096, .f32⟩ : BufTy).Contents (Elt F)) : (⟨S4096, .f32⟩ : BufTy).Contents (Elt F) :=
  subf (broadcastInDim S4096 ![] bcast_S_S4096 (constant S_ .f32 0x3F800000#32)) (v23 x)

/-- %28 = %27 * %5 -/
def v28 (x : (⟨S2048x4096, .f32⟩ : BufTy).Contents (Elt F)) : (⟨S4096, .f32⟩ : BufTy).Contents (Elt F) :=
  mulf (v27 x) (v5 x)

/-- %29 = maximum %25 %28 -/
def v29 (x : (⟨S2048x4096, .f32⟩ : BufTy).Contents (Elt F)) : (⟨S4096, .f32⟩ : BufTy).Contents (Elt F) :=
  maximumf (v25 x) (v28 x)

/-- %31 = %29 * 0.5 -/
def v31 (x : (⟨S2048x4096, .f32⟩ : BufTy).Contents (Elt F)) : (⟨S4096, .f32⟩ : BufTy).Contents (Elt F) :=
  mulf (v29 x) (broadcastInDim S4096 ![] bcast_S_S4096 (constant S_ .f32 0x3F000000#32))

/-- %32 = slice %arg0 [0:1, 0:4096] -/
def v32 (x : (⟨S2048x4096, .f32⟩ : BufTy).Contents (Elt F)) : (⟨S1x4096, .f32⟩ : BufTy).Contents (Elt F) :=
  extractStridedSlice S1x4096 ![0, 0] x slices_S2048x4096_S1x4096_0_0

/-- %33 = reshape %32 -/
def v33 (x : (⟨S2048x4096, .f32⟩ : BufTy).Contents (Elt F)) : (⟨S4096, .f32⟩ : BufTy).Contents (Elt F) :=
  shapeCast S4096 (v32 x) shapeCasts_S1x4096_S4096

/-- %34 = %23 * %33 -/
def v34 (x : (⟨S2048x4096, .f32⟩ : BufTy).Contents (Elt F)) : (⟨S4096, .f32⟩ : BufTy).Contents (Elt F) :=
  mulf (v23 x) (v33 x)

/-- %35 = %31 + %34 -/
def v35 (x : (⟨S2048x4096, .f32⟩ : BufTy).Contents (Elt F)) : (⟨S4096, .f32⟩ : BufTy).Contents (Elt F) :=
  addf (v31 x) (v34 x)

/-- %36 = %35 * %14 -/
def v36 (x : (⟨S2048x4096, .f32⟩ : BufTy).Contents (Elt F)) : (⟨S4096, .f32⟩ : BufTy).Contents (Elt F) :=
  mulf (v35 x) (v14 x)

/-- %37 = slice %arg0 [0:1, 0:4096] -/
def v37 (x : (⟨S2048x4096, .f32⟩ : BufTy).Contents (Elt F)) : (⟨S1x4096, .f32⟩ : BufTy).Contents (Elt F) :=
  extractStridedSlice S1x4096 ![0, 0] x slices_S2048x4096_S1x4096_0_0

/-- %38 = reshape %37 -/
def v38 (x : (⟨S2048x4096, .f32⟩ : BufTy).Contents (Elt F)) : (⟨S4096, .f32⟩ : BufTy).Contents (Elt F) :=
  shapeCast S4096 (v37 x) shapeCasts_S1x4096_S4096

/-- %39 = %38 * %15 -/
def v39 (x : (⟨S2048x4096, .f32⟩ : BufTy).Contents (Elt F)) : (⟨S4096, .f32⟩ : BufTy).Contents (Elt F) :=
  mulf (v38 x) (v15 x)

/-- %40 = %36 + %39 -/
def v40 (x : (⟨S2048x4096, .f32⟩ : BufTy).Contents (Elt F)) : (⟨S4096, .f32⟩ : BufTy).Contents (Elt F) :=
  addf (v36 x) (v39 x)

/-- %41 = slice %arg0 [1:2048, 0:4096] -/
def v41 (x : (⟨S2048x4096, .f32⟩ : BufTy).Contents (Elt F)) : (⟨S2047x4096, .f32⟩ : BufTy).Contents (Elt F) :=
  extractStridedSlice S2047x4096 ![1, 0] x slices_S2048x4096_S2047x4096_1_0

/-- %42 = %23 * %14 -/
def v42 (x : (⟨S2048x4096, .f32⟩ : BufTy).Contents (Elt F)) : (⟨S4096, .f32⟩ : BufTy).Contents (Elt F) :=
  mulf (v23 x) (v14 x)

/-- %43 = %42 + %15 -/
def v43 (x : (⟨S2048x4096, .f32⟩ : BufTy).Contents (Elt F)) : (⟨S4096, .f32⟩ : BufTy).Contents (Elt F) :=
  addf (v42 x) (v15 x)

/-- %44 = broadcast %43 along a new leading axis -/
def v44 (x : (⟨S2048x4096, .f32⟩ : BufTy).Contents (Elt F)) : (⟨S1x4096, .f32⟩ : BufTy).Contents (Elt F) :=
  broadcastInDim S1x4096 ![1] bcast_S4096_S1x4096_1 (v43 x)

/-- %45 = broadcast %44 to 2047 rows -/
def v45 (x : (⟨S2048x4096, .f32⟩ : BufTy).Contents (Elt F)) : (⟨S2047x4096, .f32⟩ : BufTy).Contents (Elt F) :=
  broadcastInDim S2047x4096 ![0, 1] bcast_S1x4096_S2047x4096_0_1 (v44 x)

/-- %46 = %41 * %45 -/
def v46 (x : (⟨S2048x4096, .f32⟩ : BufTy).Contents (Elt F)) : (⟨S2047x4096, .f32⟩ : BufTy).Contents (Elt F) :=
  mulf (v41 x) (v45 x)

/-- %47 = convert %11 to i32 -/
def v47 (x : (⟨S2048x4096, .f32⟩ : BufTy).Contents (Elt F)) : (⟨S4096, .i32⟩ : BufTy).Contents (Elt F) :=
  extui 32 (v11 x) natLt_1_32

/-- %48 = cumsum %47 (a window of 4096 with 4095 of low padding, summed from 0) -/
def v48 (x : (⟨S2048x4096, .f32⟩ : BufTy).Contents (Elt F)) : (⟨S4096, .i32⟩ : BufTy).Contents (Elt F) :=
  Host.reduceWindow IntOp.addi ![4096] ![1] ![4095] ![0] (v47 x) (broadcastInDim S_ ![] bcast_S_S_ (constantI S_ 32 0#32)) reduceWindows_S4096_S4096_w4096s1p4095_0 h_S_

/-- %50 = 2048 + %48 -/
def v50 (x : (⟨S2048x4096, .f32⟩ : BufTy).Contents (Elt F)) : (⟨S4096, .i32⟩ : BufTy).Contents (Elt F) :=
  addi (broadcastInDim S4096 ![] bcast_S_S4096 (constantI S_ 32 2048#32)) (v48 x)

/-- %51 = %50 - %47 -/
def v51 (x : (⟨S2048x4096, .f32⟩ : BufTy).Contents (Elt F)) : (⟨S4096, .i32⟩ : BufTy).Contents (Elt F) :=
  subi (v50 x) (v47 x)

/-- %52 = iota along dimension 0 -/
def v52 (x : (⟨S2048x4096, .f32⟩ : BufTy).Contents (Elt F)) : (⟨S4096, .i32⟩ : BufTy).Contents (Elt F) :=
  iotaInDim S4096 32 0

/-- %55 = zeros with row 0 set to %40 -/
def v55 (x : (⟨S2048x4096, .f32⟩ : BufTy).Contents (Elt F)) : (⟨S6144x4096, .f32⟩ : BufTy).Contents (Elt F) :=
  Host.scatter scatter_S6144x4096_S1_S4096_0_0_0_0 (fun _ b => b) (broadcastInDim S6144x4096 ![] bcast_S_S6144x4096 (constant S_ .f32 0x00000000#32)) (broadcastInDim S1 ![] bcast_S_S1 (constantI S_ 32 0#32)) (v40 x)

/-- %57 = %55 with rows 1 … 2047 set to %46 -/
def v57 (x : (⟨S2048x4096, .f32⟩ : BufTy).Contents (Elt F)) : (⟨S6144x4096, .f32⟩ : BufTy).Contents (Elt F) :=
  Host.scatter scatter_S6144x4096_S1_S2047x4096_01_n_0_0 (fun _ b => b) (v55 x) (broadcastInDim S1 ![] bcast_S_S1 (constantI S_ 32 1#32)) (v46 x)

/-- %59 = %29 * 0.5 -/
def v59 (x : (⟨S2048x4096, .f32⟩ : BufTy).Contents (Elt F)) : (⟨S4096, .f32⟩ : BufTy).Contents (Elt F) :=
  mulf (v29 x) (broadcastInDim S4096 ![] bcast_S_S4096 (constant S_ .f32 0x3F000000#32))

/-- %60 = %59 * %14 -/
def v60 (x : (⟨S2048x4096, .f32⟩ : BufTy).Contents (Elt F)) : (⟨S4096, .f32⟩ : BufTy).Contents (Elt F) :=
  mulf (v59 x) (v14 x)

/-- %62 = %51 < 0 (signed) -/
def v62 (x : (⟨S2048x4096, .f32⟩ : BufTy).Contents (Elt F)) : (⟨S4096, .i1⟩ : BufTy).Contents (Elt F) :=
  cmpi .slt (v51 x) (broadcastInDim S4096 ![] bcast_S_S4096 (constantI S_ 32 0#32))

/-- %64 = %51 + 6144 -/
def v64 (x : (⟨S2048x4096, .f32⟩ : BufTy).Contents (Elt F)) : (⟨S4096, .i32⟩ : BufTy).Contents (Elt F) :=
  addi (v51 x) (broadcastInDim S4096 ![] bcast_S_S4096 (constantI S_ 32 6144#32))

/-- %65 = select %62 %64 %51 -/
def v65 (x : (⟨S2048x4096, .f32⟩ : BufTy).Contents (Elt F)) : (⟨S4096, .i32⟩ : BufTy).Contents (Elt F) :=
  select (v62 x) (v64 x) (v51 x)

/-- %67 = %52 < 0 (signed) -/
def v67 (x : (⟨S2048x4096, .f32⟩ : BufTy).Contents (Elt F)) : (⟨S4096, .i1⟩ : BufTy).Contents (Elt F) :=
  cmpi .slt (v52 x) (broadcastInDim S4096 ![] bcast_S_S4096 (constantI S_ 32 0#32))

/-- %69 = %52 + 4096 -/
def v69 (x : (⟨S2048x4096, .f32⟩ : BufTy).Contents (Elt F)) : (⟨S4096, .i32⟩ : BufTy).Contents (Elt F) :=
  addi (v52 x) (broadcastInDim S4096 ![] bcast_S_S4096 (constantI S_ 32 4096#32))

/-- %70 = select %67 %69 %52 -/
def v70 (x : (⟨S2048x4096, .f32⟩ : BufTy).Contents (Elt F)) : (⟨S4096, .i32⟩ : BufTy).Contents (Elt F) :=
  select (v67 x) (v69 x) (v52 x)

/-- %71 = %65 as a column -/
def v71 (x : (⟨S2048x4096, .f32⟩ : BufTy).Contents (Elt F)) : (⟨S4096x1, .i32⟩ : BufTy).Contents (Elt F) :=
  broadcastInDim S4096x1 ![0] bcast_S4096_S4096x1_0 (v65 x)

/-- %72 = %70 as a column -/
def v72 (x : (⟨S2048x4096, .f32⟩ : BufTy).Contents (Elt F)) : (⟨S4096x1, .i32⟩ : BufTy).Contents (Elt F) :=
  broadcastInDim S4096x1 ![0] bcast_S4096_S4096x1_0 (v70 x)

/-- %73 = the two columns side by side: row i is the index pair (%65[i], %70[i]) -/
def v73 (x : (⟨S2048x4096, .f32⟩ : BufTy).Contents (Elt F)) : (⟨S4096x2, .i32⟩ : BufTy).Contents (Elt F) :=
  concatenate S4096x2 1 [⟨S4096x1, v71 x⟩, ⟨S4096x1, v72 x⟩] concatenates_S4096x1_S4096x1_S4096x2_d1

/-- %74 = %57 with %60[i] added at position %73[i], for every i -/
def v74 (x : (⟨S2048x4096, .f32⟩ : BufTy).Contents (Elt F)) : (⟨S6144x4096, .f32⟩ : BufTy).Contents (Elt F) :=
  Host.scatterAdd scatter_S6144x4096_S4096x2_S4096_n_01_01_1 (v57 x) (v73 x) (v60 x)

/-- @main's result as a function of its argument. -/
def out (x : (⟨S2048x4096, .f32⟩ : BufTy).Contents (Elt F)) : (⟨S6144x4096, .f32⟩ : BufTy).Contents (Elt F) :=
  v74 x

end Cert.ReferenceIdeal.RefTerm

end
-- ==== Proof.RefRun.lean ====
/- The reference function's run. @main of the reference is a straight line of 98 StableHLO operations once
   its three calls are replaced by the operations of the called bodies (`where` twice: the scalar's
   conversion, its broadcast, the select; `cumsum` once: the zero, its broadcast, the window sum), each
   over the buffers the call names. Such a line runs to its end from any memory with zero counters, and
   every buffer then holds the fold of the operations' results over the launch contents. Read at the
   result buffer that fold is `RefTerm.out` of the argument's contents, and at the argument buffer it
   is the argument's contents: no operation writes it.

   The fold is read back in two steps. One rewriting pass replaces each operation's result at its own
   buffer by its function of the operands' contents and at any other buffer by what was there; this
   yields the composed term of the argument. Then each named value of `RefTerm` is folded back, in
   program order, from its function applied to already folded operands, so no comparison ever looks
   further than one operation deep. -/
import proofs.«135706_j46454366273944_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two index columns side by side: `concatenate` along axis 1, as a function of the two columns. -/
def catCols (a b : (⟨S4096x1, .i32⟩ : BufTy).Contents (Elt F)) : (⟨S4096x2, .i32⟩ : BufTy).Contents (Elt F) :=
  concatenate S4096x2 1 [⟨S4096x1, a⟩, ⟨S4096x1, b⟩] concatenates_S4096x1_S4096x1_S4096x2_d1

/-- @main's 98 operations in order, the calls replaced by their bodies' operations over the calls' buffers. -/
abbrev ops : List (HloOp τ sig (Elt F)) :=
  [
    unary main_arg0 main_v0 ((extractStridedSlice S2047x4096 ![1, 0] · slices_S2048x4096_S2047x4096_1_0) : (⟨S2048x4096, .f32⟩ : BufTy).Contents (Elt F) → (⟨S2047x4096, .f32⟩ : BufTy).Contents (Elt F)),
    unary main_v0 main_v1 (Host.absf : (⟨S2047x4096, .f32⟩ : BufTy).Contents (Elt F) → (⟨S2047x4096, .f32⟩ : BufTy).Contents (Elt F)),
    nullary main_cst (constant S_ .f32 0x00000000#32),
    binary main_v1 main_cst main_v2 ((fun x v => Host.reduceAdd x v reducesTo_S2047x4096_S4096_d0 h_S_) : (⟨S2047x4096, .f32⟩ : BufTy).Contents (Elt F) → (⟨S_, .f32⟩ : BufTy).Contents (Elt F) → (⟨S4096, .f32⟩ : BufTy).Contents (Elt F)),
    unary main_arg0 main_v3 ((extractStridedSlice S1x4096 ![0, 0] · slices_S2048x4096_S1x4096_0_0) : (⟨S2048x4096, .f32⟩ : BufTy).Contents (Elt F) → (⟨S1x4096, .f32⟩ : BufTy).Contents (Elt F)),
    reshape main_v3 main_v4 rfl shapeCasts_S1x4096_S4096,
    binary main_v4 main_v2 main_v5 (addf : (⟨S4096, .f32⟩ : BufTy).Contents (Elt F) → (⟨S4096, .f32⟩ : BufTy).Contents (Elt F) → (⟨S4096, .f32⟩ : BufTy).Contents (Elt F)),
    unary main_arg0 main_v6 ((extractStridedSlice S1x4096 ![0, 0] · slices_S2048x4096_S1x4096_0_0) : (⟨S2048x4096, .f32⟩ : BufTy).Contents (Elt F) → (⟨S1x4096, .f32⟩ : BufTy).Contents (Elt F)),
    reshape main_v6 main_v7 rfl shapeCasts_S1x4096_S4096,
    binary main_v7 main_v2 main_v8 (subf : (⟨S4096, .f32⟩ : BufTy).Contents (Elt F) → (⟨S4096, .f32⟩ : BufTy).Contents (Elt F) → (⟨S4096, .f32⟩ : BufTy).Contents (Elt F)),
    binary main_v8 main_v5 main_v9 (mulf : (⟨S4096, .f32⟩ : BufTy).Contents (Elt F) → (⟨S4096, .f32⟩ : BufTy).Contents (Elt F) → (⟨S4096, .f32⟩ : BufTy).Contents (Elt F)),
    nullary main_cst_0 (constant S_ .f32 0x00000000#32),
    unary main_cst_0 main_v10 (broadcastInDim S4096 ![] bcast_S_S4096 : (⟨S_, .f32⟩ : BufTy).Contents (Elt F) → (⟨S4096, .f32⟩ : BufTy).Contents (Elt F)),
    binary main_v9 main_v10 main_v11 (cmpf .olt : (⟨S4096, .f32⟩ : BufTy).Contents (Elt F) → (⟨S4096, .f32⟩ : BufTy).Contents (Elt F) → (⟨S4096, .i1⟩ : BufTy).Contents (Elt F)),
    nullary main_cst_1 (constant S_ .f32 0x00000000#32),
    unary main_cst_1 main_v12 (broadcastInDim S4096 ![] bcast_S_S4096 : (⟨S_, .f32⟩ : BufTy).Contents (Elt F) → (⟨S4096, .f32⟩ : BufTy).Contents (Elt F)),
    binary main_v8 main_v12 main_v13 (cmpf .oge : (⟨S4096, .f32⟩ : BufTy).Contents (Elt F) → (⟨S4096, .f32⟩ : BufTy).Contents (Elt F) → (⟨S4096, .i1⟩ : BufTy).Contents (Elt F)),
    unary main_v11 main_v14 (uitofp .f32 : (⟨S4096, .i1⟩ : BufTy).Contents (Elt F) → (⟨S4096, .f32⟩ : BufTy).Contents (Elt F)),
    unary main_v13 main_v15 (uitofp .f32 : (⟨S4096, .i1⟩ : BufTy).Contents (Elt F) → (⟨S4096, .f32⟩ : BufTy).Contents (Elt F)),
    binary main_v5 main_v8 main_v16 (subf : (⟨S4096, .f32⟩ : BufTy).Contents (Elt F) → (⟨S4096, .f32⟩ : BufTy).Contents (Elt F) → (⟨S4096, .f32⟩ : BufTy).Contents (Elt F)),
    nullary main_cst_2 (constant S_ .f32 0x00000000#32),
    unary main_cst_2 main_v17 (broadcastInDim S4096 ![] bcast_S_S4096 : (⟨S_, .f32⟩ : BufTy).Contents (Elt F) → (⟨S4096, .f32⟩ : BufTy).Contents (Elt F)),
    binary main_v16 main_v17 main_v18 (cmpf .une : (⟨S4096, .f32⟩ : BufTy).Contents (Elt F) → (⟨S4096, .f32⟩ : BufTy).Contents (Elt F) → (⟨S4096, .i1⟩ : BufTy).Contents (Elt F)),
    nullary main_cst_3 (constant S_ .f32 0x3F800000#32),
    unary main_cst_3 main_call0_v0 (id : (⟨S_, .f32⟩ : BufTy).Contents (Elt F) → (⟨S_, .f32⟩ : BufTy).Contents (Elt F)),
    unary main_call0_v0 main_call0_v1 (broadcastInDim S4096 ![] bcast_S_S4096 : (⟨S_, .f32⟩ : BufTy).Contents (Elt F) → (⟨S4096, .f32⟩ : BufTy).Contents (Elt F)),
    ternary main_v18 main_v16 main_call0_v1 main_v19 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    binary main_v5 main_v19 main_v20 (Host.divf : (⟨S4096, .f32⟩ : BufTy).Contents (Elt F) → (⟨S4096, .f32⟩ : BufTy).Contents (Elt F) → (⟨S4096, .f32⟩ : BufTy).Contents (Elt F)),
    nullary main_cst_4 (constant S_ .f32 0x3F000000#32),
    unary main_cst_4 main_call1_v0 (id : (⟨S_, .f32⟩ : BufTy).Contents (Elt F) → (⟨S_, .f32⟩ : BufTy).Contents (Elt F)),
    unary main_call1_v0 main_call1_v1 (broadcastInDim S4096 ![] bcast_S_S4096 : (⟨S_, .f32⟩ : BufTy).Contents (Elt F) → (⟨S4096, .f32⟩ : BufTy).Contents (Elt F)),
    ternary main_v18 main_v20 main_call1_v1 main_v21 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    binary main_v14 main_v21 main_v22 (mulf : (⟨S4096, .f32⟩ : BufTy).Contents (Elt F) → (⟨S4096, .f32⟩ : BufTy).Contents (Elt F) → (⟨S4096, .f32⟩ : BufTy).Contents (Elt F)),
    binary main_v15 main_v22 main_v23 (addf : (⟨S4096, .f32⟩ : BufTy).Contents (Elt F) → (⟨S4096, .f32⟩ : BufTy).Contents (Elt F) → (⟨S4096, .f32⟩ : BufTy).Contents (Elt F)),
    unary main_v23 main_v24 (Host.negf : (⟨S4096, .f32⟩ : BufTy).Contents (Elt F) → (⟨S4096, .f32⟩ : BufTy).Contents (Elt F)),
    binary main_v24 main_v8 main_v25 (mulf : (⟨S4096, .f32⟩ : BufTy).Contents (Elt F) → (⟨S4096, .f32⟩ : BufTy).Contents (Elt F) → (⟨S4096, .f32⟩ : BufTy).Contents (Elt F)),
    nullary main_cst_5 (constant S_ .f32 0x3F800000#32),
    unary main_cst_5 main_v26 (broadcastInDim S4096 ![] bcast_S_S4096 : (⟨S_, .f32⟩ : BufTy).Contents (Elt F) → (⟨S4096, .f32⟩ : BufTy).Contents (Elt F)),
    binary main_v26 main_v23 main_v27 (subf : (⟨S4096, .f32⟩ : BufTy).Contents (Elt F) → (⟨S4096, .f32⟩ : BufTy).Contents (Elt F) → (⟨S4096, .f32⟩ : BufTy).Contents (Elt F)),
    binary main_v27 main_v5 main_v28 (mulf : (⟨S4096, .f32⟩ : BufTy).Contents (Elt F) → (⟨S4096, .f32⟩ : BufTy).Contents (Elt F) → (⟨S4096, .f32⟩ : BufTy).Contents (Elt F)),
    binary main_v25 main_v28 main_v29 (maximumf : (⟨S4096, .f32⟩ : BufTy).Contents (Elt F) → (⟨S4096, .f32⟩ : BufTy).Contents (Elt F) → (⟨S4096, .f32⟩ : BufTy).Contents (Elt F)),
    nullary main_cst_6 (constant S_ .f32 0x3F000000#32),
    unary main_cst_6 main_v30 (broadcastInDim S4096 ![] bcast_S_S4096 : (⟨S_, .f32⟩ : BufTy).Contents (Elt F) → (⟨S4096, .f32⟩ : BufTy).Contents (Elt F)),
    binary main_v29 main_v30 main_v31 (mulf : (⟨S4096, .f32⟩ : BufTy).Contents (Elt F) → (⟨S4096, .f32⟩ : BufTy).Contents (Elt F) → (⟨S4096, .f32⟩ : BufTy).Contents (Elt F)),
    unary main_arg0 main_v32 ((extractStridedSlice S1x4096 ![0, 0] · slices_S2048x4096_S1x4096_0_0) : (⟨S2048x4096, .f32⟩ : BufTy).Contents (Elt F) → (⟨S1x4096, .f32⟩ : BufTy).Contents (Elt F)),
    reshape main_v32 main_v33 rfl shapeCasts_S1x4096_S4096,
    binary main_v23 main_v33 main_v34 (mulf : (⟨S4096, .f32⟩ : BufTy).Contents (Elt F) → (⟨S4096, .f32⟩ : BufTy).Contents (Elt F) → (⟨S4096, .f32⟩ : BufTy).Contents (Elt F)),
    binary main_v31 main_v34 main_v35 (addf : (⟨S4096, .f32⟩ : BufTy).Contents (Elt F) → (⟨S4096, .f32⟩ : BufTy).Contents (Elt F) → (⟨S4096, .f32⟩ : BufTy).Contents (Elt F)),
    binary main_v35 main_v14 main_v36 (mulf : (⟨S4096, .f32⟩ : BufTy).Contents (Elt F) → (⟨S4096, .f32⟩ : BufTy).Contents (Elt F) → (⟨S4096, .f32⟩ : BufTy).Contents (Elt F)),
    unary main_arg0 main_v37 ((extractStridedSlice S1x4096 ![0, 0] · slices_S2048x4096_S1x4096_0_0) : (⟨S2048x4096, .f32⟩ : BufTy).Contents (Elt F) → (⟨S1x4096, .f32⟩ : BufTy).Contents (Elt F)),
    reshape main_v37 main_v38 rfl shapeCasts_S1x4096_S4096,
    binary main_v38 main_v15 main_v39 (mulf : (⟨S4096, .f32⟩ : BufTy).Contents (Elt F) → (⟨S4096, .f32⟩ : BufTy).Contents (Elt F) → (⟨S4096, .f32⟩ : BufTy).Contents (Elt F)),
    binary main_v36 main_v39 main_v40 (addf : (⟨S4096, .f32⟩ : BufTy).Contents (Elt F) → (⟨S4096, .f32⟩ : BufTy).Contents (Elt F) → (⟨S4096, .f32⟩ : BufTy).Contents (Elt F)),
    unary main_arg0 main_v41 ((extractStridedSlice S2047x4096 ![1, 0] · slices_S2048x4096_S2047x4096_1_0) : (⟨S2048x4096, .f32⟩ : BufTy).Contents (Elt F) → (⟨S2047x4096, .f32⟩ : BufTy).Contents (Elt F)),
    binary main_v23 main_v14 main_v42 (mulf : (⟨S4096, .f32⟩ : BufTy).Contents (Elt F) → (⟨S4096, .f32⟩ : BufTy).Contents (Elt F) → (⟨S4096, .f32⟩ : BufTy).Contents (Elt F)),
    binary main_v42 main_v15 main_v43 (addf : (⟨S4096, .f32⟩ : BufTy).Contents (Elt F) → (⟨S4096, .f32⟩ : BufTy).Contents (Elt F) → (⟨S4096, .f32⟩ : BufTy).Contents (Elt F)),
    unary main_v43 main_v44 (broadcastInDim S1x4096 ![1] bcast_S4096_S1x4096_1 : (⟨S4096, .f32⟩ : BufTy).Contents (Elt F) → (⟨S1x4096, .f32⟩ : BufTy).Contents (Elt F)),
    unary main_v44 main_v45 (broadcastInDim S2047x4096 ![0, 1] bcast_S1x4096_S2047x4096_0_1 : (⟨S1x4096, .f32⟩ : BufTy).Contents (Elt F) → (⟨S2047x4096, .f32⟩ : BufTy).Contents (Elt F)),
    binary main_v41 main_v45 main_v46 (mulf : (⟨S2047x4096, .f32⟩ : BufTy).Contents (Elt F) → (⟨S2047x4096, .f32⟩ : BufTy).Contents (Elt F) → (⟨S2047x4096, .f32⟩ : BufTy).Contents (Elt F)),
    unary main_v11 main_v47 ((extui 32 · natLt_1_32) : (⟨S4096, .i1⟩ : BufTy).Contents (Elt F) → (⟨S4096, .i32⟩ : BufTy).Contents (Elt F)),
    nullary main_call2_call0_c (constantI S_ 32 0#32),
    unary main_call2_call0_c main_call2_call0_v0 (broadcastInDim S_ ![] bcast_S_S_ : (⟨S_, .i32⟩ : BufTy).Contents (Elt F) → (⟨S_, .i32⟩ : BufTy).Contents (Elt F)),
    binary main_v47 main_call2_call0_v0 main_v48 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F)),
    nullary main_c (constantI S_ 32 2048#32),
    unary main_c main_v49 (broadcastInDim S4096 ![] bcast_S_S4096 : (⟨S_, .i32⟩ : BufTy).Contents (Elt F) → (⟨S4096, .i32⟩ : BufTy).Contents (Elt F)),
    binary main_v49 main_v48 main_v50 (addi : (⟨S4096, .i32⟩ : BufTy).Contents (Elt F) → (⟨S4096, .i32⟩ : BufTy).Contents (Elt F) → (⟨S4096, .i32⟩ : BufTy).Contents (Elt F)),
    binary main_v50 main_v47 main_v51 (subi : (⟨S4096, .i32⟩ : BufTy).Contents (Elt F) → (⟨S4096, .i32⟩ : BufTy).Contents (Elt F) → (⟨S4096, .i32⟩ : BufTy).Contents (Elt F)),
    nullary main_v52 (iotaInDim S4096 32 0),
    nullary main_cst_7 (constant S_ .f32 0x00000000#32),
    unary main_cst_7 main_v53 (broadcastInDim S6144x4096 ![] bcast_S_S6144x4096 : (⟨S_, .f32⟩ : BufTy).Contents (Elt F) → (⟨S6144x4096, .f32⟩ : BufTy).Contents (Elt F)),
    nullary main_c_8 (constantI S_ 32 0#32),
    unary main_c_8 main_v54 (broadcastInDim S1 ![] bcast_S_S1 : (⟨S_, .i32⟩ : BufTy).Contents (Elt F) → (⟨S1, .i32⟩ : BufTy).Contents (Elt F)),
    ternary main_v53 main_v54 main_v40 main_v55 ((fun x i u => Host.scatter scatter_S6144x4096_S1_S4096_0_0_0_0 (fun _ b => b) x i u) : (⟨S6144x4096, .f32⟩ : BufTy).Contents (Elt F) → (⟨S1, .i32⟩ : BufTy).Contents (Elt F) → (⟨S4096, .f32⟩ : BufTy).Contents (Elt F) → (⟨S6144x4096, .f32⟩ : BufTy).Contents (Elt F)),
    nullary main_c_9 (constantI S_ 32 1#32),
    unary main_c_9 main_v56 (broadcastInDim S1 ![] bcast_S_S1 : (⟨S_, .i32⟩ : BufTy).Contents (Elt F) → (⟨S1, .i32⟩ : BufTy).Contents (Elt F)),
    ternary main_v55 main_v56 main_v46 main_v57 ((fun x i u => Host.scatter scatter_S6144x4096_S1_S2047x4096_01_n_0_0 (fun _ b => b) x i u) : (⟨S6144x4096, .f32⟩ : BufTy).Contents (Elt F) → (⟨S1, .i32⟩ : BufTy).Contents (Elt F) → (⟨S2047x4096, .f32⟩ : BufTy).Contents (Elt F) → (⟨S6144x4096, .f32⟩ : BufTy).Contents (Elt F)),
    nullary main_cst_10 (constant S_ .f32 0x3F000000#32),
    unary main_cst_10 main_v58 (broadcastInDim S4096 ![] bcast_S_S4096 : (⟨S_, .f32⟩ : BufTy).Contents (Elt F) → (⟨S4096, .f32⟩ : BufTy).Contents (Elt F)),
    binary main_v29 main_v58 main_v59 (mulf : (⟨S4096, .f32⟩ : BufTy).Contents (Elt F) → (⟨S4096, .f32⟩ : BufTy).Contents (Elt F) → (⟨S4096, .f32⟩ : BufTy).Contents (Elt F)),
    binary main_v59 main_v14 main_v60 (mulf : (⟨S4096, .f32⟩ : BufTy).Contents (Elt F) → (⟨S4096, .f32⟩ : BufTy).Contents (Elt F) → (⟨S4096, .f32⟩ : BufTy).Contents (Elt F)),
    nullary main_c_11 (constantI S_ 32 0#32),
    unary main_c_11 main_v61 (broadcastInDim S4096 ![] bcast_S_S4096 : (⟨S_, .i32⟩ : BufTy).Contents (Elt F) → (⟨S4096, .i32⟩ : BufTy).Contents (Elt F)),
    binary main_v51 main_v61 main_v62 (cmpi .slt : (⟨S4096, .i32⟩ : BufTy).Contents (Elt F) → (⟨S4096, .i32⟩ : BufTy).Contents (Elt F) → (⟨S4096, .i1⟩ : BufTy).Contents (Elt F)),
    nullary main_c_12 (constantI S_ 32 6144#32),
    unary main_c_12 main_v63 (broadcastInDim S4096 ![] bcast_S_S4096 : (⟨S_, .i32⟩ : BufTy).Contents (Elt F) → (⟨S4096, .i32⟩ : BufTy).Contents (Elt F)),
    binary main_v51 main_v63 main_v64 (addi : (⟨S4096, .i32⟩ : BufTy).Contents (Elt F) → (⟨S4096, .i32⟩ : BufTy).Contents (Elt F) → (⟨S4096, .i32⟩ : BufTy).Contents (Elt F)),
    ternary main_v62 main_v64 main_v51 main_v65 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_13 (constantI S_ 32 0#32),
    unary main_c_13 main_v66 (broadcastInDim S4096 ![] bcast_S_S4096 : (⟨S_, .i32⟩ : BufTy).Contents (Elt F) → (⟨S4096, .i32⟩ : BufTy).Contents (Elt F)),
    binary main_v52 main_v66 main_v67 (cmpi .slt : (⟨S4096, .i32⟩ : BufTy).Contents (Elt F) → (⟨S4096, .i32⟩ : BufTy).Contents (Elt F) → (⟨S4096, .i1⟩ : BufTy).Contents (Elt F)),
    nullary main_c_14 (constantI S_ 32 4096#32),
    unary main_c_14 main_v68 (broadcastInDim S4096 ![] bcast_S_S4096 : (⟨S_, .i32⟩ : BufTy).Contents (Elt F) → (⟨S4096, .i32⟩ : BufTy).Contents (Elt F)),
    binary main_v52 main_v68 main_v69 (addi : (⟨S4096, .i32⟩ : BufTy).Contents (Elt F) → (⟨S4096, .i32⟩ : BufTy).Contents (Elt F) → (⟨S4096, .i32⟩ : BufTy).Contents (Elt F)),
    ternary main_v67 main_v69 main_v52 main_v70 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v65 main_v71 (broadcastInDim S4096x1 ![0] bcast_S4096_S4096x1_0 : (⟨S4096, .i32⟩ : BufTy).Contents (Elt F) → (⟨S4096x1, .i32⟩ : BufTy).Contents (Elt F)),
    unary main_v70 main_v72 (broadcastInDim S4096x1 ![0] bcast_S4096_S4096x1_0 : (⟨S4096, .i32⟩ : BufTy).Contents (Elt F) → (⟨S4096x1, .i32⟩ : BufTy).Contents (Elt F)),
    binary main_v71 main_v72 main_v73 (catCols : (⟨S4096x1, .i32⟩ : BufTy).Contents (Elt F) → (⟨S4096x1, .i32⟩ : BufTy).Contents (Elt F) → (⟨S4096x2, .i32⟩ : BufTy).Contents (Elt F)),
    ternary main_v57 main_v73 main_v60 main_v74 ((fun x i u => Host.scatterAdd scatter_S6144x4096_S4096x2_S4096_n_01_01_1 x i u) : (⟨S6144x4096, .f32⟩ : BufTy).Contents (Elt F) → (⟨S4096x2, .i32⟩ : BufTy).Contents (Elt F) → (⟨S4096, .f32⟩ : BufTy).Contents (Elt F) → (⟨S6144x4096, .f32⟩ : BufTy).Contents (Elt F)) ]

attribute [local irreducible] Host.reduceWindow Host.reduceAdd Host.scatter Host.scatterAdd concatenate in
set_option maxRecDepth 16384 in
set_option maxHeartbeats 1000000 in
/-- @main is that straight line: with the called functions' definitions unfolded at their calls and sequencing
    reassociated, both sides are one chain of the same steps. At a call's buffers the typed references'
    transports are the identity, which is a computation on the buffers' types alone; the window sum, the
    reduction, the scatters and the concatenation are kept folded meanwhile, since the comparison never needs
    to look inside them. -/
theorem main_eq (c : Dev nD) : main (F := F) c = seq ops := by
  simp only [main, main_part0, main_part1, fn_where.body, fn_cumsum.body, fn_cumsum_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    unary_bufs_sub .., unary_bufs_sub .., nullary_bufs_sub .., binary_bufs_sub .., unary_bufs_sub .., reshape_bufs_sub ..,
    binary_bufs_sub .., unary_bufs_sub .., reshape_bufs_sub .., binary_bufs_sub .., binary_bufs_sub .., nullary_bufs_sub ..,
    unary_bufs_sub .., binary_bufs_sub .., nullary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., unary_bufs_sub .., ternary_bufs_sub .., binary_bufs_sub .., nullary_bufs_sub .., unary_bufs_sub ..,
    unary_bufs_sub .., ternary_bufs_sub .., binary_bufs_sub .., binary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., reshape_bufs_sub .., binary_bufs_sub .., binary_bufs_sub ..,
    binary_bufs_sub .., unary_bufs_sub .., reshape_bufs_sub .., binary_bufs_sub .., binary_bufs_sub .., unary_bufs_sub ..,
    binary_bufs_sub .., binary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., nullary_bufs_sub .., nullary_bufs_sub .., unary_bufs_sub .., nullary_bufs_sub .., unary_bufs_sub ..,
    ternary_bufs_sub .., nullary_bufs_sub .., unary_bufs_sub .., ternary_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub ..⟩

set_option maxRecDepth 16384 in
/-- No operation writes the argument buffer. -/
theorem arg0_eq (V : Valuation τ sig (Elt F)) :
    after ops V (main_arg0 : DevRef τ sig) = V (main_arg0 : DevRef τ sig) := by
  after_results_simp

/-! ## The reshapes' results

A reshape of a 1×4096 row to 4096 elements leaves `shapeCast` of the operand, stated at the literal shape. -/

theorem rs_v4 (hx hy) (W : Valuation τ sig (Elt F)) :
    (reshape (τ := τ) (Val := Elt F) main_v3 main_v4 rfl shapeCasts_S1x4096_S4096 hx hy).result W (no_index (Proc.devRef .tc main_v4))
      = (shapeCast S4096 (W (Proc.devRef .tc main_v3)) shapeCasts_S1x4096_S4096 : (⟨S4096, .f32⟩ : BufTy).Contents (Elt F)) :=
  (reshape_result main_v3 main_v4 rfl shapeCasts_S1x4096_S4096 hx hy W).trans rfl
theorem rs_v7 (hx hy) (W : Valuation τ sig (Elt F)) :
    (reshape (τ := τ) (Val := Elt F) main_v6 main_v7 rfl shapeCasts_S1x4096_S4096 hx hy).result W (no_index (Proc.devRef .tc main_v7))
      = (shapeCast S4096 (W (Proc.devRef .tc main_v6)) shapeCasts_S1x4096_S4096 : (⟨S4096, .f32⟩ : BufTy).Contents (Elt F)) :=
  (reshape_result main_v6 main_v7 rfl shapeCasts_S1x4096_S4096 hx hy W).trans rfl
theorem rs_v33 (hx hy) (W : Valuation τ sig (Elt F)) :
    (reshape (τ := τ) (Val := Elt F) main_v32 main_v33 rfl shapeCasts_S1x4096_S4096 hx hy).result W (no_index (Proc.devRef .tc main_v33))
      = (shapeCast S4096 (W (Proc.devRef .tc main_v32)) shapeCasts_S1x4096_S4096 : (⟨S4096, .f32⟩ : BufTy).Contents (Elt F)) :=
  (reshape_result main_v32 main_v33 rfl shapeCasts_S1x4096_S4096 hx hy W).trans rfl
theorem rs_v38 (hx hy) (W : Valuation τ sig (Elt F)) :
    (reshape (τ := τ) (Val := Elt F) main_v37 main_v38 rfl shapeCasts_S1x4096_S4096 hx hy).result W (no_index (Proc.devRef .tc main_v38))
      = (shapeCast S4096 (W (Proc.devRef .tc main_v37)) shapeCasts_S1x4096_S4096 : (⟨S4096, .f32⟩ : BufTy).Contents (Elt F)) :=
  (reshape_result main_v37 main_v38 rfl shapeCasts_S1x4096_S4096 hx hy W).trans rfl

/-! ## Each named value from its operands

One equation per value of `RefTerm`: the operation's function at the (already named) operands is the
value. Values the program computes twice (the row slice, its reshape, the tail slice, the half maximum)
are named once, by their first definition. -/

theorem fold_v0 (x : (⟨S2048x4096, .f32⟩ : BufTy).Contents (Elt F)) :
    (extractStridedSlice S2047x4096 ![1, 0] x slices_S2048x4096_S2047x4096_1_0 : (⟨S2047x4096, .f32⟩ : BufTy).Contents (Elt F)) = RefTerm.v0 x := rfl
theorem fold_v1 (x : (⟨S2048x4096, .f32⟩ : BufTy).Contents (Elt F)) :
    (Host.absf (RefTerm.v0 x) : (⟨S2047x4096, .f32⟩ : BufTy).Contents (Elt F)) = RefTerm.v1 x := rfl
theorem fold_v2 (x : (⟨S2048x4096, .f32⟩ : BufTy).Contents (Elt F)) :
    (Host.reduceAdd (RefTerm.v1 x) (constant S_ .f32 0x00000000#32) reducesTo_S2047x4096_S4096_d0 h_S_ : (⟨S4096, .f32⟩ : BufTy).Contents (Elt F)) = RefTerm.v2 x := rfl
theorem fold_v3 (x : (⟨S2048x4096, .f32⟩ : BufTy).Contents (Elt F)) :
    (extractStridedSlice S1x4096 ![0, 0] x slices_S2048x4096_S1x4096_0_0 : (⟨S1x4096, .f32⟩ : BufTy).Contents (Elt F)) = RefTerm.v3 x := rfl
theorem fold_v4 (x : (⟨S2048x4096, .f32⟩ : BufTy).Contents (Elt F)) :
    (shapeCast S4096 (RefTerm.v3 x) shapeCasts_S1x4096_S4096 : (⟨S4096, .f32⟩ : BufTy).Contents (Elt F)) = RefTerm.v4 x := rfl
theorem fold_v5 (x : (⟨S2048x4096, .f32⟩ : BufTy).Contents (Elt F)) :
    (addf (RefTerm.v4 x) (RefTerm.v2 x) : (⟨S4096, .f32⟩ : BufTy).Contents (Elt F)) = RefTerm.v5 x := rfl
theorem fold_v8 (x : (⟨S2048x4096, .f32⟩ : BufTy).Contents (Elt F)) :
    (subf (RefTerm.v4 x) (RefTerm.v2 x) : (⟨S4096, .f32⟩ : BufTy).Contents (Elt F)) = RefTerm.v8 x := rfl
theorem fold_v9 (x : (⟨S2048x4096, .f32⟩ : BufTy).Contents (Elt F)) :
    (mulf (RefTerm.v8 x) (RefTerm.v5 x) : (⟨S4096, .f32⟩ : BufTy).Contents (Elt F)) = RefTerm.v9 x := rfl
theorem fold_v11 (x : (⟨S2048x4096, .f32⟩ : BufTy).Contents (Elt F)) :
    (cmpf .olt (RefTerm.v9 x) (broadcastInDim S4096 ![] bcast_S_S4096 (constant S_ .f32 0x00000000#32)) : (⟨S4096, .i1⟩ : BufTy).Contents (Elt F)) = RefTerm.v11 x := rfl
theorem fold_v13 (x : (⟨S2048x4096, .f32⟩ : BufTy).Contents (Elt F)) :
    (cmpf .oge (RefTerm.v8 x) (broadcastInDim S4096 ![] bcast_S_S4096 (constant S_ .f32 0x00000000#32)) : (⟨S4096, .i1⟩ : BufTy).Contents (Elt F)) = RefTerm.v13 x := rfl
theorem fold_v14 (x : (⟨S2048x4096, .f32⟩ : BufTy).Contents (Elt F)) :
    (uitofp .f32 (RefTerm.v11 x) : (⟨S4096, .f32⟩ : BufTy).Contents (Elt F)) = RefTerm.v14 x := rfl
theorem fold_v15 (x : (⟨S2048x4096, .f32⟩ : BufTy).Contents (Elt F)) :
    (uitofp .f32 (RefTerm.v13 x) : (⟨S4096, .f32⟩ : BufTy).Contents (Elt F)) = RefTerm.v15 x := rfl
theorem fold_v16 (x : (⟨S2048x4096, .f32⟩ : BufTy).Contents (Elt F)) :
    (subf (RefTerm.v5 x) (RefTerm.v8 x) : (⟨S4096, .f32⟩ : BufTy).Contents (Elt F)) = RefTerm.v16 x := rfl
theorem fold_v18 (x : (⟨S2048x4096, .f32⟩ : BufTy).Contents (Elt F)) :
    (cmpf .une (RefTerm.v16 x) (broadcastInDim S4096 ![] bcast_S_S4096 (constant S_ .f32 0x00000000#32)) : (⟨S4096, .i1⟩ : BufTy).Contents (Elt F)) = RefTerm.v18 x := rfl
theorem fold_v19 (x : (⟨S2048x4096, .f32⟩ : BufTy).Contents (Elt F)) :
    (select (RefTerm.v18 x) (RefTerm.v16 x) (broadcastInDim S4096 ![] bcast_S_S4096 (id (constant S_ .f32 0x3F800000#32))) : (⟨S4096, .f32⟩ : BufTy).Contents (Elt F)) = RefTerm.v19 x := rfl
theorem fold_v20 (x : (⟨S2048x4096, .f32⟩ : BufTy).Contents (Elt F)) :
    (Host.divf (RefTerm.v5 x) (RefTerm.v19 x) : (⟨S4096, .f32⟩ : BufTy).Contents (Elt F)) = RefTerm.v20 x := rfl
theorem fold_v21 (x : (⟨S2048x4096, .f32⟩ : BufTy).Contents (Elt F)) :
    (select (RefTerm.v18 x) (RefTerm.v20 x) (broadcastInDim S4096 ![] bcast_S_S4096 (id (constant S_ .f32 0x3F000000#32))) : (⟨S4096, .f32⟩ : BufTy).Contents (Elt F)) = RefTerm.v21 x := rfl
theorem fold_v22 (x : (⟨S2048x4096, .f32⟩ : BufTy).Contents (Elt F)) :
    (mulf (RefTerm.v14 x) (RefTerm.v21 x) : (⟨S4096, .f32⟩ : BufTy).Contents (Elt F)) = RefTerm.v22 x := rfl
theorem fold_v23 (x : (⟨S2048x4096, .f32⟩ : BufTy).Contents (Elt F)) :
    (addf (RefTerm.v15 x) (RefTerm.v22 x) : (⟨S4096, .f32⟩ : BufTy).Contents (Elt F)) = RefTerm.v23 x := rfl
theorem fold_v24 (x : (⟨S2048x4096, .f32⟩ : BufTy).Contents (Elt F)) :
    (Host.negf (RefTerm.v23 x) : (⟨S4096, .f32⟩ : BufTy).Contents (Elt F)) = RefTerm.v24 x := rfl
theorem fold_v25 (x : (⟨S2048x4096, .f32⟩ : BufTy).Contents (Elt F)) :
    (mulf (RefTerm.v24 x) (RefTerm.v8 x) : (⟨S4096, .f32⟩ : BufTy).Contents (Elt F)) = RefTerm.v25 x := rfl
theorem fold_v27 (x : (⟨S2048x4096, .f32⟩ : BufTy).Contents (Elt F)) :
    (subf (broadcastInDim S4096 ![] bcast_S_S4096 (constant S_ .f32 0x3F800000#32)) (RefTerm.v23 x) : (⟨S4096, .f32⟩ : BufTy).Contents (Elt F)) = RefTerm.v27 x := rfl
theorem fold_v28 (x : (⟨S2048x4096, .f32⟩ : BufTy).Contents (Elt F)) :
    (mulf (RefTerm.v27 x) (RefTerm.v5 x) : (⟨S4096, .f32⟩ : BufTy).Contents (Elt F)) = RefTerm.v28 x := rfl
theorem fold_v29 (x : (⟨S2048x4096, .f32⟩ : BufTy).Contents (Elt F)) :
    (maximumf (RefTerm.v25 x) (RefTerm.v28 x) : (⟨S4096, .f32⟩ : BufTy).Contents (Elt F)) = RefTerm.v29 x := rfl
theorem fold_v31 (x : (⟨S2048x4096, .f32⟩ : BufTy).Contents (Elt F)) :
    (mulf (RefTerm.v29 x) (broadcastInDim S4096 ![] bcast_S_S4096 (constant S_ .f32 0x3F000000#32)) : (⟨S4096, .f32⟩ : BufTy).Contents (Elt F)) = RefTerm.v31 x := rfl
theorem fold_v34 (x : (⟨S2048x4096, .f32⟩ : BufTy).Contents (Elt F)) :
    (mulf (RefTerm.v23 x) (RefTerm.v4 x) : (⟨S4096, .f32⟩ : BufTy).Contents (Elt F)) = RefTerm.v34 x := rfl
theorem fold_v35 (x : (⟨S2048x4096, .f32⟩ : BufTy).Contents (Elt F)) :
    (addf (RefTerm.v31 x) (RefTerm.v34 x) : (⟨S4096, .f32⟩ : BufTy).Contents (Elt F)) = RefTerm.v35 x := rfl
theorem fold_v36 (x : (⟨S2048x4096, .f32⟩ : BufTy).Contents (Elt F)) :
    (mulf (RefTerm.v35 x) (RefTerm.v14 x) : (⟨S4096, .f32⟩ : BufTy).Contents (Elt F)) = RefTerm.v36 x := rfl
theorem fold_v39 (x : (⟨S2048x4096, .f32⟩ : BufTy).Contents (Elt F)) :
    (mulf (RefTerm.v4 x) (RefTerm.v15 x) : (⟨S4096, .f32⟩ : BufTy).Contents (Elt F)) = RefTerm.v39 x := rfl
theorem fold_v40 (x : (⟨S2048x4096, .f32⟩ : BufTy).Contents (Elt F)) :
    (addf (RefTerm.v36 x) (RefTerm.v39 x) : (⟨S4096, .f32⟩ : BufTy).Contents (Elt F)) = RefTerm.v40 x := rfl
theorem fold_v42 (x : (⟨S2048x4096, .f32⟩ : BufTy).Contents (Elt F)) :
    (mulf (RefTerm.v23 x) (RefTerm.v14 x) : (⟨S4096, .f32⟩ : BufTy).Contents (Elt F)) = RefTerm.v42 x := rfl
theorem fold_v43 (x : (⟨S2048x4096, .f32⟩ : BufTy).Contents (Elt F)) :
    (addf (RefTerm.v42 x) (RefTerm.v15 x) : (⟨S4096, .f32⟩ : BufTy).Contents (Elt F)) = RefTerm.v43 x := rfl
theorem fold_v44 (x : (⟨S2048x4096, .f32⟩ : BufTy).Contents (Elt F)) :
    (broadcastInDim S1x4096 ![1] bcast_S4096_S1x4096_1 (RefTerm.v43 x) : (⟨S1x4096, .f32⟩ : BufTy).Contents (Elt F)) = RefTerm.v44 x := rfl
theorem fold_v45 (x : (⟨S2048x4096, .f32⟩ : BufTy).Contents (Elt F)) :
    (broadcastInDim S2047x4096 ![0, 1] bcast_S1x4096_S2047x4096_0_1 (RefTerm.v44 x) : (⟨S2047x4096, .f32⟩ : BufTy).Contents (Elt F)) = RefTerm.v45 x := rfl
theorem fold_v46 (x : (⟨S2048x4096, .f32⟩ : BufTy).Contents (Elt F)) :
    (mulf (RefTerm.v0 x) (RefTerm.v45 x) : (⟨S2047x4096, .f32⟩ : BufTy).Contents (Elt F)) = RefTerm.v46 x := rfl
theorem fold_v47 (x : (⟨S2048x4096, .f32⟩ : BufTy).Contents (Elt F)) :
    (extui 32 (RefTerm.v11 x) natLt_1_32 : (⟨S4096, .i32⟩ : BufTy).Contents (Elt F)) = RefTerm.v47 x := rfl
theorem fold_v48 (x : (⟨S2048x4096, .f32⟩ : BufTy).Contents (Elt F)) :
    (Host.reduceWindow IntOp.addi ![4096] ![1] ![4095] ![0] (RefTerm.v47 x) (broadcastInDim S_ ![] bcast_S_S_ (constantI S_ 32 0#32)) reduceWindows_S4096_S4096_w4096s1p4095_0 h_S_ : (⟨S4096, .i32⟩ : BufTy).Contents (Elt F)) = RefTerm.v48 x := rfl
theorem fold_v50 (x : (⟨S2048x4096, .f32⟩ : BufTy).Contents (Elt F)) :
    (addi (broadcastInDim S4096 ![] bcast_S_S4096 (constantI S_ 32 2048#32)) (RefTerm.v48 x) : (⟨S4096, .i32⟩ : BufTy).Contents (Elt F)) = RefTerm.v50 x := rfl
theorem fold_v51 (x : (⟨S2048x4096, .f32⟩ : BufTy).Contents (Elt F)) :
    (subi (RefTerm.v50 x) (RefTerm.v47 x) : (⟨S4096, .i32⟩ : BufTy).Contents (Elt F)) = RefTerm.v51 x := rfl
theorem fold_v55 (x : (⟨S2048x4096, .f32⟩ : BufTy).Contents (Elt F)) :
    (Host.scatter scatter_S6144x4096_S1_S4096_0_0_0_0 (fun _ b => b) (broadcastInDim S6144x4096 ![] bcast_S_S6144x4096 (constant S_ .f32 0x00000000#32)) (broadcastInDim S1 ![] bcast_S_S1 (constantI S_ 32 0#32)) (RefTerm.v40 x) : (⟨S6144x4096, .f32⟩ : BufTy).Contents (Elt F)) = RefTerm.v55 x := rfl
theorem fold_v57 (x : (⟨S2048x4096, .f32⟩ : BufTy).Contents (Elt F)) :
    (Host.scatter scatter_S6144x4096_S1_S2047x4096_01_n_0_0 (fun _ b => b) (RefTerm.v55 x) (broadcastInDim S1 ![] bcast_S_S1 (constantI S_ 32 1#32)) (RefTerm.v46 x) : (⟨S6144x4096, .f32⟩ : BufTy).Contents (Elt F)) = RefTerm.v57 x := rfl
theorem fold_v60 (x : (⟨S2048x4096, .f32⟩ : BufTy).Contents (Elt F)) :
    (mulf (RefTerm.v31 x) (RefTerm.v14 x) : (⟨S4096, .f32⟩ : BufTy).Contents (Elt F)) = RefTerm.v60 x := rfl
theorem fold_v62 (x : (⟨S2048x4096, .f32⟩ : BufTy).Contents (Elt F)) :
    (cmpi .slt (RefTerm.v51 x) (broadcastInDim S4096 ![] bcast_S_S4096 (constantI S_ 32 0#32)) : (⟨S4096, .i1⟩ : BufTy).Contents (Elt F)) = RefTerm.v62 x := rfl
theorem fold_v64 (x : (⟨S2048x4096, .f32⟩ : BufTy).Contents (Elt F)) :
    (addi (RefTerm.v51 x) (broadcastInDim S4096 ![] bcast_S_S4096 (constantI S_ 32 6144#32)) : (⟨S4096, .i32⟩ : BufTy).Contents (Elt F)) = RefTerm.v64 x := rfl
theorem fold_v65 (x : (⟨S2048x4096, .f32⟩ : BufTy).Contents (Elt F)) :
    (select (RefTerm.v62 x) (RefTerm.v64 x) (RefTerm.v51 x) : (⟨S4096, .i32⟩ : BufTy).Contents (Elt F)) = RefTerm.v65 x := rfl
theorem fold_v71 (x : (⟨S2048x4096, .f32⟩ : BufTy).Contents (Elt F)) :
    (broadcastInDim S4096x1 ![0] bcast_S4096_S4096x1_0 (RefTerm.v65 x) : (⟨S4096x1, .i32⟩ : BufTy).Contents (Elt F)) = RefTerm.v71 x := rfl
theorem fold_v73 (x : (⟨S2048x4096, .f32⟩ : BufTy).Contents (Elt F)) :
    (catCols (RefTerm.v71 x) (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0))) : (⟨S4096x2, .i32⟩ : BufTy).Contents (Elt F)) = RefTerm.v73 x := rfl
theorem fold_v74 (x : (⟨S2048x4096, .f32⟩ : BufTy).Contents (Elt F)) :
    (Host.scatterAdd scatter_S6144x4096_S4096x2_S4096_n_01_01_1 (RefTerm.v57 x) (RefTerm.v73 x) (RefTerm.v60 x) : (⟨S6144x4096, .f32⟩ : BufTy).Contents (Elt F)) = RefTerm.v74 x := rfl

set_option maxRecDepth 16384 in
set_option maxHeartbeats 2000000 in
/-- The fold at the result buffer, the argument's contents named `x`. -/
theorem out_eq' (V : Valuation τ sig (Elt F)) (x : (⟨S2048x4096, .f32⟩ : BufTy).Contents (Elt F))
    (hx : V (Proc.devRef .tc main_arg0) = x) :
    after ops V (main_v74 : DevRef τ sig) = RefTerm.out x := by
  simp (disch := decide) only [after_cons, after_nil, nullary_result', unary_result', binary_result', ternary_result', nullary_result_ne', unary_result_ne', binary_result_ne', ternary_result_ne', reshape_result_ne', rs_v4, rs_v7, rs_v33, rs_v38, hx]
  rw [
    fold_v0 x, fold_v1 x, fold_v2 x, fold_v3 x, fold_v4 x, fold_v5 x, fold_v8 x, fold_v9 x,
    fold_v11 x, fold_v13 x, fold_v14 x, fold_v15 x, fold_v16 x, fold_v18 x, fold_v19 x, fold_v20 x,
    fold_v21 x, fold_v22 x, fold_v23 x, fold_v24 x, fold_v25 x, fold_v27 x, fold_v28 x, fold_v29 x,
    fold_v31 x, fold_v34 x, fold_v35 x, fold_v36 x, fold_v39 x, fold_v40 x, fold_v42 x, fold_v43 x,
    fold_v44 x, fold_v45 x, fold_v46 x, fold_v47 x, fold_v48 x, fold_v50 x, fold_v51 x, fold_v55 x,
    fold_v57 x, fold_v60 x, fold_v62 x, fold_v64 x, fold_v65 x, fold_v71 x, fold_v73 x, fold_v74 x]
  rfl

/-- The fold at the result buffer is `RefTerm.out` of the argument's contents. -/
theorem out_eq (V : Valuation τ sig (Elt F)) :
    after ops V (main_v74 : DevRef τ sig) = RefTerm.out (V (main_arg0 : DevRef τ sig)) :=
  out_eq' V _ rfl

set_option maxRecDepth 16384 in
/-- On every device, for any float values, from any memory with zero counters: every weakly fair execution of
    @main terminates with the result buffer at `RefTerm.out` of the argument's launch contents and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = RefTerm.out (m ((c.tc : Thread nD τ).loc main_arg0))
      ∧ r.2.mem ((c.tc : Thread nD τ).loc main_arg0) = m ((c.tc : Thread nD τ).loc main_arg0) :=
  (θ_run defs _ _).mono (fun _ h c => ⟨(h c main_v74).trans (out_eq _), (h c main_arg0).trans (arg0_eq _)⟩)
    (run_seq scopedRefs_eq scopedSems_eq defs main (fun _ => ops) main_eq (fun _ => ops_sub) m ρ)

/-- The run leaves the argument unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c).2) (run m ρ)

end Cert.ReferenceIdeal.RefRun

end
-- ==== Proof.LibScatterSet.lean ====
/-
  A scatter whose body returns the update, all of whose updates are one value `v`, read at an index.

  The scatter is a left fold over the update indices: each update whose result index is inside the operand
  overwrites that element. When every update carries the same value the order of the updates does not
  matter: an element that some update lands on holds `v`, and an element that no update lands on holds what
  the operand held.
-/
import Idealize.ShloMosaic.PureOps

noncomputable section

namespace Cert.ScatterSet

open Idealize.ShloMosaic

section Fold
variable {α ι κ : Type} [DecidableEq ι]

/-- One step of the fold: update `n` overwrites the element its result index `g n` names, if any. -/
def step (g : κ → Option ι) (u : κ → α) (r : ι → α) (n : κ) : ι → α :=
  match g n with
  | some i => fun i' => if i' = i then u n else r i'
  | none => r

theorem step_some (g : κ → Option ι) (u : κ → α) (r : ι → α) (n : κ) (i : ι) (h : g n = some i) (i' : ι) :
    step g u r n i' = if i' = i then u n else r i' := by
  unfold step; rw [h]

theorem step_none (g : κ → Option ι) (u : κ → α) (r : ι → α) (n : κ) (h : g n = none) : step g u r n = r := by
  unfold step; rw [h]

/-- A step leaves an element that its update does not land on. -/
theorem step_miss (g : κ → Option ι) (u : κ → α) (r : ι → α) (n : κ) (i' : ι) (h : g n ≠ some i') :
    step g u r n i' = r i' := by
  cases hg : g n with
  | none => rw [step_none g u r n hg]
  | some i =>
    rw [step_some g u r n i hg, if_neg]
    rintro rfl
    exact h hg

/-- A step writes the update's value to the element its update lands on. -/
theorem step_hit (g : κ → Option ι) (u : κ → α) (r : ι → α) (n : κ) (i' : ι) (h : g n = some i') :
    step g u r n i' = u n := by
  rw [step_some g u r n i' h, if_pos rfl]

/-- The fold of the steps with all updates equal to `v`: an element some update of the list lands on holds `v`,
    an element none lands on is unchanged. -/
theorem foldl_step (g : κ → Option ι) (u : κ → α) (v : α) (hv : ∀ n, u n = v) (i' : ι) (l : List κ) :
    ∀ x : ι → α, ((∃ n ∈ l, g n = some i') → l.foldl (step g u) x i' = v)
      ∧ ((∀ n ∈ l, g n ≠ some i') → l.foldl (step g u) x i' = x i') := by
  induction l with
  | nil =>
    intro x
    exact ⟨fun ⟨n, hn, _⟩ => absurd hn (List.not_mem_nil), fun _ => rfl⟩
  | cons n l ih =>
    intro x
    rw [List.foldl_cons]
    refine ⟨fun hex => ?_, fun hall => ?_⟩
    · by_cases hl : ∃ m ∈ l, g m = some i'
      · exact (ih _).1 hl
      · have hl' : ∀ m ∈ l, g m ≠ some i' := fun m hm e => hl ⟨m, hm, e⟩
        rw [(ih _).2 hl']
        obtain ⟨m, hm, e⟩ := hex
        rcases List.mem_cons.mp hm with rfl | hm
        · rw [step_hit g u x m i' e, hv]
        · exact absurd e (hl' m hm)
    · rw [(ih _).2 (fun m hm => hall m (List.mem_cons_of_mem _ hm))]
      exact step_miss g u x n i' (hall n List.mem_cons_self)

end Fold

variable {α : Type} {w : Nat} {s si u : Shape}

/-- The scatter is the fold of the steps over the update indices in row-major order. -/
theorem scatter_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  refine congrArg (fun f => List.foldl f x (List.finRange u.numel)) ?_
  funext r n
  unfold step
  dsimp only
  generalize d.resultIdx? (u.rowMajor.symm n) idx = o
  cases o with
  | none => rfl
  | some i =>
    funext i'
    dsimp only

/-- An element that some update lands on holds the updates' common value. -/
theorem scatter_hit (d : ScatterDims s si u) (x : s.Idx → α) (idx : IVec si w) (upd : u.Idx → α) (v : α)
    (hv : ∀ j, upd j = v) (i' : s.Idx) (j : u.Idx) (hj : d.resultIdx? j idx = some i') :
    Host.scatter d (fun _ b => b) x idx upd i' = v := by
  rw [scatter_eq_foldl]
  refine (foldl_step _ _ v (fun n => hv _) i' _ x).1 ⟨u.rowMajor j, List.mem_finRange _, ?_⟩
  show d.resultIdx? (u.rowMajor.symm (u.rowMajor j)) idx = some i'
  rw [Equiv.symm_apply_apply]
  exact hj

/-- An element that no update lands on holds the operand's element. -/
theorem scatter_miss (d : ScatterDims s si u) (x : s.Idx → α) (idx : IVec si w) (upd : u.Idx → α) (v : α)
    (hv : ∀ j, upd j = v) (i' : s.Idx) (hj : ∀ j, d.resultIdx? j idx ≠ some i') :
    Host.scatter d (fun _ b => b) x idx upd i' = x i' := by
  rw [scatter_eq_foldl]
  exact (foldl_step _ _ v (fun n => hv _) i' _ x).2 (fun n _ => hj _)

end Cert.ScatterSet

end
-- ==== Proof.RefLemmas.lean ====
/-
  Library facts the reference program's value rests on, each about one operation read at one entry.

  A scatter whose body keeps the update is a left fold of overwriting steps over the updates; an entry that exactly
  one update lands on holds that update, an entry that none lands on keeps the operand's element. With one start
  index the updates of a window land on pairwise distinct entries, so writing a row at start 0 sets row 0 and
  writing a block of 2047 rows at start 1 sets rows 1 … 2047. The accumulating point scatter at the extended reals
  adds to entry (r, c) the updates whose signed (row, column) index pair is (r, c). The running sum of a 0/1 vector
  at position c, less the entry at c, adds up the entries before c, so it is at most c.
-/
import proofs.«135706_j46454366273944_2_alg».proof.Proof.Gen.ReferenceIdeal
import proofs.«135706_j46454366273944_2_alg».proof.Proof.Spec
import proofs.«135706_j46454366273944_2_alg».proof.Proof.LibScatterSet

noncomputable section

namespace Cert.RefLemmas

open Cert.ReferenceIdeal Cert.ReferenceIdeal.Gen Idealize.ShloMosaic Idealize.ShloMosaic.ValueIdx

/-- A rank-1 index is its one coordinate. -/
def idx1Equiv (n : Nat) : (⟨1, ![n]⟩ : Shape).Idx ≃ Fin n where
  toFun j := j 0
  invFun c := ix1 c
  left_inv j := (eq_ix1 j).symm
  right_inv _ := rfl

/-! ## The point scatter-add: every axis of the operand is an inserted one, the index vector has two components -/

theorem pt_start0 (idx : IVec S4096x2 32) (j : S4096.Idx) :
    scatter_S6144x4096_S4096x2_S4096_n_01_01_1.start j idx 0 = (idx (ix2 (j 0) 0)).toInt := by
  have h : (0 : Fin 2) ∈ scatter_S6144x4096_S4096x2_S4096_n_01_01_1.scatterDimsToOperandDims := by decide
  unfold ScatterDims.start
  rw [dif_pos h]
  refine congrArg (fun k => (idx k).toInt) ?_
  funext b
  fin_cases b <;> rfl

theorem pt_start1 (idx : IVec S4096x2 32) (j : S4096.Idx) :
    scatter_S6144x4096_S4096x2_S4096_n_01_01_1.start j idx 1 = (idx (ix2 (j 0) 1)).toInt := by
  have h : (1 : Fin 2) ∈ scatter_S6144x4096_S4096x2_S4096_n_01_01_1.scatterDimsToOperandDims := by decide
  unfold ScatterDims.start
  rw [dif_pos h]
  refine congrArg (fun k => (idx k).toInt) ?_
  funext b
  fin_cases b <;> rfl

theorem pt_window (j : S4096.Idx) (a : Fin 2) :
    scatter_S6144x4096_S4096x2_S4096_n_01_01_1.window j a = 0 := by
  fin_cases a <;> rfl

/-- The point scatter's result index is (r, c) exactly when the two signed index components are r and c. -/
theorem pt_resultIdx (idx : IVec S4096x2 32) (j : S4096.Idx) (r : Fin 6144) (c : Fin 4096) :
    scatter_S6144x4096_S4096x2_S4096_n_01_01_1.resultIdx? j idx = some (ix2 r c)
      ↔ ((idx (ix2 (j 0) 0)).toInt = (r.val : Int) ∧ (idx (ix2 (j 0) 1)).toInt = (c.val : Int)) := by
  unfold ScatterDims.resultIdx?
  constructor
  · intro h
    split at h
    · rename_i hb
      have h' := Option.some.inj h
      have e0 : ((scatter_S6144x4096_S4096x2_S4096_n_01_01_1.start j idx 0
          + (scatter_S6144x4096_S4096x2_S4096_n_01_01_1.window j 0 : Int)).toNat : Int) = (r.val : Int) :=
        congrArg (fun i => ((i 0).val : Int)) h'
      have e1 : ((scatter_S6144x4096_S4096x2_S4096_n_01_01_1.start j idx 1
          + (scatter_S6144x4096_S4096x2_S4096_n_01_01_1.window j 1 : Int)).toNat : Int) = (c.val : Int) :=
        congrArg (fun i => ((i 1).val : Int)) h'
      have b0 := (hb 0).1
      have b1 := (hb 1).1
      rw [pt_start0, pt_window] at b0 e0
      rw [pt_start1, pt_window] at b1 e1
      omega
    · exact absurd h (by simp)
  · rintro ⟨h0, h1⟩
    have hr : (r.val : Int) < 6144 := by exact_mod_cast r.isLt
    have hc : (c.val : Int) < 4096 := by exact_mod_cast c.isLt
    have hb : ∀ a, 0 ≤ scatter_S6144x4096_S4096x2_S4096_n_01_01_1.start j idx a
          + (scatter_S6144x4096_S4096x2_S4096_n_01_01_1.window j a : Int)
        ∧ scatter_S6144x4096_S4096x2_S4096_n_01_01_1.start j idx a
          + (scatter_S6144x4096_S4096x2_S4096_n_01_01_1.window j a : Int) < (S6144x4096.size a : Int) := by
      intro a
      fin_cases a
      · show 0 ≤ scatter_S6144x4096_S4096x2_S4096_n_01_01_1.start j idx 0
            + (scatter_S6144x4096_S4096x2_S4096_n_01_01_1.window j 0 : Int)
          ∧ scatter_S6144x4096_S4096x2_S4096_n_01_01_1.start j idx 0
            + (scatter_S6144x4096_S4096x2_S4096_n_01_01_1.window j 0 : Int) < ((6144 : Nat) : Int)
        rw [pt_start0, pt_window, h0]; omega
      · show 0 ≤ scatter_S6144x4096_S4096x2_S4096_n_01_01_1.start j idx 1
            + (scatter_S6144x4096_S4096x2_S4096_n_01_01_1.window j 1 : Int)
          ∧ scatter_S6144x4096_S4096x2_S4096_n_01_01_1.start j idx 1
            + (scatter_S6144x4096_S4096x2_S4096_n_01_01_1.window j 1 : Int) < ((4096 : Nat) : Int)
        rw [pt_start1, pt_window, h1]; omega
    rw [dif_pos hb]
    refine congrArg some ?_
    funext a
    fin_cases a
    · apply Fin.ext
      show (scatter_S6144x4096_S4096x2_S4096_n_01_01_1.start j idx 0
            + (scatter_S6144x4096_S4096x2_S4096_n_01_01_1.window j 0 : Int)).toNat = r.val
      rw [pt_start0, pt_window, h0]; omega
    · apply Fin.ext
      show (scatter_S6144x4096_S4096x2_S4096_n_01_01_1.start j idx 1
            + (scatter_S6144x4096_S4096x2_S4096_n_01_01_1.window j 1 : Int)).toNat = c.val
      rw [pt_start1, pt_window, h1]; omega

/-- the point scatter-add at Ideal: entry (r,c) receives the updates whose (row, column) index pair, read signed, is (r,c) -/
theorem scatterAdd_point (z : FVec Ideal S6144x4096 .f32) (idx : IVec S4096x2 32) (u : FVec Ideal S4096 .f32) (r : Fin 6144) (c : Fin 4096) :
    Host.scatterAdd scatter_S6144x4096_S4096x2_S4096_n_01_01_1 z idx u (ix2 r c)
      = z (ix2 r c) + ∑ j ∈ Finset.univ.filter (fun j : Fin 4096 => (idx (ix2 j 0)).toInt = (r.val : Int) ∧ (idx (ix2 j 1)).toInt = (c.val : Int)), u (ix1 j) := by
  show Ideal.hostScatterAdd scatter_S6144x4096_S4096x2_S4096_n_01_01_1 z idx u (ix2 r c) = _
  unfold Ideal.hostScatterAdd
  refine congrArg (fun t => z (ix2 r c) + t) ?_
  refine Finset.sum_equiv (idx1Equiv 4096) (fun j => ?_) (fun j _ => ?_)
  · simp only [Finset.mem_filter, Finset.mem_univ, true_and]
    exact pt_resultIdx idx j r c
  · exact congrArg u (eq_ix1 j)

/-! ## A scatter whose body keeps the update, read at an element that exactly one update, or none, lands on -/

section Fold
open Cert.ScatterSet
variable {α ι κ : Type} [DecidableEq ι]

/-- The fold of the overwriting steps leaves an element that no update of the list lands on. -/
theorem foldl_step_miss (g : κ → Option ι) (u : κ → α) (i' : ι) (l : List κ) :
    ∀ x : ι → α, (∀ n ∈ l, g n ≠ some i') → l.foldl (step g u) x i' = x i' := by
  induction l with
  | nil => intro x _; rfl
  | cons n l ih =>
    intro x hall
    rw [List.foldl_cons, ih _ (fun m hm => hall m (List.mem_cons_of_mem _ hm))]
    exact step_miss g u x n i' (hall n List.mem_cons_self)

/-- When one update is the only one landing on an element and the list contains it, the fold leaves that update's value there. -/
theorem foldl_step_unique (g : κ → Option ι) (u : κ → α) (i' : ι) (n0 : κ) (hn0 : g n0 = some i')
    (huniq : ∀ m, g m = some i' → m = n0) (l : List κ) :
    ∀ x : ι → α, n0 ∈ l → l.foldl (step g u) x i' = u n0 := by
  induction l with
  | nil => intro x h; exact absurd h List.not_mem_nil
  | cons n l ih =>
    intro x hmem
    rw [List.foldl_cons]
    by_cases hl : n0 ∈ l
    · exact ih _ hl
    · have hn : n0 = n := by
        rcases List.mem_cons.mp hmem with h | h
        · exact h
        · exact absurd h hl
      subst hn
      rw [foldl_step_miss g u i' l _ (fun m hm e => hl (huniq m e ▸ hm))]
      exact step_hit g u x n0 i' hn0

end Fold

section Scatter
open Cert.ScatterSet
variable {α : Type} {w : Nat} {s si u : Shape}

/-- An element that exactly one update lands on holds that update. -/
theorem scatter_hit_unique (d : ScatterDims s si u) (x : s.Idx → α) (idx : IVec si w) (upd : u.Idx → α) (i' : s.Idx)
    (j : u.Idx) (hj : d.resultIdx? j idx = some i') (huniq : ∀ j', d.resultIdx? j' idx = some i' → j' = j) :
    Host.scatter d (fun _ b => b) x idx upd i' = upd j := by
  rw [scatter_eq_foldl]
  have h := foldl_step_unique (fun n => d.resultIdx? (u.rowMajor.symm n) idx) (fun n => upd (u.rowMajor.symm n)) i'
    (u.rowMajor j) (by rw [Equiv.symm_apply_apply]; exact hj)
    (fun m hm => (Equiv.symm_apply_eq _).mp (huniq _ hm)) (List.finRange u.numel) x (List.mem_finRange _)
  rw [h, Equiv.symm_apply_apply]

/-- An element that no update lands on holds the operand's element. -/
theorem scatter_miss_all (d : ScatterDims s si u) (x : s.Idx → α) (idx : IVec si w) (upd : u.Idx → α) (i' : s.Idx)
    (hj : ∀ j, d.resultIdx? j idx ≠ some i') :
    Host.scatter d (fun _ b => b) x idx upd i' = x i' := by
  rw [scatter_eq_foldl]
  exact foldl_step_miss _ _ i' _ x (fun n _ => hj _)

/-- An update lands on an element exactly when on every axis its start plus its window coordinate is the element's coordinate. -/
theorem resultIdx_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have e : ((d.start j idx a + (d.window j a : Int)).toNat : Int) = ((i a).val : Int) :=
        congrArg (fun i => ((i a).val : Int)) h'
      have b := (hb a).1
      omega
    · exact absurd h (by simp)
  · intro h
    have hb : ∀ a, 0 ≤ d.start j idx a + (d.window j a : Int)
        ∧ d.start j idx a + (d.window j a : Int) < (s.size a : Int) := by
      intro a
      have := (i a).isLt
      rw [h a]
      omega
    rw [dif_pos hb]
    refine congrArg some ?_
    funext a
    apply Fin.ext
    show (d.start j idx a + (d.window j a : Int)).toNat = (i a).val
    rw [h a]
    omega

end Scatter

/-! ## Row 0 -/

theorem row0_start (j : S4096.Idx) (a : Fin 2) :
    scatter_S6144x4096_S1_S4096_0_0_0_0.start j (fun _ => (0#32 : BitVec 32)) a = 0 := by
  unfold ScatterDims.start
  split <;> rfl

theorem row0_window0 (j : S4096.Idx) : scatter_S6144x4096_S1_S4096_0_0_0_0.window j 0 = 0 := rfl
theorem row0_window1 (j : S4096.Idx) : scatter_S6144x4096_S1_S4096_0_0_0_0.window j 1 = (j 0).val := rfl

/-- Update j of the row lands on (0, j). -/
theorem row0_iff (j : S4096.Idx) (r : Fin 6144) (c : Fin 4096) :
    scatter_S6144x4096_S1_S4096_0_0_0_0.resultIdx? j (fun _ => (0#32 : BitVec 32)) = some (ix2 r c)
      ↔ r.val = 0 ∧ (j 0).val = c.val := by
  rw [resultIdx_some_iff, Fin.forall_fin_two]
  show (scatter_S6144x4096_S1_S4096_0_0_0_0.start j (fun _ => (0#32 : BitVec 32)) 0
        + (scatter_S6144x4096_S1_S4096_0_0_0_0.window j 0 : Int) = (r.val : Int))
      ∧ (scatter_S6144x4096_S1_S4096_0_0_0_0.start j (fun _ => (0#32 : BitVec 32)) 1
        + (scatter_S6144x4096_S1_S4096_0_0_0_0.window j 1 : Int) = (c.val : Int)) ↔ _
  rw [row0_start, row0_start, row0_window0, row0_window1]
  omega

/-- row 0 set: scatter with the single start index 0 and the update a whole row -/
theorem scatter_row0 {α : Type} (z : S6144x4096.Idx → α) (u : S4096.Idx → α) (r : Fin 6144) (c : Fin 4096) :
    Host.scatter scatter_S6144x4096_S1_S4096_0_0_0_0 (fun _ b => b) z (fun _ => (0#32 : BitVec 32)) u (ix2 r c) = if r.val = 0 then u (ix1 c) else z (ix2 r c) := by
  by_cases hr : r.val = 0
  · rw [if_pos hr]
    refine scatter_hit_unique _ z _ u (ix2 r c) (ix1 c) ((row0_iff _ r c).2 ⟨hr, rfl⟩) (fun j' hj' => ?_)
    rw [eq_ix1 j']
    exact congrArg ix1 (Fin.ext ((row0_iff j' r c).1 hj').2)
  · rw [if_neg hr]
    exact scatter_miss_all _ z _ u (ix2 r c) (fun j hj => hr ((row0_iff j r c).1 hj).1)

/-! ## Rows 1 … 2047 -/

theorem rows1_start0 (j : S2047x4096.Idx) :
    scatter_S6144x4096_S1_S2047x4096_01_n_0_0.start j (fun _ => (1#32 : BitVec 32)) 0 = 1 := by
  have h : (0 : Fin 2) ∈ scatter_S6144x4096_S1_S2047x4096_01_n_0_0.scatterDimsToOperandDims := by decide
  unfold ScatterDims.start
  rw [dif_pos h]
  rfl

theorem rows1_start1 (j : S2047x4096.Idx) :
    scatter_S6144x4096_S1_S2047x4096_01_n_0_0.start j (fun _ => (1#32 : BitVec 32)) 1 = 0 := by
  have h : (1 : Fin 2) ∉ scatter_S6144x4096_S1_S2047x4096_01_n_0_0.scatterDimsToOperandDims := by decide
  unfold ScatterDims.start
  rw [dif_neg h]

theorem rows1_window0 (j : S2047x4096.Idx) : scatter_S6144x4096_S1_S2047x4096_01_n_0_0.window j 0 = (j 0).val := rfl
theorem rows1_window1 (j : S2047x4096.Idx) : scatter_S6144x4096_S1_S2047x4096_01_n_0_0.window j 1 = (j 1).val := rfl

/-- Update (a, b) of the block lands on (1 + a, b). -/
theorem rows1_iff (j : S2047x4096.Idx) (r : Fin 6144) (c : Fin 4096) :
    scatter_S6144x4096_S1_S2047x4096_01_n_0_0.resultIdx? j (fun _ => (1#32 : BitVec 32)) = some (ix2 r c)
      ↔ 1 + (j 0).val = r.val ∧ (j 1).val = c.val := by
  rw [resultIdx_some_iff, Fin.forall_fin_two]
  show (scatter_S6144x4096_S1_S2047x4096_01_n_0_0.start j (fun _ => (1#32 : BitVec 32)) 0
        + (scatter_S6144x4096_S1_S2047x4096_01_n_0_0.window j 0 : Int) = (r.val : Int))
      ∧ (scatter_S6144x4096_S1_S2047x4096_01_n_0_0.start j (fun _ => (1#32 : BitVec 32)) 1
        + (scatter_S6144x4096_S1_S2047x4096_01_n_0_0.window j 1 : Int) = (c.val : Int)) ↔ _
  rw [rows1_start0, rows1_start1, rows1_window0, rows1_window1]
  omega

/-- rows 1 … 2047 set: scatter with the single start index 1 and the update a [2047,4096] block -/
theorem scatter_rows1 {α : Type} (z : S6144x4096.Idx → α) (u : S2047x4096.Idx → α) (r : Fin 6144) (c : Fin 4096) :
    Host.scatter scatter_S6144x4096_S1_S2047x4096_01_n_0_0 (fun _ b => b) z (fun _ => (1#32 : BitVec 32)) u (ix2 r c)
      = if h : 1 ≤ r.val ∧ r.val < 2048 then u (ix2 ⟨r.val - 1, by omega⟩ c) else z (ix2 r c) := by
  by_cases hr : 1 ≤ r.val ∧ r.val < 2048
  · rw [dif_pos hr]
    refine scatter_hit_unique _ z _ u (ix2 r c) (ix2 ⟨r.val - 1, by omega⟩ c)
      ((rows1_iff _ r c).2 ⟨by show 1 + (r.val - 1) = r.val; omega, rfl⟩) (fun j' hj' => ?_)
    have h := (rows1_iff j' r c).1 hj'
    rw [eq_ix2 j']
    have h0 : j' 0 = ⟨r.val - 1, by omega⟩ := Fin.ext (by show (j' 0).val = r.val - 1; omega)
    have h1 : j' 1 = c := Fin.ext h.2
    rw [h0, h1]
    rfl
  · rw [dif_neg hr]
    refine scatter_miss_all _ z _ u (ix2 r c) (fun j hj => hr ?_)
    have h := (rows1_iff j r c).1 hj
    have := idx2_lt0 j
    omega

/-! ## The running sum of 0/1 flags -/

/-- What the window ending at position c holds at its offset k: the entry at c + k - 4095 when that is a position
    of the vector, the padding's 0 when it is not. -/
def term (v : IVec (⟨1, ![4096]⟩ : Shape) 32) (c k : Nat) : BitVec 32 :=
  if hin : 4095 ≤ c + k ∧ c + k - 4095 < 4096 then v (ix1 ⟨c + k - 4095, hin.2⟩) else 0#32

/-- The running sum at position c is the left fold of + over the 4096 offsets of the window ending there. -/
theorem runSum_eq (v : IVec (⟨1, ![4096]⟩ : Shape) 32)
    (h : (⟨1, ![4096]⟩ : Shape).ReduceWindows (![4096] : Fin 1 → Nat) ![1] ![4095] ![0] (⟨1, ![4096]⟩ : Shape))
    (hu : 0 < (⟨0, ![]⟩ : Shape).numel) (c : Fin 4096) :
    Cert.Spec.runSum v h hu (ix1 c) = (List.range 4096).foldl (fun r k => r + term v c.val k) 0#32 := by
  have hN : (⟨1, ![4096]⟩ : Shape).numel = 4096 := by decide
  have key : ∀ n : Fin (⟨1, ![4096]⟩ : Shape).numel,
      (((⟨1, ![4096]⟩ : Shape).rowMajor.symm n) 0).val = n.val := by
    intro n
    have := Shape.rowMajor_val_one ((⟨1, ![4096]⟩ : Shape).rowMajor.symm n)
    rw [Equiv.apply_symm_apply] at this
    exact this.symm
  unfold Cert.Spec.runSum Host.reduceWindow
  dsimp only
  rw [show List.range 4096 = (List.finRange (⟨1, ![4096]⟩ : Shape).numel).map (fun n => n.val) from by
    rw [List.map_coe_finRange_eq_range, hN]]
  rw [List.foldl_map]
  refine congrArg (fun f => List.foldl f (0#32) (List.finRange (⟨1, ![4096]⟩ : Shape).numel)) ?_
  funext r n
  show r + _ = r + term v c.val n.val
  refine congrArg (fun t => r + t) ?_
  split
  · rename_i hin
    have h0 : 4095 ≤ c.val * 1 + (((⟨1, ![4096]⟩ : Shape).rowMajor.symm n) 0).val
        ∧ c.val * 1 + (((⟨1, ![4096]⟩ : Shape).rowMajor.symm n) 0).val - 4095 < 4096 := hin 0
    rw [key n] at h0
    have hin' : 4095 ≤ c.val + n.val ∧ c.val + n.val - 4095 < 4096 := by omega
    unfold term
    rw [dif_pos hin']
    refine congrArg v ?_
    funext a
    fin_cases a
    apply Fin.ext
    show c.val * 1 + (((⟨1, ![4096]⟩ : Shape).rowMajor.symm n) 0).val - 4095 = c.val + n.val - 4095
    rw [key n]
    omega
  · rename_i hin
    unfold term
    rw [dif_neg]
    intro hin'
    apply hin
    intro a
    fin_cases a
    show 4095 ≤ c.val * 1 + (((⟨1, ![4096]⟩ : Shape).rowMajor.symm n) 0).val
        ∧ c.val * 1 + (((⟨1, ![4096]⟩ : Shape).rowMajor.symm n) 0).val - 4095 < 4096
    rw [key n]
    omega

/-- A term of a 0/1 vector's window is 0 or 1, and 0 at an offset that falls before the first position. -/
theorem term_le (v : IVec (⟨1, ![4096]⟩ : Shape) 32) (hv : ∀ j, v j = 0#32 ∨ v j = 1#32) (c k : Nat) :
    (term v c k).toNat ≤ if 4095 ≤ c + k then 1 else 0 := by
  unfold term
  split
  · rename_i hin
    rw [if_pos hin.1]
    rcases hv (ix1 ⟨c + k - 4095, hin.2⟩) with e | e <;> rw [e] <;> decide
  · rename_i hin
    split <;> simp

/-- The fold over the first m offsets of the window ending at c counts at most the offsets that reach a position. -/
theorem fold_le (v : IVec (⟨1, ![4096]⟩ : Shape) 32) (hv : ∀ j, v j = 0#32 ∨ v j = 1#32) (c : Nat) :
    ∀ m : Nat, ((List.range m).foldl (fun r k => r + term v c k) 0#32).toNat ≤ m - (4095 - c) := by
  intro m
  induction m with
  | zero => simp
  | succ m ih =>
    rw [List.range_succ, List.foldl_append, List.foldl_cons, List.foldl_nil, BitVec.toNat_add]
    have h1 := term_le v hv c m
    have h2 := Nat.mod_le (((List.range m).foldl (fun r k => r + term v c k) 0#32).toNat + (term v c m).toNat) (2 ^ 32)
    split at h1 <;> omega

/-- The last offset of the window ending at c is position c itself. -/
theorem term_last (v : IVec (⟨1, ![4096]⟩ : Shape) 32) (c : Fin 4096) : term v c.val 4095 = v (ix1 c) := by
  have hin : 4095 ≤ c.val + 4095 ∧ c.val + 4095 - 4095 < 4096 := by have := c.isLt; omega
  unfold term
  rw [dif_pos hin]
  refine congrArg v (congrArg ix1 (Fin.ext ?_))
  show c.val + 4095 - 4095 = c.val
  omega

/-- The running sum of a 0/1 vector at c, less the entry at c, is at most c: it adds up the entries before c. -/
theorem runSum_sub_le (v : IVec (⟨1, ![4096]⟩ : Shape) 32) (hv : ∀ j, v j = 0#32 ∨ v j = 1#32)
    (h : (⟨1, ![4096]⟩ : Shape).ReduceWindows (![4096] : Fin 1 → Nat) ![1] ![4095] ![0] (⟨1, ![4096]⟩ : Shape))
    (hu : 0 < (⟨0, ![]⟩ : Shape).numel) (c : Fin 4096) :
    (Cert.Spec.runSum v h hu (ix1 c) - v (ix1 c)).toNat ≤ c.val := by
  rw [runSum_eq, show List.range 4096 = List.range 4095 ++ [4095] from List.range_succ, List.foldl_append,
    List.foldl_cons, List.foldl_nil, term_last, BitVec.add_sub_cancel]
  have := fold_le v hv c.val 4095
  have := c.isLt
  omega

/-- A one-bit flag widened to 32 bits is 0 or 1. -/
theorem setWidth_bit : ∀ b : BitVec 1, b.setWidth 32 = 0#32 ∨ b.setWidth 32 = 1#32 := by decide

/-- the running sum of 0/1 flags minus the own flag counts the flags before: it is at most the position -/
theorem lrow_le (x : Cert.Spec.Mat) (c : Fin 4096) : (Cert.Spec.lrow x c).toNat ≤ c.val := by
  unfold Cert.Spec.lrow
  exact runSum_sub_le (Cert.Spec.ci x) (fun j => setWidth_bit _) Cert.Spec.rw4096 Cert.Spec.hu0 c

end Cert.RefLemmas
end
-- ==== Proof.RefValue.lean ====
/-
  The value of the reference function at the ideal instance: its composed term is the specification, index by index.

  Every tensor value of the reference's @main is read at one index. The per-column scalar chain (sum of absolute
  values, the two bounds, the crossing and positive flags, the slope, the shift, the centre, the scale and the new
  generator's value) is the specification's chain by unfolding one operation at a time. The crossing flags as
  integers and their running sum are the specification's own terms, so the row index of the new generator of column
  c is 2048 + rank c, a number between 2048 and 6143: it is not negative as a signed word, the wrap of negative
  indices leaves it, and the same holds for the column index c. The result is then read row by row: row 0 holds the
  centres, rows 1 … 2047 the scaled generators, and the scatter-add of update j lands at (2048 + rank j, j), so in
  column c only update c can land, at row 2048 + rank c.
-/
import proofs.«135706_j46454366273944_2_alg».proof.Proof.RefTerm
import proofs.«135706_j46454366273944_2_alg».proof.Proof.Spec
import proofs.«135706_j46454366273944_2_alg».proof.Proof.RefLemmas
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The argument: a 2048 × 4096 matrix of extended reals. -/
abbrev Arg : Type := (⟨S2048x4096, .f32⟩ : BufTy).Contents (Elt Ideal)

/-! ## The slices of the argument -/

/-- The rows below the first: entry (k, c) of the slice is entry (k+1, c) of the matrix. -/
theorem v0_apply (x : Arg) (k : Fin 2047) (c : Fin 4096) : RefTerm.v0 x (ix2 k c) = x (ix2 k.succ c) := by
  unfold RefTerm.v0
  exact slice2_axis0_apply 1 x _ k c k.succ (by simp; omega)

/-- Their absolute values. -/
theorem v1_apply (x : Arg) (k : Fin 2047) (c : Fin 4096) :
    RefTerm.v1 x (ix2 k c) = Cert.Spec.absE (x (ix2 k.succ c)) := by
  show max (RefTerm.v0 x (ix2 k c)) (-(RefTerm.v0 x (ix2 k c))) = _
  rw [v0_apply]

/-- The first row as a vector: entry c is entry (0, c) of the matrix. -/
theorem v4_apply (x : Arg) (c : Fin 4096) : RefTerm.v4 x (ix1 c) = x (ix2 (0 : Fin 2048) c) := by
  unfold RefTerm.v4 RefTerm.v3
  refine (shapeCast_1a_a_apply _ _ c).trans ?_
  exact slice2_axis0_apply 0 x _ (0 : Fin 1) c (0 : Fin 2048) (by simp)

theorem v7_eq (x : Arg) : RefTerm.v7 x = RefTerm.v4 x := rfl
theorem v33_eq (x : Arg) : RefTerm.v33 x = RefTerm.v4 x := rfl
theorem v38_eq (x : Arg) : RefTerm.v38 x = RefTerm.v4 x := rfl

/-- A scalar float constant broadcast over the columns reads the constant's value. -/
theorem bconst_apply (b : BitVec 32) (c : Fin 4096) :
    broadcastInDim S4096 ![] bcast_S_S4096 (constant (F := Ideal) S_ .f32 b) (ix1 c) = Ideal.ofBits .f32 b := rfl

/-! ## The scalar chain of one column -/

/-- The sum over the rows below the first of the absolute values. -/
theorem v2_apply (x : Arg) (c : Fin 4096) : RefTerm.v2 x (ix1 c) = Cert.Spec.absSum (Cert.Spec.colOf x c) := by
  have h : S2047x4096.Reduces [0] S4096 := by decide
  show Ideal.hostReduceAdd reducesTo_S2047x4096_S4096_d0 (RefTerm.v1 x) (Ideal.ofBits .f32 0x00000000#32) (ix1 c) = _
  rw [Ideal.hostReduceAdd_single _ h, Ideal.ofBits_zero_f32, zero_add]
  unfold Cert.Spec.absSum
  show ∑ k : Fin 2047, _ = ∑ k : Fin 2047, _
  refine Finset.sum_congr rfl fun k _ => ?_
  have e : h.lift (ix1 c) k = ix2 k c := by
    funext a; match a with | ⟨0, _⟩ => rfl | ⟨1, _⟩ => rfl
  rw [e, v1_apply]; rfl

theorem v5_apply (x : Arg) (c : Fin 4096) : RefTerm.v5 x (ix1 c) = Cert.Spec.upper (Cert.Spec.colOf x c) := by
  show RefTerm.v4 x (ix1 c) + RefTerm.v2 x (ix1 c) = _
  rw [v4_apply, v2_apply]; rfl

theorem v8_apply (x : Arg) (c : Fin 4096) : RefTerm.v8 x (ix1 c) = Cert.Spec.lower (Cert.Spec.colOf x c) := by
  show RefTerm.v4 x (ix1 c) - RefTerm.v2 x (ix1 c) = _
  rw [v4_apply, v2_apply]; rfl

theorem v11_apply (x : Arg) (c : Fin 4096) : RefTerm.v11 x (ix1 c) = Cert.Spec.crossB (Cert.Spec.colOf x c) := by
  show Ideal.cmp .olt (RefTerm.v8 x (ix1 c) * RefTerm.v5 x (ix1 c)) (Ideal.ofBits .f32 0x00000000#32) = _
  rw [v8_apply, v5_apply]; rfl

theorem v13_apply (x : Arg) (c : Fin 4096) : RefTerm.v13 x (ix1 c) = Cert.Spec.posB (Cert.Spec.colOf x c) := by
  show Ideal.cmp .oge (RefTerm.v8 x (ix1 c)) (Ideal.ofBits .f32 0x00000000#32) = _
  rw [v8_apply]; rfl

theorem v14_apply (x : Arg) (c : Fin 4096) : RefTerm.v14 x (ix1 c) = Cert.Spec.crossf (Cert.Spec.colOf x c) := by
  show (((RefTerm.v11 x (ix1 c)).toNat : ℝ) : EReal) = _
  rw [v11_apply]; rfl

theorem v15_apply (x : Arg) (c : Fin 4096) : RefTerm.v15 x (ix1 c) = Cert.Spec.posf (Cert.Spec.colOf x c) := by
  show (((RefTerm.v13 x (ix1 c)).toNat : ℝ) : EReal) = _
  rw [v13_apply]; rfl

theorem v16_apply (x : Arg) (c : Fin 4096) : RefTerm.v16 x (ix1 c) = Cert.Spec.denom (Cert.Spec.colOf x c) := by
  show RefTerm.v5 x (ix1 c) - RefTerm.v8 x (ix1 c) = _
  rw [v5_apply, v8_apply]; rfl

theorem v18_apply (x : Arg) (c : Fin 4096) : RefTerm.v18 x (ix1 c) = Cert.Spec.safeB (Cert.Spec.colOf x c) := by
  show Ideal.cmp .une (RefTerm.v16 x (ix1 c)) (Ideal.ofBits .f32 0x00000000#32) = _
  rw [v16_apply]; rfl

theorem v19_apply (x : Arg) (c : Fin 4096) : RefTerm.v19 x (ix1 c)
    = Scalar.select (Cert.Spec.safeB (Cert.Spec.colOf x c)) (Cert.Spec.denom (Cert.Spec.colOf x c)) Cert.Spec.one := by
  show Scalar.select (RefTerm.v18 x (ix1 c)) (RefTerm.v16 x (ix1 c)) (Ideal.ofBits .f32 0x3F800000#32) = _
  rw [v18_apply, v16_apply]

theorem v21_apply (x : Arg) (c : Fin 4096) : RefTerm.v21 x (ix1 c) = Cert.Spec.ratio (Cert.Spec.colOf x c) := by
  show Scalar.select (RefTerm.v18 x (ix1 c)) (Ideal.div (RefTerm.v5 x (ix1 c)) (RefTerm.v19 x (ix1 c)))
    (Ideal.ofBits .f32 0x3F000000#32) = _
  rw [v18_apply, v5_apply, v19_apply]; rfl

theorem v23_apply (x : Arg) (c : Fin 4096) : RefTerm.v23 x (ix1 c) = Cert.Spec.lam (Cert.Spec.colOf x c) := by
  show RefTerm.v15 x (ix1 c) + RefTerm.v14 x (ix1 c) * RefTerm.v21 x (ix1 c) = _
  rw [v15_apply, v14_apply, v21_apply]; rfl

theorem v29_apply (x : Arg) (c : Fin 4096) : RefTerm.v29 x (ix1 c) = Cert.Spec.delta (Cert.Spec.colOf x c) := by
  show max (-(RefTerm.v23 x (ix1 c)) * RefTerm.v8 x (ix1 c))
    ((Ideal.ofBits .f32 0x3F800000#32 - RefTerm.v23 x (ix1 c)) * RefTerm.v5 x (ix1 c)) = _
  rw [v23_apply, v8_apply, v5_apply]; rfl

theorem v40_apply (x : Arg) (c : Fin 4096) : RefTerm.v40 x (ix1 c) = Cert.Spec.center (Cert.Spec.colOf x c) := by
  show (RefTerm.v29 x (ix1 c) * Ideal.ofBits .f32 0x3F000000#32 + RefTerm.v23 x (ix1 c) * RefTerm.v4 x (ix1 c))
      * RefTerm.v14 x (ix1 c) + RefTerm.v4 x (ix1 c) * RefTerm.v15 x (ix1 c) = _
  rw [v29_apply, v23_apply, v4_apply, v14_apply, v15_apply]; rfl

theorem v43_apply (x : Arg) (c : Fin 4096) : RefTerm.v43 x (ix1 c) = Cert.Spec.scale (Cert.Spec.colOf x c) := by
  show RefTerm.v23 x (ix1 c) * RefTerm.v14 x (ix1 c) + RefTerm.v15 x (ix1 c) = _
  rw [v23_apply, v14_apply, v15_apply]; rfl

theorem v60_apply (x : Arg) (c : Fin 4096) : RefTerm.v60 x (ix1 c) = Cert.Spec.newval (Cert.Spec.colOf x c) := by
  show RefTerm.v29 x (ix1 c) * Ideal.ofBits .f32 0x3F000000#32 * RefTerm.v14 x (ix1 c) = _
  rw [v29_apply, v14_apply]; rfl

/-! ## The crossing flags as integers and their running sum -/

theorem v47_apply (x : Arg) (c : Fin 4096) : RefTerm.v47 x (ix1 c) = Cert.Spec.ci x (ix1 c) := by
  show (RefTerm.v11 x (ix1 c)).setWidth 32 = _
  rw [v11_apply]; rfl

theorem v47_eq (x : Arg) : RefTerm.v47 x = Cert.Spec.ci x :=
  funext fun j => by rw [eq_ix1 j]; exact v47_apply x _

theorem v48_eq (x : Arg) : RefTerm.v48 x = Cert.Spec.runSum (Cert.Spec.ci x) Cert.Spec.rw4096 Cert.Spec.hu0 := by
  have e0 : broadcastInDim S_ ![] bcast_S_S_ (constantI S_ 32 0#32) = fun _ => (0#32 : BitVec 32) := rfl
  unfold RefTerm.v48 Cert.Spec.runSum
  rw [v47_eq, e0]

/-- The row index before the wrap: 2048 plus the rank of the column among the crossing ones. -/
theorem v51_apply (x : Arg) (c : Fin 4096) : RefTerm.v51 x (ix1 c) = 2048#32 + Cert.Spec.lrow x c := by
  show (2048#32 + RefTerm.v48 x (ix1 c)) - RefTerm.v47 x (ix1 c) = _
  rw [v48_eq, v47_eq]
  unfold Cert.Spec.lrow
  rw [BitVec.sub_eq_add_neg, BitVec.sub_eq_add_neg, BitVec.add_assoc]

/-! ## The index pairs -/

/-- A 32-bit word below 2^31 read signed is its natural number. -/
theorem toInt_of_lt {b : BitVec 32} (h : b.toNat < 2 ^ 31) : b.toInt = (b.toNat : Int) :=
  BitVec.toInt_eq_toNat_of_lt (by omega)

/-- Such a word is not negative. -/
theorem slt_zero_of_lt (b : BitVec 32) (h : b.toNat < 2 ^ 31) : IntOp.cmpi .slt b 0#32 = 0#1 := by
  refine eq_zero_of_ne_one fun h1 => ?_
  have h2 := IntOp.cmpi_slt.mp h1
  rw [toInt_of_lt h, BitVec.toInt_zero] at h2
  omega

/-- The row index 2048 + rank does not wrap: the rank of column c is at most c. -/
theorem rows_toNat (x : Arg) (c : Fin 4096) :
    (2048#32 + Cert.Spec.lrow x c).toNat = 2048 + (Cert.Spec.lrow x c).toNat := by
  have hl := Cert.RefLemmas.lrow_le x c
  have hc := c.isLt
  have h2 : (2048#32 : BitVec 32).toNat = 2048 := rfl
  rw [BitVec.toNat_add_of_lt (by rw [h2]; omega), h2]

theorem rows_lt (x : Arg) (c : Fin 4096) : (2048#32 + Cert.Spec.lrow x c).toNat < 6144 := by
  have hl := Cert.RefLemmas.lrow_le x c
  have hc := c.isLt
  rw [rows_toNat]; omega

/-- The row index is not negative, so the wrap leaves it. -/
theorem v65_apply (x : Arg) (c : Fin 4096) : RefTerm.v65 x (ix1 c) = 2048#32 + Cert.Spec.lrow x c := by
  have h := rows_lt x c
  show Scalar.select (IntOp.cmpi .slt (RefTerm.v51 x (ix1 c)) 0#32) (RefTerm.v64 x (ix1 c)) (RefTerm.v51 x (ix1 c)) = _
  rw [v51_apply, slt_zero_of_lt _ (by omega), select_zero]

theorem iota_toNat (j : Fin 4096) : (BitVec.ofNat 32 j.val).toNat = j.val := by
  have hj := j.isLt
  rw [BitVec.toNat_ofNat, Nat.mod_eq_of_lt (by omega)]

/-- The column index is not negative either. -/
theorem v70_apply (x : Arg) (j : Fin 4096) : RefTerm.v70 x (ix1 j) = BitVec.ofNat 32 j.val := by
  have hj := j.isLt
  show Scalar.select (IntOp.cmpi .slt (BitVec.ofNat 32 j.val) 0#32) (RefTerm.v69 x (ix1 j)) (BitVec.ofNat 32 j.val) = _
  rw [slt_zero_of_lt _ (by rw [iota_toNat]; omega), select_zero]

/-- A vector as a one-column matrix. -/
theorem col_apply {α : Type} (v : S4096.Idx → α) (j : Fin 4096) :
    broadcastInDim S4096x1 ![0] bcast_S4096_S4096x1_0 v (ix2 j (0 : Fin 1)) = v (ix1 j) :=
  broadcastInDim_apply _ _ _ _ (ix1 j) fun a => by
    match a with
    | ⟨0, _⟩ =>
      show j.val = if (4096 : Nat) = 1 then 0 else j.val
      rw [if_neg (by decide)]

/-- The index pairs: first the row, then the column. -/
theorem v73_apply0 (x : Arg) (j : Fin 4096) : RefTerm.v73 x (ix2 j (0 : Fin 2)) = 2048#32 + Cert.Spec.lrow x j := by
  unfold RefTerm.v73
  refine (concatenate_pair_apply_left _ (RefTerm.v71 x) (RefTerm.v72 x) concatenates_S4096x1_S4096x1_S4096x2_d1
    (ix2 j (0 : Fin 2)) rfl (ix2 j (0 : Fin 1)) (fun b => ?_)).trans ((col_apply _ j).trans (v65_apply x j))
  match b with
  | ⟨0, _⟩ => rfl
  | ⟨1, _⟩ => rfl

theorem v73_apply1 (x : Arg) (j : Fin 4096) : RefTerm.v73 x (ix2 j (1 : Fin 2)) = BitVec.ofNat 32 j.val := by
  unfold RefTerm.v73
  refine (concatenate_pair_apply_right _ (RefTerm.v71 x) (RefTerm.v72 x) concatenates_S4096x1_S4096x1_S4096x2_d1
    (ix2 j (1 : Fin 2)) rfl rfl (ix2 j (0 : Fin 1)) (fun b hb => ?_) rfl).trans ((col_apply _ j).trans (v70_apply x j))
  match b with
  | ⟨0, _⟩ => rfl
  | ⟨1, _⟩ => exact absurd rfl hb

theorem v73_toInt0 (x : Arg) (j : Fin 4096) :
    (RefTerm.v73 x (ix2 j (0 : Fin 2))).toInt = ((2048 + (Cert.Spec.lrow x j).toNat : Nat) : Int) := by
  have h := rows_lt x j
  rw [v73_apply0, toInt_of_lt (by omega), rows_toNat]

theorem v73_toInt1 (x : Arg) (j : Fin 4096) : (RefTerm.v73 x (ix2 j (1 : Fin 2))).toInt = (j.val : Int) := by
  have hj := j.isLt
  rw [v73_apply1, toInt_of_lt (by rw [iota_toNat]; omega), iota_toNat]

/-! ## The rows of the result -/

/-- The scale broadcast over the rows below the first. -/
theorem v45_apply (x : Arg) (k : Fin 2047) (c : Fin 4096) :
    RefTerm.v45 x (ix2 k c) = Cert.Spec.scale (Cert.Spec.colOf x c) := by
  unfold RefTerm.v45 RefTerm.v44
  refine (broadcastInDim_apply _ _ _ (ix2 k c) (ix2 (0 : Fin 1) c) fun a => ?_).trans
    ((broadcastInDim_apply _ _ _ (ix2 (0 : Fin 1) c) (ix1 c) fun a => ?_).trans (v43_apply x c))
  · match a with
    | ⟨0, _⟩ => rfl
    | ⟨1, _⟩ =>
      show c.val = if (4096 : Nat) = 1 then 0 else c.val
      rw [if_neg (by decide)]
  · match a with
    | ⟨0, _⟩ =>
      show c.val = if (4096 : Nat) = 1 then 0 else c.val
      rw [if_neg (by decide)]

/-- The generators times the scale. -/
theorem v46_apply (x : Arg) (k : Fin 2047) (c : Fin 4096) :
    RefTerm.v46 x (ix2 k c) = x (ix2 k.succ c) * Cert.Spec.scale (Cert.Spec.colOf x c) := by
  show RefTerm.v0 x (ix2 k c) * RefTerm.v45 x (ix2 k c) = _
  rw [v0_apply, v45_apply]

/-- The zero matrix with the centres in row 0. -/
theorem v55_apply (x : Arg) (r : Fin 6144) (c : Fin 4096) :
    RefTerm.v55 x (ix2 r c) = if r.val = 0 then Cert.Spec.center (Cert.Spec.colOf x c) else 0 := by
  have e0 : broadcastInDim S1 ![] bcast_S_S1 (constantI S_ 32 0#32) = fun _ => (0#32 : BitVec 32) := rfl
  unfold RefTerm.v55
  rw [e0]
  refine (Cert.RefLemmas.scatter_row0 _ _ r c).trans ?_
  rw [v40_apply]
  refine if_congr Iff.rfl rfl ?_
  exact Ideal.ofBits_zero_f32

/-- … and the scaled generators in rows 1 … 2047. -/
theorem v57_apply (x : Arg) (r : Fin 6144) (c : Fin 4096) :
    RefTerm.v57 x (ix2 r c) = if r.val = 0 then Cert.Spec.center (Cert.Spec.colOf x c)
      else if h : r.val < 2048 then x (ix2 ⟨r.val, h⟩ c) * Cert.Spec.scale (Cert.Spec.colOf x c) else 0 := by
  have e1 : broadcastInDim S1 ![] bcast_S_S1 (constantI S_ 32 1#32) = fun _ => (1#32 : BitVec 32) := rfl
  unfold RefTerm.v57
  rw [e1]
  refine (Cert.RefLemmas.scatter_rows1 _ _ r c).trans ?_
  by_cases h0 : r.val = 0
  · rw [dif_neg (by omega), v55_apply, if_pos h0, if_pos h0]
  · by_cases h1 : r.val < 2048
    · rw [dif_pos ⟨by omega, h1⟩, if_neg h0, dif_pos h1, v46_apply]
      exact congrArg (fun k => x (ix2 k c) * Cert.Spec.scale (Cert.Spec.colOf x c)) (Fin.ext (by simp; omega))
    · rw [dif_neg (by omega), v55_apply, if_neg h0, if_neg h0, dif_neg h1]

/-- The scatter-add puts newval of column c at row 2048 + rank of c, and nothing anywhere else: the pair
    (row, column) of update j is (2048 + rank j, j), so only update c can land in column c. -/
theorem v74_apply (x : Arg) (r : Fin 6144) (c : Fin 4096) :
    RefTerm.v74 x (ix2 r c) = RefTerm.v57 x (ix2 r c)
      + (if r.val = 2048 + (Cert.Spec.lrow x c).toNat then Cert.Spec.newval (Cert.Spec.colOf x c) else 0) := by
  unfold RefTerm.v74
  refine (Cert.RefLemmas.scatterAdd_point _ _ _ r c).trans (congrArg (RefTerm.v57 x (ix2 r c) + ·) ?_)
  have hf : (Finset.univ.filter fun j : Fin 4096 => (RefTerm.v73 x (ix2 j 0)).toInt = (r.val : Int)
        ∧ (RefTerm.v73 x (ix2 j 1)).toInt = (c.val : Int))
      = if r.val = 2048 + (Cert.Spec.lrow x c).toNat then {c} else ∅ := by
    ext j
    rw [Finset.mem_filter, v73_toInt0, v73_toInt1]
    split
    · next h =>
      rw [Finset.mem_singleton]
      constructor
      · rintro ⟨_, _, h2⟩; exact Fin.ext (by omega)
      · rintro rfl; exact ⟨Finset.mem_univ _, by omega, rfl⟩
    · next h =>
      refine iff_of_false ?_ (Finset.notMem_empty j)
      rintro ⟨_, h1, h2⟩
      have e : j = c := Fin.ext (by omega)
      subst e; omega
  rw [hf]
  split
  · rw [Finset.sum_singleton, v60_apply]
  · rw [Finset.sum_empty]

/-! ## The reference's value is the specification -/

theorem out_eq (x : (⟨S2048x4096, .f32⟩ : BufTy).Contents (Elt Ideal)) : RefTerm.out (F := Ideal) x = Cert.Spec.out x := by
  funext i
  obtain ⟨r, c, rfl⟩ : ∃ (r : Fin 6144) (c : Fin 4096), i = ix2 r c := ⟨i 0, i 1, eq_ix2 i⟩
  have hr := r.isLt
  show RefTerm.v74 x (ix2 r c) = if r.val = 0 then Cert.Spec.center (Cert.Spec.colOf x c)
    else if h : r.val < 2048 then x (ix2 ⟨r.val, h⟩ c) * Cert.Spec.scale (Cert.Spec.colOf x c)
    else if BitVec.ofNat 32 (r.val - 2048) = Cert.Spec.lrow x c then Cert.Spec.newval (Cert.Spec.colOf x c) else 0
  rw [v74_apply, v57_apply]
  by_cases h0 : r.val = 0
  · rw [if_pos h0, if_pos h0, if_neg (by omega), add_zero]
  · by_cases h1 : r.val < 2048
    · rw [if_neg h0, if_neg h0, dif_pos h1, dif_pos h1, if_neg (by omega), add_zero]
    · rw [if_neg h0, if_neg h0, dif_neg h1, dif_neg h1, zero_add]
      refine if_congr ?_ rfl rfl
      constructor
      · intro h
        rw [h, Nat.add_sub_cancel_left, BitVec.ofNat_toNat, BitVec.setWidth_eq]
      · intro h
        rw [← h, BitVec.toNat_ofNat, Nat.mod_eq_of_lt (by omega)]
        omega

end Cert.ReferenceIdeal.RefValue

end
-- ==== Proof.lean ====
/-
  The certificate of the two-pass zonotope ReLU kernel against its jnp reference.

  Both programs compute, per column of the input, the interval bounds of a zonotope (centre row plus or minus the sum
  of the absolute generator rows), from them a slope, a shift, a new centre, a scale for the generators and a new
  error term, and lay the results out in a matrix of 6144 rows: the centres, the scaled generators, and below them
  one new row per crossing column, in the order of the columns (Proof/Spec.lean states the result entry by entry).
  The kernel does this in two passes over column strips with the ranks of the crossing columns computed between them
  by a running sum; the reference by whole-array operations and three scatters. At the ideal instance the two results
  are one function of the input: the column sums agree because a sum with a leading zero term is the sum without it,
  the scatter of each crossing column's term into its own row and column is the kernel's row-equals-rank selection
  because distinct columns never meet, and 0 + v = v. The equality holds for every extended-real input, so the
  precondition is not used.

  The frames: the kernel program's run is Proof/KRun.lean (Proof/BRun.lean at the word level), the two regions' bodies
  Proof/KReg0.lean and Proof/KReg1.lean; the reference's run is Proof/RefRun.lean. The values: Proof/KValue0.lean and
  Proof/KValue1.lean (kernel), Proof/RefValue.lean (reference).
-/
import proofs.«135706_j46454366273944_2_alg».proof.Defs
import proofs.«135706_j46454366273944_2_alg».proof.Proof.Gen.Kernel
import proofs.«135706_j46454366273944_2_alg».proof.Proof.Gen.KernelIdeal
import proofs.«135706_j46454366273944_2_alg».proof.Proof.Gen.ReferenceIdeal
import proofs.«135706_j46454366273944_2_alg».proof.Proof.Gen.Pre_finite_inputs
import proofs.«135706_j46454366273944_2_alg».proof.Proof.BRun
import proofs.«135706_j46454366273944_2_alg».proof.Proof.KRun
import proofs.«135706_j46454366273944_2_alg».proof.Proof.KValue1
import proofs.«135706_j46454366273944_2_alg».proof.Proof.RefRun
import proofs.«135706_j46454366273944_2_alg».proof.Proof.RefValue

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.RefRun.frame (F := Ideal) m ρ

/-- At the ideal instance both programs end with the specification's matrix of the (common) argument. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)), ?_, ?_⟩
  · exact (θ_run (Cert.KernelIdeal.defs (F := Ideal)) _ _).mono
      (fun _ h c => ⟨(h c).1.trans (Cert.KernelIdeal.KValue.result_eq m ρ c), (h c).2⟩)
      (Cert.KernelIdeal.Hand.run_value (F := Ideal) m ρ)
  · refine (θ_run (Cert.ReferenceIdeal.defs (F := Ideal)) _ _).mono (fun _ h c => ⟨(h c).1.trans ?_, (h c).2⟩)
      (Cert.ReferenceIdeal.RefRun.run (F := Ideal) m' ρ')
    rw [Cert.ReferenceIdeal.RefValue.out_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
